-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S512x128 : Shape := ⟨2, ![512, 128]⟩
abbrev S512 : Shape := ⟨1, ![512]⟩
abbrev S128x256 : Shape := ⟨2, ![128, 256]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S512 : S_.BroadcastsInDim S512 (![] : Fin 0 → Fin S512.rank)
  reducesTo_S512_S_d0 : S512.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg9 : FVec F S512 .f32) (main_arg10 : FVec F S128x256 .f32) (main_arg11 : FVec F S128 .f32) (main_v33 : IVec S_ 1) : IVec S_ 1 :=
  let main_v34 : FVec F S512 .f32 := Host.absf main_arg9
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S128x256 .f32 := Host.absf main_arg10
  let main_cst_14 : FVec F S_ .f32 := constant S_ .f32 0x7F800000#32
  let main_v40 : FVec F S128x256 .f32 := broadcastInDim S128x256 ![] bcast_S_S128x256 main_cst_14
  let main_v41 : IVec S128x256 1 := cmpf .olt main_v39 main_v40
  let main_c_15 : IVec S_ 1 := constantI S_ 1 1#1
  let main_v42 : IVec S_ 1 := (fun x v => Host.reduce IntOp.andi x v reducesTo_S128x256_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg6 : FVec F S128x256 .f32) (main_arg7 : FVec F S128 .f32) (main_arg8 : FVec F S512x128 .f32) (main_arg9 : FVec F S512 .f32) (main_arg10 : FVec F S128x256 .f32) (main_arg11 : FVec F S128 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S128x256 .f32 := Host.absf main_arg6
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S512x128 .f32 := Host.absf main_arg8
  let main_cst_10 : FVec F S_ .f32 := constant S_ .f32 0x7F800000#32
  let main_v30 : FVec F S512x128 .f32 := broadcastInDim S512x128 ![] bcast_S_S512x128 main_cst_10
  let main_v31 : IVec S512x128 1 := cmpf .olt main_v29 main_v30
  let main_c_11 : IVec S_ 1 := constantI S_ 1 1#1
  let main_v32 : IVec S_ 1 := (fun x v => Host.reduce IntOp.andi x v reducesTo_S512x128_S_d0_1 h_S_) main_v31 main_c_11
  let main_v33 : IVec S_ 1 := andi main_v28 main_v32
  fn_part2 (F := F) main_arg9 main_arg10 main_arg11 main_v33

def fn {F : FTy → Type} [FloatOps F] (main_arg0 : FVec F S50000x128 .f32) (main_arg1 : FVec F S50000x128 .f32) (main_arg2 : IVec S2x800000 32) (main_arg3 : IVec S2x800000 32) (main_arg4 : FVec F S512x128 .f32) (main_arg5 : FVec F S512 .f32) (main_arg6 : FVec F S128x256 .f32) (main_arg7 : FVec F S128 .f32) (main_arg8 : FVec F S512x128 .f32) (main_arg9 : FVec F S512 .f32) (main_arg10 : FVec F S128x256 .f32) (main_arg11 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S512x128 .f32 := Host.absf main_arg4
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S512 .f32 := Host.absf main_arg5
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg6 main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S512x128 : Shape := ⟨2, ![512, 128]⟩
abbrev S512 : Shape := ⟨1, ![512]⟩
abbrev S128x256 : Shape := ⟨2, ![128, 256]⟩
abbrev S128 : Shape := ⟨1, ![128]⟩
abbrev S128x128 : Shape := ⟨2, ![128, 128]⟩
abbrev S384x128 : Shape := ⟨2, ![384, 128]⟩
abbrev S384 : Shape := ⟨1, ![384]⟩
abbrev S2000x128 : Shape := ⟨2, ![2000, 128]⟩
abbrev S128x384 : Shape := ⟨2, ![128, 384]⟩
abbrev S2000x384 : Shape := ⟨2, ![2000, 384]⟩
abbrev S1x384 : Shape := ⟨2, ![1, 384]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S5000x128 : Shape := ⟨2, ![5000, 128]⟩
abbrev S1x128 : Shape := ⟨2, ![1, 128]⟩
abbrev S1x50000x128 : Shape := ⟨3, ![1, 50000, 128]⟩
abbrev S2x50000x128 : Shape := ⟨3, ![2, 50000, 128]⟩

abbrev nBuf : Space → Nat
  | .hbm => 73
  | .vmem => 30
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S2x800000, .i32⟩
  | .hbm, ⟨3, _⟩ => ⟨S2x800000, .i32⟩
  | .hbm, ⟨4, _⟩ => ⟨S512x128, .f32⟩
  | .hbm, ⟨5, _⟩ => ⟨S512, .f32⟩
  | .hbm, ⟨6, _⟩ => ⟨S128x256, .f32⟩
  | .hbm, ⟨7, _⟩ => ⟨S128, .f32⟩
  | .hbm, ⟨8, _⟩ => ⟨S512x128, .f32⟩
  | .hbm, ⟨9, _⟩ => ⟨S512, .f32⟩
  | .hbm, ⟨10, _⟩ => ⟨S128x256, .f32⟩
  | .hbm, ⟨11, _⟩ => ⟨S128, .f32⟩
  | .hbm, ⟨12, _⟩ => ⟨S128x128, .f32⟩
  | .hbm, ⟨13, _⟩ => ⟨S128x128, .f32⟩
  | .hbm, ⟨14, _⟩ => ⟨S128x128, .f32⟩
  | .hbm, ⟨15, _⟩ => ⟨S384x128, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S384, .f32⟩
  | .hbm, ⟨20, _⟩ => ⟨S50000x128, .f32⟩
  | .hbm, ⟨21, _⟩ => ⟨S1x800000, .i32⟩
  | .hbm, ⟨22, _⟩ => ⟨S800000, .i32⟩
  | .hbm, ⟨23, _⟩ => ⟨S1x800000, .i32⟩
  | .hbm, ⟨24, _⟩ => ⟨S800000, .i32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x128, .f32⟩
  | .hbm, ⟨34, _⟩ => ⟨S_, .f32⟩
  | .hbm, ⟨35, _⟩ => ⟨S50000x128, .f32⟩
  | .hbm, ⟨36, _⟩ => ⟨S800000x1, .i32⟩
  | .hbm, ⟨37, _⟩ => ⟨S50000x128, .f32⟩
  | .hbm, ⟨38, _⟩ => ⟨S128x128, .f32⟩
  | .hbm, ⟨39, _⟩ => ⟨S128x128, .f32⟩
  | .hbm, ⟨40, _⟩ => ⟨S50000x128, .f32⟩
  | .hbm, ⟨41, _⟩ => ⟨S128x128, .f32⟩
  | .hbm, ⟨42, _⟩ => ⟨S128x128, .f32⟩
  | .hbm, ⟨43, _⟩ => ⟨S128x128, .f32⟩
  | .hbm, ⟨44, _⟩ => ⟨S384x128, .f32⟩
  | .hbm, ⟨45, _⟩ => ⟨S128, .f32⟩
  | .hbm, ⟨46, _⟩ => ⟨S128, .f32⟩
  | .hbm, ⟨47, _⟩ => ⟨S128, .f32⟩
  | .hbm, ⟨48, _⟩ => ⟨S384, .f32⟩
  | .hbm, ⟨49, _⟩ => ⟨S50000x128, .f32⟩
  | .hbm, ⟨50, _⟩ => ⟨S1x800000, .i32⟩
  | .hbm, ⟨51, _⟩ => ⟨S800000, .i32⟩
  | .hbm, ⟨52, _⟩ => ⟨S1x800000, .i32⟩
  | .hbm, ⟨53, _⟩ => ⟨S800000, .i32⟩
  | .hbm, ⟨54, _⟩ => ⟨S_, .i32⟩
  | .hbm, ⟨55, _⟩ => ⟨S800000, .i32⟩
  | .hbm, ⟨56, _⟩ => ⟨S800000, .i1⟩
  | .hbm, ⟨57, _⟩ => ⟨S_, .i32⟩
  | .hbm, ⟨58, _⟩ => ⟨S800000, .i32⟩
  | .hbm, ⟨59, _⟩ => ⟨S800000, .i32⟩
  | .hbm, ⟨60, _⟩ => ⟨S800000, .i32⟩
  | .hbm, ⟨61, _⟩ => ⟨S800000x1, .i32⟩
  | .hbm, ⟨62, _⟩ => ⟨S800000x128, .f32⟩
  | .hbm, ⟨63, _⟩ => ⟨S_, .f32⟩
  | .hbm, ⟨64, _⟩ => ⟨S50000x128, .f32⟩
  | .hbm, ⟨65, _⟩ => ⟨S800000x1, .i32⟩
  | .hbm, ⟨66, _⟩ => ⟨S50000x128, .f32⟩
  | .hbm, ⟨67, _⟩ => ⟨S128x128, .f32⟩
  | .hbm, ⟨68, _⟩ => ⟨S128x128, .f32⟩
  | .hbm, ⟨69, _⟩ => ⟨S50000x128, .f32⟩
  | .hbm, ⟨70, _⟩ => ⟨S1x50000x128, .f32⟩
  | .hbm, ⟨71, _⟩ => ⟨S1x50000x128, .f32⟩
  | .hbm, ⟨72, _⟩ => ⟨S2x50000x128, .f32⟩
  | .local _ .vmem, ⟨0, _⟩ => ⟨S2000x128, .f32⟩
  | .local _ .vmem, ⟨1, _⟩ => ⟨S2000x128, .f32⟩
  | .local _ .vmem, ⟨2, _⟩ => ⟨S384x128, .f32⟩
  | .local _ .vmem, ⟨3, _⟩ => ⟨S384, .f32⟩
  | .local _ .vmem, ⟨4, _⟩ => ⟨S2000x128, .f32⟩
  | .local _ .vmem, ⟨5, _⟩ => ⟨S2000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S128x128, .f32⟩
  | .local _ .vmem, ⟨12, _⟩ => ⟨S128, .f32⟩
  | .local _ .vmem, ⟨13, _⟩ => ⟨S5000x128, .f32⟩
  | .local _ .vmem, ⟨14, _⟩ => ⟨S5000x128, .f32⟩
  | .local _ .vmem, ⟨15, _⟩ => ⟨S2000x128, .f32⟩
  | .local _ .vmem, ⟨16, _⟩ => ⟨S2000x128, .f32⟩
  | .local _ .vmem, ⟨17, _⟩ => ⟨S384x128, .f32⟩
  | .local _ .vmem, ⟨18, _⟩ => ⟨S384, .f32⟩
  | .local _ .vmem, ⟨19, _⟩ => ⟨S2000x128, .f32⟩
  | .local _ .vmem, ⟨20, _⟩ => ⟨S2000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S128x128, .f32⟩
  | .local _ .vmem, ⟨26, _⟩ => ⟨S128x128, .f32⟩
  | .local _ .vmem, ⟨27, _⟩ => ⟨S128, .f32⟩
  | .local _ .vmem, ⟨28, _⟩ => ⟨S5000x128, .f32⟩
  | .local _ .vmem, ⟨29, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_0 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_c_1 : Ref sig .tc := ⟨.hbm, 54, rfl⟩
abbrev main_v39 : Ref sig .tc := ⟨.hbm, 55, rfl⟩
abbrev main_v40 : Ref sig .tc := ⟨.hbm, 56, rfl⟩
abbrev main_c_2 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_3 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg5_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem5_1 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S384x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S384 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S512x128_S128x128_0_0 : S512x128.Slices ![0, 0] S128x128
  slices_S512x128_S128x128_256_0 : S512x128.Slices ![256, 0] S128x128
  slices_S512x128_S128x128_384_0 : S512x128.Slices ![384, 0] S128x128
  concatenates_S128x128_S128x128_S128x128_S384x128_d0 : Shape.Concatenates [S128x128, S128x128, S128x128] S384x128 0
  slices_S512_S128_0 : S512.Slices ![0] S128
  slices_S512_S128_256 : S512.Slices ![256] S128
  slices_S512_S128_384 : S512.Slices ![384] S128
  concatenates_S128_S128_S128_S384_d0 : Shape.Concatenates [S128, S128, S128] S384 0
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S384x128_S384x128_0_0 : ∀ a, (![0, 0] : Fin 2 → Nat) a + S384x128.size a ≤ S384x128.size a
  h_S384x128 : 0 < S384x128.numel
  shapeCasts_S384x128_S384x128 : S384x128.ShapeCasts S384x128
  transposes_S384x128_p1_0_S128x384 : S384x128.Transposes [1, 0] S128x384
  inb_S384_S384_0 : ∀ a, (![0] : Fin 1 → Nat) a + S384.size a ≤ S384.size a
  h_S384 : 0 < S384.numel
  shapeCasts_S384_S384 : S384.ShapeCasts S384
  shapeCasts_S384_S1x384 : S384.ShapeCasts S1x384
  broadcasts_S1x384_S2000x384 : S1x384.Broadcasts S2000x384
  slices_S2000x384_o0_0_S2000x128 : S2000x384.Slices ![0, 0] S2000x128
  slices_S2000x384_o0_128_S2000x128 : S2000x384.Slices ![0, 128] S2000x128
  slices_S2000x384_o0_256_S2000x128 : S2000x384.Slices ![0, 256] S2000x128
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  slices_S128x256_S128x128_0_0 : S128x256.Slices ![0, 0] S128x128
  slices_S128x256_S128x128_0_128 : S128x256.Slices ![0, 128] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  transposes_S128x128_p1_0_S128x128 : S128x128.Transposes [1, 0] S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  bcast_S50000x128_S1x50000x128_1_2 : S50000x128.BroadcastsInDim S1x50000x128 (![1, 2] : Fin 2 → Fin S1x50000x128.rank)
  concatenates_S1x50000x128_S1x50000x128_S2x50000x128_d0 : Shape.Concatenates [S1x50000x128, S1x50000x128] S2x50000x128 0
  dot_S2000x128_S128x384_S2000x384_1_0_0_1_n_n_wf : DotDims.WF S2000x128 S128x384 S2000x384 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S384x128.size a ≤ S384x128.size a
  hwx0_1 : ∀ i : grid0.Coords, EltTy.bits .f32 = 32 ∨ (Rect.block (s := S384x128) S384x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S384.size a ≤ S384.size a
  hwx0_2 : ∀ i : grid0.Coords, EltTy.bits .f32 = 32 ∨ (Rect.block (s := S384) S384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S384x128.size a ≤ S384x128.size a
  hwx2_1 : ∀ i : grid2.Coords, EltTy.bits .f32 = 32 ∨ (Rect.block (s := S384x128) S384x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S384.size a ≤ S384.size a
  hwx2_2 : ∀ i : grid2.Coords, EltTy.bits .f32 = 32 ∨ (Rect.block (s := S384) S384.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S50000x128.size a
  hwx2_3 : ∀ i : grid2.Coords, EltTy.bits .f32 = 32 ∨ (Rect.block (s := S50000x128) S2000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128.size a ≤ S128.size a
  hwx3_4 : ∀ i : grid3.Coords, EltTy.bits .f32 = 32 ∨ (Rect.block (s := S128) S128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)

variable [Facts₀]

def dot_S2000x128_S128x384_S2000x384_1_0_0_1_n_n : DotDims S2000x128 S128x384 S2000x384 where
  lhsContracting := [1]
  rhsContracting := [0]
  lhsNonContracting := [0]
  rhsNonContracting := [1]
  lhsBatch := []
  rhsBatch := []
  wf := dot_S2000x128_S128x384_S2000x384_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S384x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_arg1) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S384x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v33) S384.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v34) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_arg0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v48) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v49) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v50) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg11) S128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v51) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S512x128 : Shape := ⟨2, ![512, 128]⟩
abbrev S512 : Shape := ⟨1, ![512]⟩
abbrev S128x256 : Shape := ⟨2, ![128, 256]⟩
abbrev S128 : Shape := ⟨1, ![128]⟩
abbrev S128x512 : Shape := ⟨2, ![128, 512]⟩
abbrev S50000x512 : Shape := ⟨2, ![50000, 512]⟩
abbrev S1x512 : Shape := ⟨2, ![1, 512]⟩
abbrev S_ : Shape := ⟨0, ![]⟩
abbrev S1x800000 : Shape := ⟨2, ![1, 800000]⟩
abbrev S800000 : Shape := ⟨1, ![800000]⟩
abbrev S800000x1 : Shape := ⟨2, ![800000, 1]⟩
abbrev S800000x128 : Shape := ⟨2, ![800000, 128]⟩
abbrev S50000x256 : Shape := ⟨2, ![50000, 256]⟩
abbrev S256x128 : Shape := ⟨2, ![256, 128]⟩
abbrev S1x128 : Shape := ⟨2, ![1, 128]⟩
abbrev S1x50000x128 : Shape := ⟨3, ![1, 50000, 128]⟩
abbrev S2x50000x128 : Shape := ⟨3, ![2, 50000, 128]⟩

abbrev nBuf : Space → Nat
  | .hbm => 125
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S2x800000, .i32⟩
  | .hbm, ⟨3, _⟩ => ⟨S2x800000, .i32⟩
  | .hbm, ⟨4, _⟩ => ⟨S512x128, .f32⟩
  | .hbm, ⟨5, _⟩ => ⟨S512, .f32⟩
  | .hbm, ⟨6, _⟩ => ⟨S128x256, .f32⟩
  | .hbm, ⟨7, _⟩ => ⟨S128, .f32⟩
  | .hbm, ⟨8, _⟩ => ⟨S512x128, .f32⟩
  | .hbm, ⟨9, _⟩ => ⟨S512, .f32⟩
  | .hbm, ⟨10, _⟩ => ⟨S128x256, .f32⟩
  | .hbm, ⟨11, _⟩ => ⟨S128, .f32⟩
  | .hbm, ⟨12, _⟩ => ⟨S128x512, .f32⟩
  | .hbm, ⟨13, _⟩ => ⟨S50000x512, .f32⟩
  | .hbm, ⟨14, _⟩ => ⟨S1x512, .f32⟩
  | .hbm, ⟨15, _⟩ => ⟨S50000x512, .f32⟩
  | .hbm, ⟨16, _⟩ => ⟨S50000x512, .f32⟩
  | .hbm, ⟨17, _⟩ => ⟨S50000x128, .f32⟩
  | .hbm, ⟨18, _⟩ => ⟨S50000x128, .f32⟩
  | .hbm, ⟨19, _⟩ => ⟨S50000x128, .f32⟩
  | .hbm, ⟨20, _⟩ => ⟨S50000x128, .f32⟩
  | .hbm, ⟨21, _⟩ => ⟨S50000x128, .f32⟩
  | .hbm, ⟨22, _⟩ => ⟨S50000x128, .f32⟩
  | .hbm, ⟨23, _⟩ => ⟨S_, .f32⟩
  | .hbm, ⟨24, _⟩ => ⟨S50000x128, .f32⟩
  | .hbm, ⟨25, _⟩ => ⟨S50000x128, .f32⟩
  | .hbm, ⟨26, _⟩ => ⟨S_, .f32⟩
  | .hbm, ⟨27, _⟩ => ⟨S50000x128, .f32⟩
  | .hbm, ⟨28, _⟩ => ⟨S50000x128, .f32⟩
  | .hbm, ⟨29, _⟩ => ⟨S50000x128, .f32⟩
  | .hbm, ⟨30, _⟩ => ⟨S50000x128, .f32⟩
  | .hbm, ⟨31, _⟩ => ⟨S50000x128, .f32⟩
  | .hbm, ⟨32, _⟩ => ⟨S50000x128, .f32⟩
  | .hbm, ⟨33, _⟩ => ⟨S_, .f32⟩
  | .hbm, ⟨34, _⟩ => ⟨S50000x128, .f32⟩
  | .hbm, ⟨35, _⟩ => ⟨S50000x128, .f32⟩
  | .hbm, ⟨36, _⟩ => ⟨S_, .f32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S50000x128, .f32⟩
  | .hbm, ⟨41, _⟩ => ⟨S1x800000, .i32⟩
  | .hbm, ⟨42, _⟩ => ⟨S800000, .i32⟩
  | .hbm, ⟨43, _⟩ => ⟨S1x800000, .i32⟩
  | .hbm, ⟨44, _⟩ => ⟨S800000, .i32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x128, .f32⟩
  | .hbm, ⟨54, _⟩ => ⟨S_, .f32⟩
  | .hbm, ⟨55, _⟩ => ⟨S50000x128, .f32⟩
  | .hbm, ⟨56, _⟩ => ⟨S800000x1, .i32⟩
  | .hbm, ⟨57, _⟩ => ⟨S50000x128, .f32⟩
  | .hbm, ⟨58, _⟩ => ⟨S50000x256, .f32⟩
  | .hbm, ⟨59, _⟩ => ⟨S256x128, .f32⟩
  | .hbm, ⟨60, _⟩ => ⟨S50000x128, .f32⟩
  | .hbm, ⟨61, _⟩ => ⟨S1x128, .f32⟩
  | .hbm, ⟨62, _⟩ => ⟨S50000x128, .f32⟩
  | .hbm, ⟨63, _⟩ => ⟨S50000x128, .f32⟩
  | .hbm, ⟨64, _⟩ => ⟨S_, .f32⟩
  | .hbm, ⟨65, _⟩ => ⟨S50000x128, .f32⟩
  | .hbm, ⟨66, _⟩ => ⟨S50000x128, .f32⟩
  | .hbm, ⟨67, _⟩ => ⟨S128x512, .f32⟩
  | .hbm, ⟨68, _⟩ => ⟨S50000x512, .f32⟩
  | .hbm, ⟨69, _⟩ => ⟨S1x512, .f32⟩
  | .hbm, ⟨70, _⟩ => ⟨S50000x512, .f32⟩
  | .hbm, ⟨71, _⟩ => ⟨S50000x512, .f32⟩
  | .hbm, ⟨72, _⟩ => ⟨S50000x128, .f32⟩
  | .hbm, ⟨73, _⟩ => ⟨S50000x128, .f32⟩
  | .hbm, ⟨74, _⟩ => ⟨S50000x128, .f32⟩
  | .hbm, ⟨75, _⟩ => ⟨S50000x128, .f32⟩
  | .hbm, ⟨76, _⟩ => ⟨S50000x128, .f32⟩
  | .hbm, ⟨77, _⟩ => ⟨S50000x128, .f32⟩
  | .hbm, ⟨78, _⟩ => ⟨S_, .f32⟩
  | .hbm, ⟨79, _⟩ => ⟨S50000x128, .f32⟩
  | .hbm, ⟨80, _⟩ => ⟨S50000x128, .f32⟩
  | .hbm, ⟨81, _⟩ => ⟨S_, .f32⟩
  | .hbm, ⟨82, _⟩ => ⟨S50000x128, .f32⟩
  | .hbm, ⟨83, _⟩ => ⟨S50000x128, .f32⟩
  | .hbm, ⟨84, _⟩ => ⟨S50000x128, .f32⟩
  | .hbm, ⟨85, _⟩ => ⟨S50000x128, .f32⟩
  | .hbm, ⟨86, _⟩ => ⟨S50000x128, .f32⟩
  | .hbm, ⟨87, _⟩ => ⟨S50000x128, .f32⟩
  | .hbm, ⟨88, _⟩ => ⟨S_, .f32⟩
  | .hbm, ⟨89, _⟩ => ⟨S50000x128, .f32⟩
  | .hbm, ⟨90, _⟩ => ⟨S50000x128, .f32⟩
  | .hbm, ⟨91, _⟩ => ⟨S_, .f32⟩
  | .hbm, ⟨92, _⟩ => ⟨S50000x128, .f32⟩
  | .hbm, ⟨93, _⟩ => ⟨S50000x128, .f32⟩
  | .hbm, ⟨94, _⟩ => ⟨S50000x128, .f32⟩
  | .hbm, ⟨95, _⟩ => ⟨S50000x128, .f32⟩
  | .hbm, ⟨96, _⟩ => ⟨S1x800000, .i32⟩
  | .hbm, ⟨97, _⟩ => ⟨S800000, .i32⟩
  | .hbm, ⟨98, _⟩ => ⟨S1x800000, .i32⟩
  | .hbm, ⟨99, _⟩ => ⟨S800000, .i32⟩
  | .hbm, ⟨100, _⟩ => ⟨S_, .i32⟩
  | .hbm, ⟨101, _⟩ => ⟨S800000, .i32⟩
  | .hbm, ⟨102, _⟩ => ⟨S800000, .i1⟩
  | .hbm, ⟨103, _⟩ => ⟨S_, .i32⟩
  | .hbm, ⟨104, _⟩ => ⟨S800000, .i32⟩
  | .hbm, ⟨105, _⟩ => ⟨S800000, .i32⟩
  | .hbm, ⟨106, _⟩ => ⟨S800000, .i32⟩
  | .hbm, ⟨107, _⟩ => ⟨S800000x1, .i32⟩
  | .hbm, ⟨108, _⟩ => ⟨S800000x128, .f32⟩
  | .hbm, ⟨109, _⟩ => ⟨S_, .f32⟩
  | .hbm, ⟨110, _⟩ => ⟨S50000x128, .f32⟩
  | .hbm, ⟨111, _⟩ => ⟨S800000x1, .i32⟩
  | .hbm, ⟨112, _⟩ => ⟨S50000x128, .f32⟩
  | .hbm, ⟨113, _⟩ => ⟨S50000x256, .f32⟩
  | .hbm, ⟨114, _⟩ => ⟨S256x128, .f32⟩
  | .hbm, ⟨115, _⟩ => ⟨S50000x128, .f32⟩
  | .hbm, ⟨116, _⟩ => ⟨S1x128, .f32⟩
  | .hbm, ⟨117, _⟩ => ⟨S50000x128, .f32⟩
  | .hbm, ⟨118, _⟩ => ⟨S50000x128, .f32⟩
  | .hbm, ⟨119, _⟩ => ⟨S_, .f32⟩
  | .hbm, ⟨120, _⟩ => ⟨S50000x128, .f32⟩
  | .hbm, ⟨121, _⟩ => ⟨S50000x128, .f32⟩
  | .hbm, ⟨122, _⟩ => ⟨S1x50000x128, .f32⟩
  | .hbm, ⟨123, _⟩ => ⟨S1x50000x128, .f32⟩
  | .hbm, ⟨124, _⟩ => ⟨S2x50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_cst_0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_1 : Ref sig .tc := ⟨.hbm, 33, rfl⟩
abbrev main_v19 : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c : Ref sig .tc := ⟨.hbm, 45, rfl⟩
abbrev main_v29 : Ref sig .tc := ⟨.hbm, 46, rfl⟩
abbrev main_v30 : Ref sig .tc := ⟨.hbm, 47, rfl⟩
abbrev main_c_3 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_4 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_call0_cst : Ref sig .tc := ⟨.hbm, 64, rfl⟩
abbrev main_call0_v0 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_5 : Ref sig .tc := ⟨.hbm, 78, rfl⟩
abbrev main_v57 : Ref sig .tc := ⟨.hbm, 79, rfl⟩
abbrev main_v58 : Ref sig .tc := ⟨.hbm, 80, rfl⟩
abbrev main_cst_6 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_7 : Ref sig .tc := ⟨.hbm, 88, rfl⟩
abbrev main_v65 : Ref sig .tc := ⟨.hbm, 89, rfl⟩
abbrev main_v66 : Ref sig .tc := ⟨.hbm, 90, rfl⟩
abbrev main_cst_8 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_c_9 : Ref sig .tc := ⟨.hbm, 100, rfl⟩
abbrev main_v75 : Ref sig .tc := ⟨.hbm, 101, rfl⟩
abbrev main_v76 : Ref sig .tc := ⟨.hbm, 102, rfl⟩
abbrev main_c_10 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_11 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_call1_cst : Ref sig .tc := ⟨.hbm, 119, rfl⟩
abbrev main_call1_v0 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩

abbrev nD : Nat := 1
abbrev τ : Topo := Topo.v7x

variable {F : FTy → Type} [FloatOps F]

class Facts₀ : Prop where
  transposes_S512x128_S128x512_1_0 : S512x128.Transposes [1, 0] S128x512
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  slices_S50000x512_S50000x128_0_0 : S50000x512.Slices ![0, 0] S50000x128
  slices_S50000x512_S50000x128_0_128 : S50000x512.Slices ![0, 128] S50000x128
  slices_S50000x512_S50000x128_0_256 : S50000x512.Slices ![0, 256] S50000x128
  slices_S50000x512_S50000x128_0_384 : S50000x512.Slices ![0, 384] S50000x128
  bcast_S_S50000x128 : S_.BroadcastsInDim S50000x128 (![] : Fin 0 → Fin S50000x128.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S50000x128_S50000x128_S50000x256_d1 : Shape.Concatenates [S50000x128, S50000x128] S50000x256 1
  transposes_S128x256_S256x128_1_0 : S128x256.Transposes [1, 0] S256x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S50000x128_S1x50000x128_1_2 : S50000x128.BroadcastsInDim S1x50000x128 (![1, 2] : Fin 2 → Fin S1x50000x128.rank)
  concatenates_S1x50000x128_S1x50000x128_S2x50000x128_d0 : Shape.Concatenates [S1x50000x128, S1x50000x128] S2x50000x128 0
  dot_S50000x128_S128x512_S50000x512_1_0_0_1_n_n_wf : DotDims.WF S50000x128 S128x512 S50000x512 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x256_S256x128_S50000x128_1_0_0_1_n_n_wf : DotDims.WF S50000x256 S256x128 S50000x128 [1] [0] [0] [1] [] []

variable [Facts₀]

def dot_S50000x128_S128x512_S50000x512_1_0_0_1_n_n : DotDims S50000x128 S128x512 S50000x512 where
  lhsContracting := [1]
  rhsContracting := [0]
  lhsNonContracting := [0]
  rhsNonContracting := [1]
  lhsBatch := []
  rhsBatch := []
  wf := dot_S50000x128_S128x512_S50000x512_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.KFrame.lean ====
/-
  The run of the whole program, region by region, at any float instance.

  The program is five stretches of host operations around four pipelined kernel regions: two "message" regions (a block of
  2000 node rows against the whole 384 × 128 gate matrix and its bias, one block of messages out) and two "update" regions
  (a block of 5000 target rows and the same rows of the aggregated messages against two 128 × 128 halves of the linear map
  and its bias, one block out). Every body loads its input blocks whole, computes one value and stores it over its whole
  output block, so what a region leaves in its output array is, block by block, that one value of the input blocks
  (`outK_W`), and every other buffer is as the region found it. The buffers' contents at each boundary between two
  items are a fold from the launch memory (`B0 … B9`): a host stretch applies its operations, a region replaces its
  output array by what its write-backs leave. The run ends with every unscoped buffer at `B9`; no item writes an argument.
-/
import proofs.«165492_j790273982767_2_alg».proof.Proof.LaunchK
import proofs.«165492_j790273982767_2_alg».proof.Proof.Gen.Kernel.Skeleton
import proofs.«165492_j790273982767_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.GenP

variable {F : FTy → Type} [FloatOps F]

local notation "𝕄" => MT nD τ sig Unit (Elt F) ℕ (UR sig nD τ) ℕ

/-! # The host stretches: none allocates a buffer, and each writes only its own results -/

/-- No pipeline has a prefetched table. -/
abbrev adm : (p : Fin 4) → (pcfgs (F := F) p).Adm := fun p => (cfgs p).toPCfg_adm

theorem hostOps0_fresh : (hostOps0 : List (HloOp τ sig (Elt F))).Forall fun op => op.fresh = ∅ := by
  simp only [List.Forall]; repeat' constructor
/-- The references host stretch 0 writes: one per operation, its result. -/
abbrev hostOps0_W : List (Ref sig .tc) := [main_v0, main_v1, main_v2, main_v3, main_v4, main_v5, main_v6, main_v7]
theorem hostOps0_writes : (hostOps0 : List (HloOp τ sig (Elt F))).Forall fun op => op.writes ⊆ (hostOps0_W.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)

theorem hostOps1_fresh : (hostOps1 : List (HloOp τ sig (Elt F))).Forall fun op => op.fresh = ∅ := by
  simp only [List.Forall]; repeat' constructor
/-- The references host stretch 1 writes: one per operation, its result. -/
abbrev hostOps1_W : List (Ref sig .tc) := [main_v9, main_v10, main_v11, main_v12, main_c, main_v13, main_v14, main_c_0, main_v15, main_v16, main_v17, main_v18, main_v19, main_cst, main_v20, main_v21, main_v22, main_v23, main_v24]
theorem hostOps1_writes : (hostOps1 : List (HloOp τ sig (Elt F))).Forall fun op => op.writes ⊆ (hostOps1_W.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)

theorem hostOps2_fresh : (hostOps2 : List (HloOp τ sig (Elt F))).Forall fun op => op.fresh = ∅ := by
  simp only [List.Forall]; repeat' constructor
/-- The references host stretch 2 writes: one per operation, its result. -/
abbrev hostOps2_W : List (Ref sig .tc) := [main_v26, main_v27, main_v28, main_v29, main_v30, main_v31, main_v32, main_v33]
theorem hostOps2_writes : (hostOps2 : List (HloOp τ sig (Elt F))).Forall fun op => op.writes ⊆ (hostOps2_W.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)

theorem hostOps3_fresh : (hostOps3 : List (HloOp τ sig (Elt F))).Forall fun op => op.fresh = ∅ := by
  simp only [List.Forall]; repeat' constructor
/-- The references host stretch 3 writes: one per operation, its result. -/
abbrev hostOps3_W : List (Ref sig .tc) := [main_v35, main_v36, main_v37, main_v38, main_c_1, main_v39, main_v40, main_c_2, main_v41, main_v42, main_v43, main_v44, main_v45, main_cst_3, main_v46, main_v47, main_v48, main_v49, main_v50]
theorem hostOps3_writes : (hostOps3 : List (HloOp τ sig (Elt F))).Forall fun op => op.writes ⊆ (hostOps3_W.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)

theorem hostOps4_fresh : (hostOps4 : List (HloOp τ sig (Elt F))).Forall fun op => op.fresh = ∅ := by
  simp only [List.Forall]; repeat' constructor
/-- The references host stretch 4 writes: one per operation, its result. -/
abbrev hostOps4_W : List (Ref sig .tc) := [main_v52, main_v53, main_v54]
theorem hostOps4_writes : (hostOps4 : List (HloOp τ sig (Elt F))).Forall fun op => op.writes ⊆ (hostOps4_W.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)

variable (m : (ℓ : Loc nD τ sig) → Buf (Elt F) ℓ) (ρ : Dev nD → PrngReg)
section Regions
-- the buffers' contents when a region is entered: the parameter each region's half is stated at
variable (V : (c : Dev nD) → (b : Ref sig .tc) → Buf (Elt F) ((c : Thread nD τ).loc b))

/-! # Region 0: `cc0__message_kernel`, at the entry contents `V` -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not (unfetched, the block index has
    not moved), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not (unfetched, the block index has
    not moved), for any proof data whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not (unfetched, the block index has
    not moved), for any proof data whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take the whole block -/

abbrev r0_0 : Rect S2000x128 := Rect.unit (s := S2000x128) ![0, 0] S2000x128.size inb_S2000x128_S2000x128_0_0
abbrev r0_1 : Rect S384x128 := Rect.unit (s := S384x128) ![0, 0] S384x128.size inb_S384x128_S384x128_0_0
abbrev r0_2 : Rect S384 := Rect.unit (s := S384) ![0] S384.size inb_S384_S384_0
abbrev r0_3 : Rect S2000x128 := Rect.unit (s := S2000x128) ![0, 0] S2000x128.size inb_S2000x128_S2000x128_0_0

/-- The output window's staging buffer after the body, from the input windows' blocks: its one store. -/
def out0_3 (x0 : Vec F S2000x128 .f32) (x1 : Vec F S384x128 .f32) (x2 : Vec F S384 .f32) : Vec F S2000x128 .f32 :=
  View.canon [⟨r0_3, k0_pay1 (View.ld x0 r0_0) (View.ld x1 r0_1) (View.ld x2 r0_2)⟩]

/-- The one store covers the buffer. -/
theorem cover0_3 (p0 : Vec F S2000x128 .f32) (y : S2000x128.Idx) :
    ∃ pc ∈ ([⟨r0_3, p0⟩] : List (View.Piece (Elt F) S2000x128 .f32)), y ∈ pc.1.set :=
  View.cover_of_tiled [⟨r0_3, p0⟩] S2000x128.size (by rfl) y

set_option maxHeartbeats 4000000 in
/-- The body on whole staging memrefs, the inputs' at contents `xW` and the output's at anything, runs to the continuation
    holding the inputs' as they were and the output's at `out0_3` of the inputs'. -/
theorem sound_kernel0 (c : Dev nD) (E : Set ℕ) (i : grid0.Coords) (arg0 : Memref sig .tc .vmem S2000x128 .f32) (harg0 : arg0.IsWhole) (arg1 : Memref sig .tc .vmem S384x128 .f32) (harg1 : arg1.IsWhole) (arg2 : Memref sig .tc .vmem S384 .f32) (harg2 : arg2.IsWhole) (arg3 : Memref sig .tc .vmem S2000x128 .f32) (harg3 : arg3.IsWhole)
    (x0 : Vec F S2000x128 .f32) (x1 : Vec F S384x128 .f32) (x2 : Vec F S384 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out0_3 x0 x1 x2)) -∗ K ⟨⟩))
      ⊢ wp frame (wpE (defs₀ (F := F)) Variants.none c none) E (cc0__message_kernel i arg0 harg0 arg1 harg1 arg2 harg2 arg3 harg3) K := by
  simp only [cc0__message_kernel_eq_skeleton]; unfold cc0__message_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of pipeline 0 on core `c`: the arrays as the region finds them; after the body at point `t` each
    input's buffer at its block and the output's at `out0_3` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

/-! # Region 1: `cc1__update_kernel`, at the entry contents `V` -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not (unfetched, the block index has
    not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not (unfetched, the block index has
    not moved), for any proof data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not (unfetched, the block index has
    not moved), for any proof data whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not (unfetched, the block index has
    not moved), for any proof data whose array is `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, fetched there or not (unfetched, the block index has
    not moved), for any proof data whose array is `V`'s and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take the whole block -/

abbrev r1_0 : Rect S5000x128 := Rect.unit (s := S5000x128) ![0, 0] S5000x128.size inb_S5000x128_S5000x128_0_0
abbrev r1_1 : Rect S5000x128 := Rect.unit (s := S5000x128) ![0, 0] S5000x128.size inb_S5000x128_S5000x128_0_0
abbrev r1_2 : Rect S128x128 := Rect.unit (s := S128x128) ![0, 0] S128x128.size inb_S128x128_S128x128_0_0
abbrev r1_3 : Rect S128x128 := Rect.unit (s := S128x128) ![0, 0] S128x128.size inb_S128x128_S128x128_0_0
abbrev r1_4 : Rect S128 := Rect.unit (s := S128) ![0] S128.size inb_S128_S128_0
abbrev r1_5 : Rect S5000x128 := Rect.unit (s := S5000x128) ![0, 0] S5000x128.size inb_S5000x128_S5000x128_0_0

/-- The output window's staging buffer after the body, from the input windows' blocks: its one store. -/
def out1_5 (x0 : Vec F S5000x128 .f32) (x1 : Vec F S5000x128 .f32) (x2 : Vec F S128x128 .f32) (x3 : Vec F S128x128 .f32) (x4 : Vec F S128 .f32) : Vec F S5000x128 .f32 :=
  View.canon [⟨r1_5, k1_pay1 (View.ld x0 r1_0) (View.ld x1 r1_1) (View.ld x2 r1_2) (View.ld x3 r1_3) (View.ld x4 r1_4)⟩]

/-- The one store covers the buffer. -/
theorem cover1_5 (p0 : Vec F S5000x128 .f32) (y : S5000x128.Idx) :
    ∃ pc ∈ ([⟨r1_5, p0⟩] : List (View.Piece (Elt F) S5000x128 .f32)), y ∈ pc.1.set :=
  View.cover_of_tiled [⟨r1_5, p0⟩] S5000x128.size (by rfl) y

set_option maxHeartbeats 4000000 in
/-- The body on whole staging memrefs, the inputs' at contents `xW` and the output's at anything, runs to the continuation
    holding the inputs' as they were and the output's at `out1_5` of the inputs'. -/
theorem sound_kernel1 (c : Dev nD) (E : Set ℕ) (i : grid1.Coords) (arg0 : Memref sig .tc .vmem S5000x128 .f32) (harg0 : arg0.IsWhole) (arg1 : Memref sig .tc .vmem S5000x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S5000x128 .f32) (harg5 : arg5.IsWhole)
    (x0 : Vec F S5000x128 .f32) (x1 : Vec F S5000x128 .f32) (x2 : Vec F S128x128 .f32) (x3 : Vec F S128x128 .f32) (x4 : Vec F S128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out1_5 x0 x1 x2 x3 x4)) -∗ K ⟨⟩))
      ⊢ wp frame (wpE (defs₀ (F := F)) Variants.none c none) E (cc1__update_kernel i arg0 harg0 arg1 harg1 arg2 harg2 arg3 harg3 arg4 harg4 arg5 harg5) K := by
  simp only [cc1__update_kernel_eq_skeleton]; unfold cc1__update_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The proof data of pipeline 1 on core `c`: the arrays as the region finds them; after the body at point `t` each
    input's buffer at its block and the output's at `out1_5` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so `sound_kernel1` applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation1 (c : Dev nD) : BodyObligation (dat1 (F := F) V c) (defs₀ (F := F)) Variants.none () Set.univ := fun t => by
  rw [bigSep_W1, bigSep_W1]
  exact sound_body1 V c t

/-! # Region 2: `cc2__message_kernel`, at the entry contents `V` -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not (unfetched, the block index has
    not moved), for any proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, fetched there or not (unfetched, the block index has
    not moved), for any proof data whose array is `V`'s and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, fetched there or not (unfetched, the block index has
    not moved), for any proof data whose array is `V`'s and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the one store take the whole block -/

abbrev r2_0 : Rect S2000x128 := Rect.unit (s := S2000x128) ![0, 0] S2000x128.size inb_S2000x128_S2000x128_0_0
abbrev r2_1 : Rect S384x128 := Rect.unit (s := S384x128) ![0, 0] S384x128.size inb_S384x128_S384x128_0_0
abbrev r2_2 : Rect S384 := Rect.unit (s := S384) ![0] S384.size inb_S384_S384_0
abbrev r2_3 : Rect S2000x128 := Rect.unit (s := S2000x128) ![0, 0] S2000x128.size inb_S2000x128_S2000x128_0_0

/-- The output window's staging buffer after the body, from the input windows' blocks: its one store. -/
def out2_3 (x0 : Vec F S2000x128 .f32) (x1 : Vec F S384x128 .f32) (x2 : Vec F S384 .f32) : Vec F S2000x128 .f32 :=
  View.canon [⟨r2_3, k2_pay1 (View.ld x0 r2_0) (View.ld x1 r2_1) (View.ld x2 r2_2)⟩]

/-- The one store covers the buffer. -/
theorem cover2_3 (p0 : Vec F S2000x128 .f32) (y : S2000x128.Idx) :
    ∃ pc ∈ ([⟨r2_3, p0⟩] : List (View.Piece (Elt F) S2000x128 .f32)), y ∈ pc.1.set :=
  View.cover_of_tiled [⟨r2_3, p0⟩] S2000x128.size (by rfl) y

set_option maxHeartbeats 4000000 in
/-- The body on whole staging memrefs, the inputs' at contents `xW` and the output's at anything, runs to the continuation
    holding the inputs' as they were and the output's at `out2_3` of the inputs'. -/
theorem sound_kernel2 (c : Dev nD) (E : Set ℕ) (i : grid2.Coords) (arg0 : Memref sig .tc .vmem S2000x128 .f32) (harg0 : arg0.IsWhole) (arg1 : Memref sig .tc .vmem S384x128 .f32) (harg1 : arg1.IsWhole) (arg2 : Memref sig .tc .vmem S384 .f32) (harg2 : arg2.IsWhole) (arg3 : Memref sig .tc .vmem S2000x128 .f32) (harg3 : arg3.IsWhole)
    (x0 : Vec F S2000x128 .f32) (x1 : Vec F S384x128 .f32) (x2 : Vec F S384 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out2_3 x0 x1 x2)) -∗ K ⟨⟩))
      ⊢ wp frame (wpE (defs₀ (F := F)) Variants.none c none) E (cc2__message_kernel i arg0 harg0 arg1 harg1 arg2 harg2 arg3 harg3) K := by
  simp only [cc2__message_kernel_eq_skeleton]; unfold cc2__message_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of pipeline 2 on core `c`: the arrays as the region finds them; after the body at point `t` each
    input's buffer at its block and the output's at `out2_3` of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so `sound_kernel2` applies; the invariant and the core's
    dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

/-! # Region 3: `cc3__update_kernel`, at the entry contents `V` -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, fetched there or not (unfetched, the block index has
    not moved), for any proof data whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at every point, fetched there or not (unfetched, the block index has
    not moved), for any proof data whose array is `V`'s and whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds its block at every point, fetched there or not (unfetched, the block index has
    not moved), for any proof data whose array is `V`'s and whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's staging buffer holds its block at every point, fetched there or not (unfetched, the block index has
    not moved), for any proof data whose array is `V`'s and whose body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's staging buffer holds its block at every point, fetched there or not (unfetched, the block index has
    not moved), for any proof data whose array is `V`'s and whose body leaves the block in place. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and the one store take the whole block -/

abbrev r3_0 : Rect S5000x128 := Rect.unit (s := S5000x128) ![0, 0] S5000x128.size inb_S5000x128_S5000x128_0_0
abbrev r3_1 : Rect S5000x128 := Rect.unit (s := S5000x128) ![0, 0] S5000x128.size inb_S5000x128_S5000x128_0_0
abbrev r3_2 : Rect S128x128 := Rect.unit (s := S128x128) ![0, 0] S128x128.size inb_S128x128_S128x128_0_0
abbrev r3_3 : Rect S128x128 := Rect.unit (s := S128x128) ![0, 0] S128x128.size inb_S128x128_S128x128_0_0
abbrev r3_4 : Rect S128 := Rect.unit (s := S128) ![0] S128.size inb_S128_S128_0
abbrev r3_5 : Rect S5000x128 := Rect.unit (s := S5000x128) ![0, 0] S5000x128.size inb_S5000x128_S5000x128_0_0

/-- The output window's staging buffer after the body, from the input windows' blocks: its one store. -/
def out3_5 (x0 : Vec F S5000x128 .f32) (x1 : Vec F S5000x128 .f32) (x2 : Vec F S128x128 .f32) (x3 : Vec F S128x128 .f32) (x4 : Vec F S128 .f32) : Vec F S5000x128 .f32 :=
  View.canon [⟨r3_5, k3_pay1 (View.ld x0 r3_0) (View.ld x1 r3_1) (View.ld x2 r3_2) (View.ld x3 r3_3) (View.ld x4 r3_4)⟩]

/-- The one store covers the buffer. -/
theorem cover3_5 (p0 : Vec F S5000x128 .f32) (y : S5000x128.Idx) :
    ∃ pc ∈ ([⟨r3_5, p0⟩] : List (View.Piece (Elt F) S5000x128 .f32)), y ∈ pc.1.set :=
  View.cover_of_tiled [⟨r3_5, p0⟩] S5000x128.size (by rfl) y

set_option maxHeartbeats 4000000 in
/-- The body on whole staging memrefs, the inputs' at contents `xW` and the output's at anything, runs to the continuation
    holding the inputs' as they were and the output's at `out3_5` of the inputs'. -/
theorem sound_kernel3 (c : Dev nD) (E : Set ℕ) (i : grid3.Coords) (arg0 : Memref sig .tc .vmem S5000x128 .f32) (harg0 : arg0.IsWhole) (arg1 : Memref sig .tc .vmem S5000x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S5000x128 .f32) (harg5 : arg5.IsWhole)
    (x0 : Vec F S5000x128 .f32) (x1 : Vec F S5000x128 .f32) (x2 : Vec F S128x128 .f32) (x3 : Vec F S128x128 .f32) (x4 : Vec F S128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out3_5 x0 x1 x2 x3 x4)) -∗ K ⟨⟩))
      ⊢ wp frame (wpE (defs₀ (F := F)) Variants.none c none) E (cc3__update_kernel i arg0 harg0 arg1 harg1 arg2 harg2 arg3 harg3 arg4 harg4 arg5 harg5) K := by
  simp only [cc3__update_kernel_eq_skeleton]; unfold cc3__update_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-- The proof data of pipeline 3 on core `c`: the arrays as the region finds them; after the body at point `t` each
    input's buffer at its block and the output's at `out3_5` of the input blocks; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks, so `sound_kernel3` applies; the invariant and the core's
    dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation3 (c : Dev nD) : BodyObligation (dat3 (F := F) V c) (defs₀ (F := F)) Variants.none () Set.univ := fun t => by
  rw [bigSep_W3, bigSep_W3]
  exact sound_body3 V c t

end Regions

/-! # The buffers' contents at each boundary: a fold through the program -/

/-- Core `c`'s buffers at launch. -/
abbrev B0 : Dev nD → Valuation τ sig (Elt F) := fun c b => (s₀ m ρ).mem ((c : Dev nD), b)
/-- After host stretch 0 (region 0's entry). -/
abbrev B1 : Dev nD → Valuation τ sig (Elt F) := fun c => StableHlo.after hostOps0 (B0 m ρ c)
abbrev Bv1 : (c : Dev nD) → (b : Ref sig .tc) → Buf (Elt F) ((c : Thread nD τ).loc b) := fun c b => B1 m ρ c b
/-- At region 0's exit: its arrays at what the pipeline leaves, every other buffer as entered. -/
def B2 (c : Dev nD) : Valuation τ sig (Elt F) :=
  Pipeline.withArrays spec0 c (B1 m ρ c) fun w => (dat0 (Bv1 m ρ) c).arrAt w cfg0.N
theorem B2_arr (c : Dev nD) (w : Fin cfg0.W) :
    B2 m ρ c (Proc.devRef .tc (Pipeline.arrRef spec0 w)) = (dat0 (Bv1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev Bv2 : (c : Dev nD) → (b : Ref sig .tc) → Buf (Elt F) ((c : Thread nD τ).loc b) := fun c b => B2 m ρ c b
theorem hF0 (c : Dev nD) (w : Fin cfg0.W) : (dat0 (Bv1 m ρ) c).arrAt w cfg0.N = Bv2 m ρ c (Pipeline.arrRef spec0 w) :=
  (B2_arr m ρ c w).symm
theorem hrest0 (c : Dev nD) : ∀ b, b ∉ Finset.univ.image (Pipeline.arrRef spec0) → Bv2 m ρ c b = Bv1 m ρ c b :=
  fun b hb => B2_of_ne m ρ c b fun w e => hb (Finset.mem_image.mpr ⟨w, Finset.mem_univ _, e⟩)
/-- A region changes only its output array: an input array ends as entered, and no other buffer is touched. -/
theorem B2_keep (c : Dev nD) (r : Ref sig .tc) (h : r ≠ main_v8) : B2 m ρ c (Proc.devRef .tc r) = B1 m ρ c (Proc.devRef .tc r) := by
  by_cases h0 : r = main_arg0
  · subst h0; exact (B2_arr m ρ c 0).trans (((dat0 (Bv1 m ρ) c).arrAt_in 0 rfl _).trans (A_eq0 (Bv1 m ρ) c 0))
  by_cases h1 : r = main_v3
  · subst h1; exact (B2_arr m ρ c 1).trans (((dat0 (Bv1 m ρ) c).arrAt_in 1 rfl _).trans (A_eq0 (Bv1 m ρ) c 1))
  by_cases h2 : r = main_v7
  · subst h2; exact (B2_arr m ρ c 2).trans (((dat0 (Bv1 m ρ) c).arrAt_in 2 rfl _).trans (A_eq0 (Bv1 m ρ) c 2))
  exact B2_of_ne m ρ c r (fun w e => by
    match w with
    | ⟨0, _⟩ => exact h0 e.symm
    | ⟨1, _⟩ => exact h1 e.symm
    | ⟨2, _⟩ => exact h2 e.symm
    | ⟨3, _⟩ => exact h e.symm)
/-- After host stretch 1 (region 1's entry). -/
abbrev B3 : Dev nD → Valuation τ sig (Elt F) := fun c => StableHlo.after hostOps1 (B2 m ρ c)
abbrev Bv3 : (c : Dev nD) → (b : Ref sig .tc) → Buf (Elt F) ((c : Thread nD τ).loc b) := fun c b => B3 m ρ c b
/-- At region 1's exit: its arrays at what the pipeline leaves, every other buffer as entered. -/
def B4 (c : Dev nD) : Valuation τ sig (Elt F) :=
  Pipeline.withArrays spec1 c (B3 m ρ c) fun w => (dat1 (Bv3 m ρ) c).arrAt w cfg1.N
theorem B4_arr (c : Dev nD) (w : Fin cfg1.W) :
    B4 m ρ c (Proc.devRef .tc (Pipeline.arrRef spec1 w)) = (dat1 (Bv3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev Bv4 : (c : Dev nD) → (b : Ref sig .tc) → Buf (Elt F) ((c : Thread nD τ).loc b) := fun c b => B4 m ρ c b
theorem hF1 (c : Dev nD) (w : Fin cfg1.W) : (dat1 (Bv3 m ρ) c).arrAt w cfg1.N = Bv4 m ρ c (Pipeline.arrRef spec1 w) :=
  (B4_arr m ρ c w).symm
theorem hrest1 (c : Dev nD) : ∀ b, b ∉ Finset.univ.image (Pipeline.arrRef spec1) → Bv4 m ρ c b = Bv3 m ρ c b :=
  fun b hb => B4_of_ne m ρ c b fun w e => hb (Finset.mem_image.mpr ⟨w, Finset.mem_univ _, e⟩)
/-- A region changes only its output array: an input array ends as entered, and no other buffer is touched. -/
theorem B4_keep (c : Dev nD) (r : Ref sig .tc) (h : r ≠ main_v25) : B4 m ρ c (Proc.devRef .tc r) = B3 m ρ c (Proc.devRef .tc r) := by
  by_cases h0 : r = main_arg1
  · subst h0; exact (B4_arr m ρ c 0).trans (((dat1 (Bv3 m ρ) c).arrAt_in 0 rfl _).trans (A_eq1 (Bv3 m ρ) c 0))
  by_cases h1 : r = main_v22
  · subst h1; exact (B4_arr m ρ c 1).trans (((dat1 (Bv3 m ρ) c).arrAt_in 1 rfl _).trans (A_eq1 (Bv3 m ρ) c 1))
  by_cases h2 : r = main_v23
  · subst h2; exact (B4_arr m ρ c 2).trans (((dat1 (Bv3 m ρ) c).arrAt_in 2 rfl _).trans (A_eq1 (Bv3 m ρ) c 2))
  by_cases h3 : r = main_v24
  · subst h3; exact (B4_arr m ρ c 3).trans (((dat1 (Bv3 m ρ) c).arrAt_in 3 rfl _).trans (A_eq1 (Bv3 m ρ) c 3))
  by_cases h4 : r = main_arg7
  · subst h4; exact (B4_arr m ρ c 4).trans (((dat1 (Bv3 m ρ) c).arrAt_in 4 rfl _).trans (A_eq1 (Bv3 m ρ) c 4))
  exact B4_of_ne m ρ c r (fun w e => by
    match w with
    | ⟨0, _⟩ => exact h0 e.symm
    | ⟨1, _⟩ => exact h1 e.symm
    | ⟨2, _⟩ => exact h2 e.symm
    | ⟨3, _⟩ => exact h3 e.symm
    | ⟨4, _⟩ => exact h4 e.symm
    | ⟨5, _⟩ => exact h e.symm)
/-- After host stretch 2 (region 2's entry). -/
abbrev B5 : Dev nD → Valuation τ sig (Elt F) := fun c => StableHlo.after hostOps2 (B4 m ρ c)
abbrev Bv5 : (c : Dev nD) → (b : Ref sig .tc) → Buf (Elt F) ((c : Thread nD τ).loc b) := fun c b => B5 m ρ c b
/-- At region 2's exit: its arrays at what the pipeline leaves, every other buffer as entered. -/
def B6 (c : Dev nD) : Valuation τ sig (Elt F) :=
  Pipeline.withArrays spec2 c (B5 m ρ c) fun w => (dat2 (Bv5 m ρ) c).arrAt w cfg2.N
theorem B6_arr (c : Dev nD) (w : Fin cfg2.W) :
    B6 m ρ c (Proc.devRef .tc (Pipeline.arrRef spec2 w)) = (dat2 (Bv5 m ρ) c).arrAt w cfg2.N := by
  unfold B6; exact Pipeline.withArrays_arr spec2 launch2.win.arr_inj c _ _ w
theorem B6_of_ne (c : Dev nD) (b : Ref sig .tc) (hb : ∀ w, Pipeline.arrRef spec2 w ≠ b) :
    B6 m ρ c (Proc.devRef .tc b) = B5 m ρ c (Proc.devRef .tc b) := by
  unfold B6; exact Pipeline.withArrays_of_ne spec2 c _ _ b hb
abbrev Bv6 : (c : Dev nD) → (b : Ref sig .tc) → Buf (Elt F) ((c : Thread nD τ).loc b) := fun c b => B6 m ρ c b
theorem hF2 (c : Dev nD) (w : Fin cfg2.W) : (dat2 (Bv5 m ρ) c).arrAt w cfg2.N = Bv6 m ρ c (Pipeline.arrRef spec2 w) :=
  (B6_arr m ρ c w).symm
theorem hrest2 (c : Dev nD) : ∀ b, b ∉ Finset.univ.image (Pipeline.arrRef spec2) → Bv6 m ρ c b = Bv5 m ρ c b :=
  fun b hb => B6_of_ne m ρ c b fun w e => hb (Finset.mem_image.mpr ⟨w, Finset.mem_univ _, e⟩)
/-- A region changes only its output array: an input array ends as entered, and no other buffer is touched. -/
theorem B6_keep (c : Dev nD) (r : Ref sig .tc) (h : r ≠ main_v34) : B6 m ρ c (Proc.devRef .tc r) = B5 m ρ c (Proc.devRef .tc r) := by
  by_cases h0 : r = main_arg1
  · subst h0; exact (B6_arr m ρ c 0).trans (((dat2 (Bv5 m ρ) c).arrAt_in 0 rfl _).trans (A_eq2 (Bv5 m ρ) c 0))
  by_cases h1 : r = main_v29
  · subst h1; exact (B6_arr m ρ c 1).trans (((dat2 (Bv5 m ρ) c).arrAt_in 1 rfl _).trans (A_eq2 (Bv5 m ρ) c 1))
  by_cases h2 : r = main_v33
  · subst h2; exact (B6_arr m ρ c 2).trans (((dat2 (Bv5 m ρ) c).arrAt_in 2 rfl _).trans (A_eq2 (Bv5 m ρ) c 2))
  exact B6_of_ne m ρ c r (fun w e => by
    match w with
    | ⟨0, _⟩ => exact h0 e.symm
    | ⟨1, _⟩ => exact h1 e.symm
    | ⟨2, _⟩ => exact h2 e.symm
    | ⟨3, _⟩ => exact h e.symm)
/-- After host stretch 3 (region 3's entry). -/
abbrev B7 : Dev nD → Valuation τ sig (Elt F) := fun c => StableHlo.after hostOps3 (B6 m ρ c)
abbrev Bv7 : (c : Dev nD) → (b : Ref sig .tc) → Buf (Elt F) ((c : Thread nD τ).loc b) := fun c b => B7 m ρ c b
/-- At region 3's exit: its arrays at what the pipeline leaves, every other buffer as entered. -/
def B8 (c : Dev nD) : Valuation τ sig (Elt F) :=
  Pipeline.withArrays spec3 c (B7 m ρ c) fun w => (dat3 (Bv7 m ρ) c).arrAt w cfg3.N
theorem B8_arr (c : Dev nD) (w : Fin cfg3.W) :
    B8 m ρ c (Proc.devRef .tc (Pipeline.arrRef spec3 w)) = (dat3 (Bv7 m ρ) c).arrAt w cfg3.N := by
  unfold B8; exact Pipeline.withArrays_arr spec3 launch3.win.arr_inj c _ _ w
theorem B8_of_ne (c : Dev nD) (b : Ref sig .tc) (hb : ∀ w, Pipeline.arrRef spec3 w ≠ b) :
    B8 m ρ c (Proc.devRef .tc b) = B7 m ρ c (Proc.devRef .tc b) := by
  unfold B8; exact Pipeline.withArrays_of_ne spec3 c _ _ b hb
abbrev Bv8 : (c : Dev nD) → (b : Ref sig .tc) → Buf (Elt F) ((c : Thread nD τ).loc b) := fun c b => B8 m ρ c b
theorem hF3 (c : Dev nD) (w : Fin cfg3.W) : (dat3 (Bv7 m ρ) c).arrAt w cfg3.N = Bv8 m ρ c (Pipeline.arrRef spec3 w) :=
  (B8_arr m ρ c w).symm
theorem hrest3 (c : Dev nD) : ∀ b, b ∉ Finset.univ.image (Pipeline.arrRef spec3) → Bv8 m ρ c b = Bv7 m ρ c b :=
  fun b hb => B8_of_ne m ρ c b fun w e => hb (Finset.mem_image.mpr ⟨w, Finset.mem_univ _, e⟩)
/-- A region changes only its output array: an input array ends as entered, and no other buffer is touched. -/
theorem B8_keep (c : Dev nD) (r : Ref sig .tc) (h : r ≠ main_v51) : B8 m ρ c (Proc.devRef .tc r) = B7 m ρ c (Proc.devRef .tc r) := by
  by_cases h0 : r = main_arg0
  · subst h0; exact (B8_arr m ρ c 0).trans (((dat3 (Bv7 m ρ) c).arrAt_in 0 rfl _).trans (A_eq3 (Bv7 m ρ) c 0))
  by_cases h1 : r = main_v48
  · subst h1; exact (B8_arr m ρ c 1).trans (((dat3 (Bv7 m ρ) c).arrAt_in 1 rfl _).trans (A_eq3 (Bv7 m ρ) c 1))
  by_cases h2 : r = main_v49
  · subst h2; exact (B8_arr m ρ c 2).trans (((dat3 (Bv7 m ρ) c).arrAt_in 2 rfl _).trans (A_eq3 (Bv7 m ρ) c 2))
  by_cases h3 : r = main_v50
  · subst h3; exact (B8_arr m ρ c 3).trans (((dat3 (Bv7 m ρ) c).arrAt_in 3 rfl _).trans (A_eq3 (Bv7 m ρ) c 3))
  by_cases h4 : r = main_arg11
  · subst h4; exact (B8_arr m ρ c 4).trans (((dat3 (Bv7 m ρ) c).arrAt_in 4 rfl _).trans (A_eq3 (Bv7 m ρ) c 4))
  exact B8_of_ne m ρ c r (fun w e => by
    match w with
    | ⟨0, _⟩ => exact h0 e.symm
    | ⟨1, _⟩ => exact h1 e.symm
    | ⟨2, _⟩ => exact h2 e.symm
    | ⟨3, _⟩ => exact h3 e.symm
    | ⟨4, _⟩ => exact h4 e.symm
    | ⟨5, _⟩ => exact h e.symm)
/-- After host stretch 4 (the end). -/
abbrev B9 : Dev nD → Valuation τ sig (Elt F) := fun c => StableHlo.after hostOps4 (B8 m ρ c)

/-- A buffer that no host stretch writes and that is no region's output ends at its launch contents. -/
theorem B9_keep (c : Dev nD) (r : Ref sig .tc) (h0 : r ∉ hostOps0_W) (h1 : r ∉ hostOps1_W) (h2 : r ∉ hostOps2_W) (h3 : r ∉ hostOps3_W) (h4 : r ∉ hostOps4_W)
    (k0 : r ≠ main_v8) (k1 : r ≠ main_v25) (k2 : r ≠ main_v34) (k3 : r ≠ main_v51) :
    B9 m ρ c (Proc.devRef .tc r) = m ((c : Thread nD τ).loc r) :=
  calc B9 m ρ c (Proc.devRef .tc r)
    _ = B8 m ρ c (Proc.devRef .tc r) := StableHlo.after_of_writes_sub hostOps4 _ hostOps4_writes h4
    _ = B7 m ρ c (Proc.devRef .tc r) := B8_keep m ρ c r k3
    _ = B6 m ρ c (Proc.devRef .tc r) := StableHlo.after_of_writes_sub hostOps3 _ hostOps3_writes h3
    _ = B5 m ρ c (Proc.devRef .tc r) := B6_keep m ρ c r k2
    _ = B4 m ρ c (Proc.devRef .tc r) := StableHlo.after_of_writes_sub hostOps2 _ hostOps2_writes h2
    _ = B3 m ρ c (Proc.devRef .tc r) := B4_keep m ρ c r k1
    _ = B2 m ρ c (Proc.devRef .tc r) := StableHlo.after_of_writes_sub hostOps1 _ hostOps1_writes h1
    _ = B1 m ρ c (Proc.devRef .tc r) := B2_keep m ρ c r k0
    _ = B0 m ρ c (Proc.devRef .tc r) := StableHlo.after_of_writes_sub hostOps0 _ hostOps0_writes h0
    _ = m ((c : Thread nD τ).loc r) := rfl

/-! # The proof data family and the thread state -/

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (Bv1 m ρ) c
  | ⟨1, _⟩ => fun c => dat1 (Bv3 m ρ) c
  | ⟨2, _⟩ => fun c => dat2 (Bv5 m ρ) c
  | ⟨3, _⟩ => fun c => dat3 (Bv7 m ρ) c
abbrev 𝒱₀ : Variants := Variants.none
abbrev L : GSem nD τ sig → Finset Unit := fun _ => ∅
abbrev lv : GSem nD τ sig → Unit → ℕ := fun _ _ => 0
/-- What rides beside the buffers through every item: the core's generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register
    at some state. -/
abbrev Tₙ (c : Dev nD) : sProp 𝕄 := iprop(StableHlo.held (c : Thread nD τ) (Pipeline.ucRefs τ sig) (B9 m ρ c) ∗ ∃ r, prngReg c r)

/-! # The regions as segments -/

set_option backward.isDefEq.respectTransparency.types false in
/-- Region 0 over the thread state: entered from every unscoped buffer at `B1`, left at `B2`. Its arrays are split out
    of the unscoped buffers and put back at the exit contents; the generator register goes into the class invariant and
    comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Bv1 m ρ) c).loose
  hwaits := Pipeline.hwaits_of_owed_zero _ _ _ _ L lv 0 fun _ _ => rfl
  pre c := iprop(StableHlo.held (c : Thread nD τ) (Pipeline.ucRefs τ sig) (B1 m ρ c) ∗ R c)
  post c := iprop(StableHlo.held (c : Thread nD τ) (Pipeline.ucRefs τ sig) (B2 m ρ c) ∗ R c)
  X c := iprop(∃ r, prngReg c r)
  Y c := iprop(∃ r, prngReg c r)
  Z c := Pipeline.unscopedRest (Ix := Unit) (Name := ℕ) (U := UR sig nD τ) (Lvl := ℕ) spec0 c (Bv1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Bv1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Bv1 m ρ c) (Bv2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `B3`, left at `B4`. Its arrays are split out
    of the unscoped buffers and put back at the exit contents; the generator register goes into the class invariant and
    comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Bv3 m ρ) c).loose
  hwaits := Pipeline.hwaits_of_owed_zero _ _ _ _ L lv 1 fun _ _ => rfl
  pre c := iprop(StableHlo.held (c : Thread nD τ) (Pipeline.ucRefs τ sig) (B3 m ρ c) ∗ R c)
  post c := iprop(StableHlo.held (c : Thread nD τ) (Pipeline.ucRefs τ sig) (B4 m ρ c) ∗ R c)
  X c := iprop(∃ r, prngReg c r)
  Y c := iprop(∃ r, prngReg c r)
  Z c := Pipeline.unscopedRest (Ix := Unit) (Name := ℕ) (U := UR sig nD τ) (Lvl := ℕ) spec1 c (Bv3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Bv3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Bv3 m ρ c) (Bv4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `B5`, left at `B6`. Its arrays are split out
    of the unscoped buffers and put back at the exit contents; the generator register goes into the class invariant and
    comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Bv5 m ρ) c).loose
  hwaits := Pipeline.hwaits_of_owed_zero _ _ _ _ L lv 2 fun _ _ => rfl
  pre c := iprop(StableHlo.held (c : Thread nD τ) (Pipeline.ucRefs τ sig) (B5 m ρ c) ∗ R c)
  post c := iprop(StableHlo.held (c : Thread nD τ) (Pipeline.ucRefs τ sig) (B6 m ρ c) ∗ R c)
  X c := iprop(∃ r, prngReg c r)
  Y c := iprop(∃ r, prngReg c r)
  Z c := Pipeline.unscopedRest (Ix := Unit) (Name := ℕ) (U := UR sig nD τ) (Lvl := ℕ) spec2 c (Bv5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Bv5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Bv5 m ρ c) (Bv6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `B7`, left at `B8`. Its arrays are split out
    of the unscoped buffers and put back at the exit contents; the generator register goes into the class invariant and
    comes out; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Bv7 m ρ) c).loose
  hwaits := Pipeline.hwaits_of_owed_zero _ _ _ _ L lv 3 fun _ _ => rfl
  pre c := iprop(StableHlo.held (c : Thread nD τ) (Pipeline.ucRefs τ sig) (B7 m ρ c) ∗ R c)
  post c := iprop(StableHlo.held (c : Thread nD τ) (Pipeline.ucRefs τ sig) (B8 m ρ c) ∗ R c)
  X c := iprop(∃ r, prngReg c r)
  Y c := iprop(∃ r, prngReg c r)
  Z c := Pipeline.unscopedRest (Ix := Unit) (Name := ℕ) (U := UR sig nD τ) (Lvl := ℕ) spec3 c (Bv7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (Bv7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (Bv7 m ρ c) (Bv8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! # The program as segments, and the launch -/

/-- The program's nine items in order: a host segment per stretch from its boundary's contents, a region per kernel call. -/
abbrev allSegs : List (Pipeline.Seg (pcfgs (F := F)) adm (pdats m ρ) () defs₀ 𝒱₀ L lv) :=
  [ .host (hseg hostOps0 hostOps0_sub hostOps0_fresh (B0 m ρ)),
    .region (reg0 m ρ),
    .host (hseg hostOps1 hostOps1_sub hostOps1_fresh (B2 m ρ)),
    .region (reg1 m ρ),
    .host (hseg hostOps2 hostOps2_sub hostOps2_fresh (B4 m ρ)),
    .region (reg2 m ρ),
    .host (hseg hostOps3 hostOps3_sub hostOps3_fresh (B6 m ρ)),
    .region (reg3 m ρ),
    .host (hseg hostOps4 hostOps4_sub hostOps4_fresh (B8 m ρ)) ]

/-- The program is the run of its items. -/
theorem main_run (c : Dev nD) : main (F := F) c = Pipeline.Seg.run (allSegs m ρ) := (main_chain c).trans (by chain_rfl)

set_option backward.isDefEq.respectTransparency.types false in
/-- THE RUN: from any memory with zero counters every weakly fair execution of the program terminates, nothing faulting,
    and every final state holds every unscoped buffer of every core at the last boundary's contents `B9`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B9 m ρ c b) :=
  Pipeline.θ_run_regions_kit (pcfgs (F := F)) adm (pdats m ρ) () cellOf_inj emb₁ defs₀ 𝒱₀ L lv m ρ main (allSegs m ρ)
    (fun c Q => by rw [main_run m ρ c])
    (by simp only [allSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl,
      fun c => by
        show (iprop(StableHlo.held (c : Thread nD τ) (Pipeline.ucRefs τ sig) (B9 m ρ c) ∗ R c) : sProp 𝕄)
          ⊢ iprop(Tₙ m ρ c ∗ ∃ W, owes (c : Thread nD τ) (0 : CellTallies nD τ sig Unit) W)
        iintro ⟨Hh, Hp, Ho⟩
        isplitl [Hh Hp]
        · isplitl [Hh]; · iexact Hh
          iexact Hp
        iexact Ho⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B9 m ρ c b)
    (hfin := fun c s' => by
      iintro ⟨⟨Hh, -⟩, HSI⟩
      unfold StableHlo.held
      imodintro
      iapply (pointsTo_read_all (Pipeline.ucRefs τ sig) (fun b => (((c : Thread nD τ)).1, b)) (B9 m ρ c) s')
      isplitl [Hh] <;> iassumption)
    (hQ := fun s h => h)

/-- An argument array ends as launched. -/
theorem arg_kept (c : Dev nD) (r : Ref sig .tc) (hu : ¬ (Proc.devRef .tc r : DevRef τ sig).isScoped)
    (h0 : r ∉ hostOps0_W) (h1 : r ∉ hostOps1_W) (h2 : r ∉ hostOps2_W) (h3 : r ∉ hostOps3_W) (h4 : r ∉ hostOps4_W)
    (k0 : r ≠ main_v8) (k1 : r ≠ main_v25) (k2 : r ≠ main_v34) (k3 : r ≠ main_v51)
    (s : MemSt nD τ sig (Elt F)) (h : ∀ b ∈ Pipeline.ucRefs τ sig, s.mem (((c : Thread nD τ)).1, b) = B9 m ρ c b) :
    s.mem ((c.tc : Thread nD τ).loc r) = m ((c.tc : Thread nD τ).loc r) :=
  (h _ (mem_uc r hu)).trans (B9_keep m ρ c r h0 h1 h2 h3 h4 k0 k1 k2 k3)

/-- THE FRAME: the program runs to the end, faults nowhere, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨arg_kept m ρ c main_arg0 (by decide) (by decide) (by decide) (by decide) (by decide) (by decide) (by decide) (by decide) (by decide) (by decide) r.2 (h c),
      arg_kept m ρ c main_arg1 (by decide) (by decide) (by decide) (by decide) (by decide) (by decide) (by decide) (by decide) (by decide) (by decide) r.2 (h c),
      arg_kept m ρ c main_arg2 (by decide) (by decide) (by decide) (by decide) (by decide) (by decide) (by decide) (by decide) (by decide) (by decide) r.2 (h c),
      arg_kept m ρ c main_arg3 (by decide) (by decide) (by decide) (by decide) (by decide) (by decide) (by decide) (by decide) (by decide) (by decide) r.2 (h c),
      arg_kept m ρ c main_arg4 (by decide) (by decide) (by decide) (by decide) (by decide) (by decide) (by decide) (by decide) (by decide) (by decide) r.2 (h c),
      arg_kept m ρ c main_arg5 (by decide) (by decide) (by decide) (by decide) (by decide) (by decide) (by decide) (by decide) (by decide) (by decide) r.2 (h c),
      arg_kept m ρ c main_arg6 (by decide) (by decide) (by decide) (by decide) (by decide) (by decide) (by decide) (by decide) (by decide) (by decide) r.2 (h c),
      arg_kept m ρ c main_arg7 (by decide) (by decide) (by decide) (by decide) (by decide) (by decide) (by decide) (by decide) (by decide) (by decide) r.2 (h c),
      arg_kept m ρ c main_arg8 (by decide) (by decide) (by decide) (by decide) (by decide) (by decide) (by decide) (by decide) (by decide) (by decide) r.2 (h c),
      arg_kept m ρ c main_arg9 (by decide) (by decide) (by decide) (by decide) (by decide) (by decide) (by decide) (by decide) (by decide) (by decide) r.2 (h c),
      arg_kept m ρ c main_arg10 (by decide) (by decide) (by decide) (by decide) (by decide) (by decide) (by decide) (by decide) (by decide) (by decide) r.2 (h c),
      arg_kept m ρ c main_arg11 (by decide) (by decide) (by decide) (by decide) (by decide) (by decide) (by decide) (by decide) (by decide) (by decide) r.2 (h c)⟩) (run_all m ρ)

end Cert.Kernel.Whole

end
-- ==== Proof.KIFrame.lean ====
/-
  The run of the whole program, region by region, at any float instance.

  The program is five stretches of host operations around four pipelined kernel regions: two "message" regions (a block of
  2000 node rows against the whole 384 × 128 gate matrix and its bias, one block of messages out) and two "update" regions
  (a block of 5000 target rows and the same rows of the aggregated messages against two 128 × 128 halves of the linear map
  and its bias, one block out). Every body loads its input blocks whole, computes one value and stores it over its whole
  output block, so what a region leaves in its output array is, block by block, that one value of the input blocks
  (`outK_W`), and every other buffer is as the region found it. The buffers' contents at each boundary between two
  items are a fold from the launch memory (`B0 … B9`): a host stretch applies its operations, a region replaces its
  output array by what its write-backs leave. The run ends with every unscoped buffer at `B9`; no item writes an argument.
-/
import proofs.«165492_j790273982767_2_alg».proof.Proof.LaunchKI
import proofs.«165492_j790273982767_2_alg».proof.Proof.Gen.KernelIdeal.Skeleton
import proofs.«165492_j790273982767_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP

variable {F : FTy → Type} [FloatOps F]

local notation "𝕄" => MT nD τ sig Unit (Elt F) ℕ (UR sig nD τ) ℕ

/-! # The host stretches: none allocates a buffer, and each writes only its own results -/

/-- No pipeline has a prefetched table. -/
abbrev adm : (p : Fin 4) → (pcfgs (F := F) p).Adm := fun p => (cfgs p).toPCfg_adm

theorem hostOps0_fresh : (hostOps0 : List (HloOp τ sig (Elt F))).Forall fun op => op.fresh = ∅ := by
  simp only [List.Forall]; repeat' constructor
/-- The references host stretch 0 writes: one per operation, its result. -/
abbrev hostOps0_W : List (Ref sig .tc) := [main_v0, main_v1, main_v2, main_v3, main_v4, main_v5, main_v6, main_v7]
theorem hostOps0_writes : (hostOps0 : List (HloOp τ sig (Elt F))).Forall fun op => op.writes ⊆ (hostOps0_W.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)

theorem hostOps1_fresh : (hostOps1 : List (HloOp τ sig (Elt F))).Forall fun op => op.fresh = ∅ := by
  simp only [List.Forall]; repeat' constructor
/-- The references host stretch 1 writes: one per operation, its result. -/
abbrev hostOps1_W : List (Ref sig .tc) := [main_v9, main_v10, main_v11, main_v12, main_c, main_v13, main_v14, main_c_0, main_v15, main_v16, main_v17, main_v18, main_v19, main_cst, main_v20, main_v21, main_v22, main_v23, main_v24]
theorem hostOps1_writes : (hostOps1 : List (HloOp τ sig (Elt F))).Forall fun op => op.writes ⊆ (hostOps1_W.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)

theorem hostOps2_fresh : (hostOps2 : List (HloOp τ sig (Elt F))).Forall fun op => op.fresh = ∅ := by
  simp only [List.Forall]; repeat' constructor
/-- The references host stretch 2 writes: one per operation, its result. -/
abbrev hostOps2_W : List (Ref sig .tc) := [main_v26, main_v27, main_v28, main_v29, main_v30, main_v31, main_v32, main_v33]
theorem hostOps2_writes : (hostOps2 : List (HloOp τ sig (Elt F))).Forall fun op => op.writes ⊆ (hostOps2_W.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)

theorem hostOps3_fresh : (hostOps3 : List (HloOp τ sig (Elt F))).Forall fun op => op.fresh = ∅ := by
  simp only [List.Forall]; repeat' constructor
/-- The references host stretch 3 writes: one per operation, its result. -/
abbrev hostOps3_W : List (Ref sig .tc) := [main_v35, main_v36, main_v37, main_v38, main_c_1, main_v39, main_v40, main_c_2, main_v41, main_v42, main_v43, main_v44, main_v45, main_cst_3, main_v46, main_v47, main_v48, main_v49, main_v50]
theorem hostOps3_writes : (hostOps3 : List (HloOp τ sig (Elt F))).Forall fun op => op.writes ⊆ (hostOps3_W.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)

theorem hostOps4_fresh : (hostOps4 : List (HloOp τ sig (Elt F))).Forall fun op => op.fresh = ∅ := by
  simp only [List.Forall]; repeat' constructor
/-- The references host stretch 4 writes: one per operation, its result. -/
abbrev hostOps4_W : List (Ref sig .tc) := [main_v52, main_v53, main_v54]
theorem hostOps4_writes : (hostOps4 : List (HloOp τ sig (Elt F))).Forall fun op => op.writes ⊆ (hostOps4_W.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)

variable (m : (ℓ : Loc nD τ sig) → Buf (Elt F) ℓ) (ρ : Dev nD → PrngReg)
section Regions
-- the buffers' contents when a region is entered: the parameter each region's half is stated at
variable (V : (c : Dev nD) → (b : Ref sig .tc) → Buf (Elt F) ((c : Thread nD τ).loc b))

/-! # Region 0: `cc0__message_kernel`, at the entry contents `V` -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not (unfetched, the block index has
    not moved), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not (unfetched, the block index has
    not moved), for any proof data whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not (unfetched, the block index has
    not moved), for any proof data whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take the whole block -/

abbrev r0_0 : Rect S2000x128 := Rect.unit (s := S2000x128) ![0, 0] S2000x128.size inb_S2000x128_S2000x128_0_0
abbrev r0_1 : Rect S384x128 := Rect.unit (s := S384x128) ![0, 0] S384x128.size inb_S384x128_S384x128_0_0
abbrev r0_2 : Rect S384 := Rect.unit (s := S384) ![0] S384.size inb_S384_S384_0
abbrev r0_3 : Rect S2000x128 := Rect.unit (s := S2000x128) ![0, 0] S2000x128.size inb_S2000x128_S2000x128_0_0

/-- The output window's staging buffer after the body, from the input windows' blocks: its one store. -/
def out0_3 (x0 : Vec F S2000x128 .f32) (x1 : Vec F S384x128 .f32) (x2 : Vec F S384 .f32) : Vec F S2000x128 .f32 :=
  View.canon [⟨r0_3, k0_pay1 (View.ld x0 r0_0) (View.ld x1 r0_1) (View.ld x2 r0_2)⟩]

/-- The one store covers the buffer. -/
theorem cover0_3 (p0 : Vec F S2000x128 .f32) (y : S2000x128.Idx) :
    ∃ pc ∈ ([⟨r0_3, p0⟩] : List (View.Piece (Elt F) S2000x128 .f32)), y ∈ pc.1.set :=
  View.cover_of_tiled [⟨r0_3, p0⟩] S2000x128.size (by rfl) y

set_option maxHeartbeats 4000000 in
/-- The body on whole staging memrefs, the inputs' at contents `xW` and the output's at anything, runs to the continuation
    holding the inputs' as they were and the output's at `out0_3` of the inputs'. -/
theorem sound_kernel0 (c : Dev nD) (E : Set ℕ) (i : grid0.Coords) (arg0 : Memref sig .tc .vmem S2000x128 .f32) (harg0 : arg0.IsWhole) (arg1 : Memref sig .tc .vmem S384x128 .f32) (harg1 : arg1.IsWhole) (arg2 : Memref sig .tc .vmem S384 .f32) (harg2 : arg2.IsWhole) (arg3 : Memref sig .tc .vmem S2000x128 .f32) (harg3 : arg3.IsWhole)
    (x0 : Vec F S2000x128 .f32) (x1 : Vec F S384x128 .f32) (x2 : Vec F S384 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out0_3 x0 x1 x2)) -∗ K ⟨⟩))
      ⊢ wp frame (wpE (defs₀ (F := F)) Variants.none c none) E (cc0__message_kernel i arg0 harg0 arg1 harg1 arg2 harg2 arg3 harg3) K := by
  simp only [cc0__message_kernel_eq_skeleton]; unfold cc0__message_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of pipeline 0 on core `c`: the arrays as the region finds them; after the body at point `t` each
    input's buffer at its block and the output's at `out0_3` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

/-! # Region 1: `cc1__update_kernel`, at the entry contents `V` -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not (unfetched, the block index has
    not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not (unfetched, the block index has
    not moved), for any proof data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not (unfetched, the block index has
    not moved), for any proof data whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not (unfetched, the block index has
    not moved), for any proof data whose array is `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, fetched there or not (unfetched, the block index has
    not moved), for any proof data whose array is `V`'s and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take the whole block -/

abbrev r1_0 : Rect S5000x128 := Rect.unit (s := S5000x128) ![0, 0] S5000x128.size inb_S5000x128_S5000x128_0_0
abbrev r1_1 : Rect S5000x128 := Rect.unit (s := S5000x128) ![0, 0] S5000x128.size inb_S5000x128_S5000x128_0_0
abbrev r1_2 : Rect S128x128 := Rect.unit (s := S128x128) ![0, 0] S128x128.size inb_S128x128_S128x128_0_0
abbrev r1_3 : Rect S128x128 := Rect.unit (s := S128x128) ![0, 0] S128x128.size inb_S128x128_S128x128_0_0
abbrev r1_4 : Rect S128 := Rect.unit (s := S128) ![0] S128.size inb_S128_S128_0
abbrev r1_5 : Rect S5000x128 := Rect.unit (s := S5000x128) ![0, 0] S5000x128.size inb_S5000x128_S5000x128_0_0

/-- The output window's staging buffer after the body, from the input windows' blocks: its one store. -/
def out1_5 (x0 : Vec F S5000x128 .f32) (x1 : Vec F S5000x128 .f32) (x2 : Vec F S128x128 .f32) (x3 : Vec F S128x128 .f32) (x4 : Vec F S128 .f32) : Vec F S5000x128 .f32 :=
  View.canon [⟨r1_5, k1_pay1 (View.ld x0 r1_0) (View.ld x1 r1_1) (View.ld x2 r1_2) (View.ld x3 r1_3) (View.ld x4 r1_4)⟩]

/-- The one store covers the buffer. -/
theorem cover1_5 (p0 : Vec F S5000x128 .f32) (y : S5000x128.Idx) :
    ∃ pc ∈ ([⟨r1_5, p0⟩] : List (View.Piece (Elt F) S5000x128 .f32)), y ∈ pc.1.set :=
  View.cover_of_tiled [⟨r1_5, p0⟩] S5000x128.size (by rfl) y

set_option maxHeartbeats 4000000 in
/-- The body on whole staging memrefs, the inputs' at contents `xW` and the output's at anything, runs to the continuation
    holding the inputs' as they were and the output's at `out1_5` of the inputs'. -/
theorem sound_kernel1 (c : Dev nD) (E : Set ℕ) (i : grid1.Coords) (arg0 : Memref sig .tc .vmem S5000x128 .f32) (harg0 : arg0.IsWhole) (arg1 : Memref sig .tc .vmem S5000x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S5000x128 .f32) (harg5 : arg5.IsWhole)
    (x0 : Vec F S5000x128 .f32) (x1 : Vec F S5000x128 .f32) (x2 : Vec F S128x128 .f32) (x3 : Vec F S128x128 .f32) (x4 : Vec F S128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out1_5 x0 x1 x2 x3 x4)) -∗ K ⟨⟩))
      ⊢ wp frame (wpE (defs₀ (F := F)) Variants.none c none) E (cc1__update_kernel i arg0 harg0 arg1 harg1 arg2 harg2 arg3 harg3 arg4 harg4 arg5 harg5) K := by
  simp only [cc1__update_kernel_eq_skeleton]; unfold cc1__update_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The proof data of pipeline 1 on core `c`: the arrays as the region finds them; after the body at point `t` each
    input's buffer at its block and the output's at `out1_5` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so `sound_kernel1` applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation1 (c : Dev nD) : BodyObligation (dat1 (F := F) V c) (defs₀ (F := F)) Variants.none () Set.univ := fun t => by
  rw [bigSep_W1, bigSep_W1]
  exact sound_body1 V c t

/-! # Region 2: `cc2__message_kernel`, at the entry contents `V` -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not (unfetched, the block index has
    not moved), for any proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, fetched there or not (unfetched, the block index has
    not moved), for any proof data whose array is `V`'s and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, fetched there or not (unfetched, the block index has
    not moved), for any proof data whose array is `V`'s and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the one store take the whole block -/

abbrev r2_0 : Rect S2000x128 := Rect.unit (s := S2000x128) ![0, 0] S2000x128.size inb_S2000x128_S2000x128_0_0
abbrev r2_1 : Rect S384x128 := Rect.unit (s := S384x128) ![0, 0] S384x128.size inb_S384x128_S384x128_0_0
abbrev r2_2 : Rect S384 := Rect.unit (s := S384) ![0] S384.size inb_S384_S384_0
abbrev r2_3 : Rect S2000x128 := Rect.unit (s := S2000x128) ![0, 0] S2000x128.size inb_S2000x128_S2000x128_0_0

/-- The output window's staging buffer after the body, from the input windows' blocks: its one store. -/
def out2_3 (x0 : Vec F S2000x128 .f32) (x1 : Vec F S384x128 .f32) (x2 : Vec F S384 .f32) : Vec F S2000x128 .f32 :=
  View.canon [⟨r2_3, k2_pay1 (View.ld x0 r2_0) (View.ld x1 r2_1) (View.ld x2 r2_2)⟩]

/-- The one store covers the buffer. -/
theorem cover2_3 (p0 : Vec F S2000x128 .f32) (y : S2000x128.Idx) :
    ∃ pc ∈ ([⟨r2_3, p0⟩] : List (View.Piece (Elt F) S2000x128 .f32)), y ∈ pc.1.set :=
  View.cover_of_tiled [⟨r2_3, p0⟩] S2000x128.size (by rfl) y

set_option maxHeartbeats 4000000 in
/-- The body on whole staging memrefs, the inputs' at contents `xW` and the output's at anything, runs to the continuation
    holding the inputs' as they were and the output's at `out2_3` of the inputs'. -/
theorem sound_kernel2 (c : Dev nD) (E : Set ℕ) (i : grid2.Coords) (arg0 : Memref sig .tc .vmem S2000x128 .f32) (harg0 : arg0.IsWhole) (arg1 : Memref sig .tc .vmem S384x128 .f32) (harg1 : arg1.IsWhole) (arg2 : Memref sig .tc .vmem S384 .f32) (harg2 : arg2.IsWhole) (arg3 : Memref sig .tc .vmem S2000x128 .f32) (harg3 : arg3.IsWhole)
    (x0 : Vec F S2000x128 .f32) (x1 : Vec F S384x128 .f32) (x2 : Vec F S384 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out2_3 x0 x1 x2)) -∗ K ⟨⟩))
      ⊢ wp frame (wpE (defs₀ (F := F)) Variants.none c none) E (cc2__message_kernel i arg0 harg0 arg1 harg1 arg2 harg2 arg3 harg3) K := by
  simp only [cc2__message_kernel_eq_skeleton]; unfold cc2__message_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of pipeline 2 on core `c`: the arrays as the region finds them; after the body at point `t` each
    input's buffer at its block and the output's at `out2_3` of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so `sound_kernel2` applies; the invariant and the core's
    dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

/-! # Region 3: `cc3__update_kernel`, at the entry contents `V` -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, fetched there or not (unfetched, the block index has
    not moved), for any proof data whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at every point, fetched there or not (unfetched, the block index has
    not moved), for any proof data whose array is `V`'s and whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds its block at every point, fetched there or not (unfetched, the block index has
    not moved), for any proof data whose array is `V`'s and whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's staging buffer holds its block at every point, fetched there or not (unfetched, the block index has
    not moved), for any proof data whose array is `V`'s and whose body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's staging buffer holds its block at every point, fetched there or not (unfetched, the block index has
    not moved), for any proof data whose array is `V`'s and whose body leaves the block in place. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and the one store take the whole block -/

abbrev r3_0 : Rect S5000x128 := Rect.unit (s := S5000x128) ![0, 0] S5000x128.size inb_S5000x128_S5000x128_0_0
abbrev r3_1 : Rect S5000x128 := Rect.unit (s := S5000x128) ![0, 0] S5000x128.size inb_S5000x128_S5000x128_0_0
abbrev r3_2 : Rect S128x128 := Rect.unit (s := S128x128) ![0, 0] S128x128.size inb_S128x128_S128x128_0_0
abbrev r3_3 : Rect S128x128 := Rect.unit (s := S128x128) ![0, 0] S128x128.size inb_S128x128_S128x128_0_0
abbrev r3_4 : Rect S128 := Rect.unit (s := S128) ![0] S128.size inb_S128_S128_0
abbrev r3_5 : Rect S5000x128 := Rect.unit (s := S5000x128) ![0, 0] S5000x128.size inb_S5000x128_S5000x128_0_0

/-- The output window's staging buffer after the body, from the input windows' blocks: its one store. -/
def out3_5 (x0 : Vec F S5000x128 .f32) (x1 : Vec F S5000x128 .f32) (x2 : Vec F S128x128 .f32) (x3 : Vec F S128x128 .f32) (x4 : Vec F S128 .f32) : Vec F S5000x128 .f32 :=
  View.canon [⟨r3_5, k3_pay1 (View.ld x0 r3_0) (View.ld x1 r3_1) (View.ld x2 r3_2) (View.ld x3 r3_3) (View.ld x4 r3_4)⟩]

/-- The one store covers the buffer. -/
theorem cover3_5 (p0 : Vec F S5000x128 .f32) (y : S5000x128.Idx) :
    ∃ pc ∈ ([⟨r3_5, p0⟩] : List (View.Piece (Elt F) S5000x128 .f32)), y ∈ pc.1.set :=
  View.cover_of_tiled [⟨r3_5, p0⟩] S5000x128.size (by rfl) y

set_option maxHeartbeats 4000000 in
/-- The body on whole staging memrefs, the inputs' at contents `xW` and the output's at anything, runs to the continuation
    holding the inputs' as they were and the output's at `out3_5` of the inputs'. -/
theorem sound_kernel3 (c : Dev nD) (E : Set ℕ) (i : grid3.Coords) (arg0 : Memref sig .tc .vmem S5000x128 .f32) (harg0 : arg0.IsWhole) (arg1 : Memref sig .tc .vmem S5000x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S5000x128 .f32) (harg5 : arg5.IsWhole)
    (x0 : Vec F S5000x128 .f32) (x1 : Vec F S5000x128 .f32) (x2 : Vec F S128x128 .f32) (x3 : Vec F S128x128 .f32) (x4 : Vec F S128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out3_5 x0 x1 x2 x3 x4)) -∗ K ⟨⟩))
      ⊢ wp frame (wpE (defs₀ (F := F)) Variants.none c none) E (cc3__update_kernel i arg0 harg0 arg1 harg1 arg2 harg2 arg3 harg3 arg4 harg4 arg5 harg5) K := by
  simp only [cc3__update_kernel_eq_skeleton]; unfold cc3__update_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-- The proof data of pipeline 3 on core `c`: the arrays as the region finds them; after the body at point `t` each
    input's buffer at its block and the output's at `out3_5` of the input blocks; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks, so `sound_kernel3` applies; the invariant and the core's
    dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation3 (c : Dev nD) : BodyObligation (dat3 (F := F) V c) (defs₀ (F := F)) Variants.none () Set.univ := fun t => by
  rw [bigSep_W3, bigSep_W3]
  exact sound_body3 V c t

end Regions

/-! # The buffers' contents at each boundary: a fold through the program -/

/-- Core `c`'s buffers at launch. -/
abbrev B0 : Dev nD → Valuation τ sig (Elt F) := fun c b => (s₀ m ρ).mem ((c : Dev nD), b)
/-- After host stretch 0 (region 0's entry). -/
abbrev B1 : Dev nD → Valuation τ sig (Elt F) := fun c => StableHlo.after hostOps0 (B0 m ρ c)
abbrev Bv1 : (c : Dev nD) → (b : Ref sig .tc) → Buf (Elt F) ((c : Thread nD τ).loc b) := fun c b => B1 m ρ c b
/-- At region 0's exit: its arrays at what the pipeline leaves, every other buffer as entered. -/
def B2 (c : Dev nD) : Valuation τ sig (Elt F) :=
  Pipeline.withArrays spec0 c (B1 m ρ c) fun w => (dat0 (Bv1 m ρ) c).arrAt w cfg0.N
theorem B2_arr (c : Dev nD) (w : Fin cfg0.W) :
    B2 m ρ c (Proc.devRef .tc (Pipeline.arrRef spec0 w)) = (dat0 (Bv1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev Bv2 : (c : Dev nD) → (b : Ref sig .tc) → Buf (Elt F) ((c : Thread nD τ).loc b) := fun c b => B2 m ρ c b
theorem hF0 (c : Dev nD) (w : Fin cfg0.W) : (dat0 (Bv1 m ρ) c).arrAt w cfg0.N = Bv2 m ρ c (Pipeline.arrRef spec0 w) :=
  (B2_arr m ρ c w).symm
theorem hrest0 (c : Dev nD) : ∀ b, b ∉ Finset.univ.image (Pipeline.arrRef spec0) → Bv2 m ρ c b = Bv1 m ρ c b :=
  fun b hb => B2_of_ne m ρ c b fun w e => hb (Finset.mem_image.mpr ⟨w, Finset.mem_univ _, e⟩)
/-- A region changes only its output array: an input array ends as entered, and no other buffer is touched. -/
theorem B2_keep (c : Dev nD) (r : Ref sig .tc) (h : r ≠ main_v8) : B2 m ρ c (Proc.devRef .tc r) = B1 m ρ c (Proc.devRef .tc r) := by
  by_cases h0 : r = main_arg0
  · subst h0; exact (B2_arr m ρ c 0).trans (((dat0 (Bv1 m ρ) c).arrAt_in 0 rfl _).trans (A_eq0 (Bv1 m ρ) c 0))
  by_cases h1 : r = main_v3
  · subst h1; exact (B2_arr m ρ c 1).trans (((dat0 (Bv1 m ρ) c).arrAt_in 1 rfl _).trans (A_eq0 (Bv1 m ρ) c 1))
  by_cases h2 : r = main_v7
  · subst h2; exact (B2_arr m ρ c 2).trans (((dat0 (Bv1 m ρ) c).arrAt_in 2 rfl _).trans (A_eq0 (Bv1 m ρ) c 2))
  exact B2_of_ne m ρ c r (fun w e => by
    match w with
    | ⟨0, _⟩ => exact h0 e.symm
    | ⟨1, _⟩ => exact h1 e.symm
    | ⟨2, _⟩ => exact h2 e.symm
    | ⟨3, _⟩ => exact h e.symm)
/-- After host stretch 1 (region 1's entry). -/
abbrev B3 : Dev nD → Valuation τ sig (Elt F) := fun c => StableHlo.after hostOps1 (B2 m ρ c)
abbrev Bv3 : (c : Dev nD) → (b : Ref sig .tc) → Buf (Elt F) ((c : Thread nD τ).loc b) := fun c b => B3 m ρ c b
/-- At region 1's exit: its arrays at what the pipeline leaves, every other buffer as entered. -/
def B4 (c : Dev nD) : Valuation τ sig (Elt F) :=
  Pipeline.withArrays spec1 c (B3 m ρ c) fun w => (dat1 (Bv3 m ρ) c).arrAt w cfg1.N
theorem B4_arr (c : Dev nD) (w : Fin cfg1.W) :
    B4 m ρ c (Proc.devRef .tc (Pipeline.arrRef spec1 w)) = (dat1 (Bv3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev Bv4 : (c : Dev nD) → (b : Ref sig .tc) → Buf (Elt F) ((c : Thread nD τ).loc b) := fun c b => B4 m ρ c b
theorem hF1 (c : Dev nD) (w : Fin cfg1.W) : (dat1 (Bv3 m ρ) c).arrAt w cfg1.N = Bv4 m ρ c (Pipeline.arrRef spec1 w) :=
  (B4_arr m ρ c w).symm
theorem hrest1 (c : Dev nD) : ∀ b, b ∉ Finset.univ.image (Pipeline.arrRef spec1) → Bv4 m ρ c b = Bv3 m ρ c b :=
  fun b hb => B4_of_ne m ρ c b fun w e => hb (Finset.mem_image.mpr ⟨w, Finset.mem_univ _, e⟩)
/-- A region changes only its output array: an input array ends as entered, and no other buffer is touched. -/
theorem B4_keep (c : Dev nD) (r : Ref sig .tc) (h : r ≠ main_v25) : B4 m ρ c (Proc.devRef .tc r) = B3 m ρ c (Proc.devRef .tc r) := by
  by_cases h0 : r = main_arg1
  · subst h0; exact (B4_arr m ρ c 0).trans (((dat1 (Bv3 m ρ) c).arrAt_in 0 rfl _).trans (A_eq1 (Bv3 m ρ) c 0))
  by_cases h1 : r = main_v22
  · subst h1; exact (B4_arr m ρ c 1).trans (((dat1 (Bv3 m ρ) c).arrAt_in 1 rfl _).trans (A_eq1 (Bv3 m ρ) c 1))
  by_cases h2 : r = main_v23
  · subst h2; exact (B4_arr m ρ c 2).trans (((dat1 (Bv3 m ρ) c).arrAt_in 2 rfl _).trans (A_eq1 (Bv3 m ρ) c 2))
  by_cases h3 : r = main_v24
  · subst h3; exact (B4_arr m ρ c 3).trans (((dat1 (Bv3 m ρ) c).arrAt_in 3 rfl _).trans (A_eq1 (Bv3 m ρ) c 3))
  by_cases h4 : r = main_arg7
  · subst h4; exact (B4_arr m ρ c 4).trans (((dat1 (Bv3 m ρ) c).arrAt_in 4 rfl _).trans (A_eq1 (Bv3 m ρ) c 4))
  exact B4_of_ne m ρ c r (fun w e => by
    match w with
    | ⟨0, _⟩ => exact h0 e.symm
    | ⟨1, _⟩ => exact h1 e.symm
    | ⟨2, _⟩ => exact h2 e.symm
    | ⟨3, _⟩ => exact h3 e.symm
    | ⟨4, _⟩ => exact h4 e.symm
    | ⟨5, _⟩ => exact h e.symm)
/-- After host stretch 2 (region 2's entry). -/
abbrev B5 : Dev nD → Valuation τ sig (Elt F) := fun c => StableHlo.after hostOps2 (B4 m ρ c)
abbrev Bv5 : (c : Dev nD) → (b : Ref sig .tc) → Buf (Elt F) ((c : Thread nD τ).loc b) := fun c b => B5 m ρ c b
/-- At region 2's exit: its arrays at what the pipeline leaves, every other buffer as entered. -/
def B6 (c : Dev nD) : Valuation τ sig (Elt F) :=
  Pipeline.withArrays spec2 c (B5 m ρ c) fun w => (dat2 (Bv5 m ρ) c).arrAt w cfg2.N
theorem B6_arr (c : Dev nD) (w : Fin cfg2.W) :
    B6 m ρ c (Proc.devRef .tc (Pipeline.arrRef spec2 w)) = (dat2 (Bv5 m ρ) c).arrAt w cfg2.N := by
  unfold B6; exact Pipeline.withArrays_arr spec2 launch2.win.arr_inj c _ _ w
theorem B6_of_ne (c : Dev nD) (b : Ref sig .tc) (hb : ∀ w, Pipeline.arrRef spec2 w ≠ b) :
    B6 m ρ c (Proc.devRef .tc b) = B5 m ρ c (Proc.devRef .tc b) := by
  unfold B6; exact Pipeline.withArrays_of_ne spec2 c _ _ b hb
abbrev Bv6 : (c : Dev nD) → (b : Ref sig .tc) → Buf (Elt F) ((c : Thread nD τ).loc b) := fun c b => B6 m ρ c b
theorem hF2 (c : Dev nD) (w : Fin cfg2.W) : (dat2 (Bv5 m ρ) c).arrAt w cfg2.N = Bv6 m ρ c (Pipeline.arrRef spec2 w) :=
  (B6_arr m ρ c w).symm
theorem hrest2 (c : Dev nD) : ∀ b, b ∉ Finset.univ.image (Pipeline.arrRef spec2) → Bv6 m ρ c b = Bv5 m ρ c b :=
  fun b hb => B6_of_ne m ρ c b fun w e => hb (Finset.mem_image.mpr ⟨w, Finset.mem_univ _, e⟩)
/-- A region changes only its output array: an input array ends as entered, and no other buffer is touched. -/
theorem B6_keep (c : Dev nD) (r : Ref sig .tc) (h : r ≠ main_v34) : B6 m ρ c (Proc.devRef .tc r) = B5 m ρ c (Proc.devRef .tc r) := by
  by_cases h0 : r = main_arg1
  · subst h0; exact (B6_arr m ρ c 0).trans (((dat2 (Bv5 m ρ) c).arrAt_in 0 rfl _).trans (A_eq2 (Bv5 m ρ) c 0))
  by_cases h1 : r = main_v29
  · subst h1; exact (B6_arr m ρ c 1).trans (((dat2 (Bv5 m ρ) c).arrAt_in 1 rfl _).trans (A_eq2 (Bv5 m ρ) c 1))
  by_cases h2 : r = main_v33
  · subst h2; exact (B6_arr m ρ c 2).trans (((dat2 (Bv5 m ρ) c).arrAt_in 2 rfl _).trans (A_eq2 (Bv5 m ρ) c 2))
  exact B6_of_ne m ρ c r (fun w e => by
    match w with
    | ⟨0, _⟩ => exact h0 e.symm
    | ⟨1, _⟩ => exact h1 e.symm
    | ⟨2, _⟩ => exact h2 e.symm
    | ⟨3, _⟩ => exact h e.symm)
/-- After host stretch 3 (region 3's entry). -/
abbrev B7 : Dev nD → Valuation τ sig (Elt F) := fun c => StableHlo.after hostOps3 (B6 m ρ c)
abbrev Bv7 : (c : Dev nD) → (b : Ref sig .tc) → Buf (Elt F) ((c : Thread nD τ).loc b) := fun c b => B7 m ρ c b
/-- At region 3's exit: its arrays at what the pipeline leaves, every other buffer as entered. -/
def B8 (c : Dev nD) : Valuation τ sig (Elt F) :=
  Pipeline.withArrays spec3 c (B7 m ρ c) fun w => (dat3 (Bv7 m ρ) c).arrAt w cfg3.N
theorem B8_arr (c : Dev nD) (w : Fin cfg3.W) :
    B8 m ρ c (Proc.devRef .tc (Pipeline.arrRef spec3 w)) = (dat3 (Bv7 m ρ) c).arrAt w cfg3.N := by
  unfold B8; exact Pipeline.withArrays_arr spec3 launch3.win.arr_inj c _ _ w
theorem B8_of_ne (c : Dev nD) (b : Ref sig .tc) (hb : ∀ w, Pipeline.arrRef spec3 w ≠ b) :
    B8 m ρ c (Proc.devRef .tc b) = B7 m ρ c (Proc.devRef .tc b) := by
  unfold B8; exact Pipeline.withArrays_of_ne spec3 c _ _ b hb
abbrev Bv8 : (c : Dev nD) → (b : Ref sig .tc) → Buf (Elt F) ((c : Thread nD τ).loc b) := fun c b => B8 m ρ c b
theorem hF3 (c : Dev nD) (w : Fin cfg3.W) : (dat3 (Bv7 m ρ) c).arrAt w cfg3.N = Bv8 m ρ c (Pipeline.arrRef spec3 w) :=
  (B8_arr m ρ c w).symm
theorem hrest3 (c : Dev nD) : ∀ b, b ∉ Finset.univ.image (Pipeline.arrRef spec3) → Bv8 m ρ c b = Bv7 m ρ c b :=
  fun b hb => B8_of_ne m ρ c b fun w e => hb (Finset.mem_image.mpr ⟨w, Finset.mem_univ _, e⟩)
/-- A region changes only its output array: an input array ends as entered, and no other buffer is touched. -/
theorem B8_keep (c : Dev nD) (r : Ref sig .tc) (h : r ≠ main_v51) : B8 m ρ c (Proc.devRef .tc r) = B7 m ρ c (Proc.devRef .tc r) := by
  by_cases h0 : r = main_arg0
  · subst h0; exact (B8_arr m ρ c 0).trans (((dat3 (Bv7 m ρ) c).arrAt_in 0 rfl _).trans (A_eq3 (Bv7 m ρ) c 0))
  by_cases h1 : r = main_v48
  · subst h1; exact (B8_arr m ρ c 1).trans (((dat3 (Bv7 m ρ) c).arrAt_in 1 rfl _).trans (A_eq3 (Bv7 m ρ) c 1))
  by_cases h2 : r = main_v49
  · subst h2; exact (B8_arr m ρ c 2).trans (((dat3 (Bv7 m ρ) c).arrAt_in 2 rfl _).trans (A_eq3 (Bv7 m ρ) c 2))
  by_cases h3 : r = main_v50
  · subst h3; exact (B8_arr m ρ c 3).trans (((dat3 (Bv7 m ρ) c).arrAt_in 3 rfl _).trans (A_eq3 (Bv7 m ρ) c 3))
  by_cases h4 : r = main_arg11
  · subst h4; exact (B8_arr m ρ c 4).trans (((dat3 (Bv7 m ρ) c).arrAt_in 4 rfl _).trans (A_eq3 (Bv7 m ρ) c 4))
  exact B8_of_ne m ρ c r (fun w e => by
    match w with
    | ⟨0, _⟩ => exact h0 e.symm
    | ⟨1, _⟩ => exact h1 e.symm
    | ⟨2, _⟩ => exact h2 e.symm
    | ⟨3, _⟩ => exact h3 e.symm
    | ⟨4, _⟩ => exact h4 e.symm
    | ⟨5, _⟩ => exact h e.symm)
/-- After host stretch 4 (the end). -/
abbrev B9 : Dev nD → Valuation τ sig (Elt F) := fun c => StableHlo.after hostOps4 (B8 m ρ c)

/-- A buffer that no host stretch writes and that is no region's output ends at its launch contents. -/
theorem B9_keep (c : Dev nD) (r : Ref sig .tc) (h0 : r ∉ hostOps0_W) (h1 : r ∉ hostOps1_W) (h2 : r ∉ hostOps2_W) (h3 : r ∉ hostOps3_W) (h4 : r ∉ hostOps4_W)
    (k0 : r ≠ main_v8) (k1 : r ≠ main_v25) (k2 : r ≠ main_v34) (k3 : r ≠ main_v51) :
    B9 m ρ c (Proc.devRef .tc r) = m ((c : Thread nD τ).loc r) :=
  calc B9 m ρ c (Proc.devRef .tc r)
    _ = B8 m ρ c (Proc.devRef .tc r) := StableHlo.after_of_writes_sub hostOps4 _ hostOps4_writes h4
    _ = B7 m ρ c (Proc.devRef .tc r) := B8_keep m ρ c r k3
    _ = B6 m ρ c (Proc.devRef .tc r) := StableHlo.after_of_writes_sub hostOps3 _ hostOps3_writes h3
    _ = B5 m ρ c (Proc.devRef .tc r) := B6_keep m ρ c r k2
    _ = B4 m ρ c (Proc.devRef .tc r) := StableHlo.after_of_writes_sub hostOps2 _ hostOps2_writes h2
    _ = B3 m ρ c (Proc.devRef .tc r) := B4_keep m ρ c r k1
    _ = B2 m ρ c (Proc.devRef .tc r) := StableHlo.after_of_writes_sub hostOps1 _ hostOps1_writes h1
    _ = B1 m ρ c (Proc.devRef .tc r) := B2_keep m ρ c r k0
    _ = B0 m ρ c (Proc.devRef .tc r) := StableHlo.after_of_writes_sub hostOps0 _ hostOps0_writes h0
    _ = m ((c : Thread nD τ).loc r) := rfl

/-! # The proof data family and the thread state -/

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (Bv1 m ρ) c
  | ⟨1, _⟩ => fun c => dat1 (Bv3 m ρ) c
  | ⟨2, _⟩ => fun c => dat2 (Bv5 m ρ) c
  | ⟨3, _⟩ => fun c => dat3 (Bv7 m ρ) c
abbrev 𝒱₀ : Variants := Variants.none
abbrev L : GSem nD τ sig → Finset Unit := fun _ => ∅
abbrev lv : GSem nD τ sig → Unit → ℕ := fun _ _ => 0
/-- What rides beside the buffers through every item: the core's generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register
    at some state. -/
abbrev Tₙ (c : Dev nD) : sProp 𝕄 := iprop(StableHlo.held (c : Thread nD τ) (Pipeline.ucRefs τ sig) (B9 m ρ c) ∗ ∃ r, prngReg c r)

/-! # The regions as segments -/

set_option backward.isDefEq.respectTransparency.types false in
/-- Region 0 over the thread state: entered from every unscoped buffer at `B1`, left at `B2`. Its arrays are split out
    of the unscoped buffers and put back at the exit contents; the generator register goes into the class invariant and
    comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Bv1 m ρ) c).loose
  hwaits := Pipeline.hwaits_of_owed_zero _ _ _ _ L lv 0 fun _ _ => rfl
  pre c := iprop(StableHlo.held (c : Thread nD τ) (Pipeline.ucRefs τ sig) (B1 m ρ c) ∗ R c)
  post c := iprop(StableHlo.held (c : Thread nD τ) (Pipeline.ucRefs τ sig) (B2 m ρ c) ∗ R c)
  X c := iprop(∃ r, prngReg c r)
  Y c := iprop(∃ r, prngReg c r)
  Z c := Pipeline.unscopedRest (Ix := Unit) (Name := ℕ) (U := UR sig nD τ) (Lvl := ℕ) spec0 c (Bv1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Bv1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Bv1 m ρ c) (Bv2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `B3`, left at `B4`. Its arrays are split out
    of the unscoped buffers and put back at the exit contents; the generator register goes into the class invariant and
    comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Bv3 m ρ) c).loose
  hwaits := Pipeline.hwaits_of_owed_zero _ _ _ _ L lv 1 fun _ _ => rfl
  pre c := iprop(StableHlo.held (c : Thread nD τ) (Pipeline.ucRefs τ sig) (B3 m ρ c) ∗ R c)
  post c := iprop(StableHlo.held (c : Thread nD τ) (Pipeline.ucRefs τ sig) (B4 m ρ c) ∗ R c)
  X c := iprop(∃ r, prngReg c r)
  Y c := iprop(∃ r, prngReg c r)
  Z c := Pipeline.unscopedRest (Ix := Unit) (Name := ℕ) (U := UR sig nD τ) (Lvl := ℕ) spec1 c (Bv3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Bv3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Bv3 m ρ c) (Bv4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `B5`, left at `B6`. Its arrays are split out
    of the unscoped buffers and put back at the exit contents; the generator register goes into the class invariant and
    comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Bv5 m ρ) c).loose
  hwaits := Pipeline.hwaits_of_owed_zero _ _ _ _ L lv 2 fun _ _ => rfl
  pre c := iprop(StableHlo.held (c : Thread nD τ) (Pipeline.ucRefs τ sig) (B5 m ρ c) ∗ R c)
  post c := iprop(StableHlo.held (c : Thread nD τ) (Pipeline.ucRefs τ sig) (B6 m ρ c) ∗ R c)
  X c := iprop(∃ r, prngReg c r)
  Y c := iprop(∃ r, prngReg c r)
  Z c := Pipeline.unscopedRest (Ix := Unit) (Name := ℕ) (U := UR sig nD τ) (Lvl := ℕ) spec2 c (Bv5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Bv5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Bv5 m ρ c) (Bv6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `B7`, left at `B8`. Its arrays are split out
    of the unscoped buffers and put back at the exit contents; the generator register goes into the class invariant and
    comes out; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Bv7 m ρ) c).loose
  hwaits := Pipeline.hwaits_of_owed_zero _ _ _ _ L lv 3 fun _ _ => rfl
  pre c := iprop(StableHlo.held (c : Thread nD τ) (Pipeline.ucRefs τ sig) (B7 m ρ c) ∗ R c)
  post c := iprop(StableHlo.held (c : Thread nD τ) (Pipeline.ucRefs τ sig) (B8 m ρ c) ∗ R c)
  X c := iprop(∃ r, prngReg c r)
  Y c := iprop(∃ r, prngReg c r)
  Z c := Pipeline.unscopedRest (Ix := Unit) (Name := ℕ) (U := UR sig nD τ) (Lvl := ℕ) spec3 c (Bv7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (Bv7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (Bv7 m ρ c) (Bv8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! # The program as segments, and the launch -/

/-- The program's nine items in order: a host segment per stretch from its boundary's contents, a region per kernel call. -/
abbrev allSegs : List (Pipeline.Seg (pcfgs (F := F)) adm (pdats m ρ) () defs₀ 𝒱₀ L lv) :=
  [ .host (hseg hostOps0 hostOps0_sub hostOps0_fresh (B0 m ρ)),
    .region (reg0 m ρ),
    .host (hseg hostOps1 hostOps1_sub hostOps1_fresh (B2 m ρ)),
    .region (reg1 m ρ),
    .host (hseg hostOps2 hostOps2_sub hostOps2_fresh (B4 m ρ)),
    .region (reg2 m ρ),
    .host (hseg hostOps3 hostOps3_sub hostOps3_fresh (B6 m ρ)),
    .region (reg3 m ρ),
    .host (hseg hostOps4 hostOps4_sub hostOps4_fresh (B8 m ρ)) ]

/-- The program is the run of its items. -/
theorem main_run (c : Dev nD) : main (F := F) c = Pipeline.Seg.run (allSegs m ρ) := (main_chain c).trans (by chain_rfl)

set_option backward.isDefEq.respectTransparency.types false in
/-- THE RUN: from any memory with zero counters every weakly fair execution of the program terminates, nothing faulting,
    and every final state holds every unscoped buffer of every core at the last boundary's contents `B9`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B9 m ρ c b) :=
  Pipeline.θ_run_regions_kit (pcfgs (F := F)) adm (pdats m ρ) () cellOf_inj emb₁ defs₀ 𝒱₀ L lv m ρ main (allSegs m ρ)
    (fun c Q => by rw [main_run m ρ c])
    (by simp only [allSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl,
      fun c => by
        show (iprop(StableHlo.held (c : Thread nD τ) (Pipeline.ucRefs τ sig) (B9 m ρ c) ∗ R c) : sProp 𝕄)
          ⊢ iprop(Tₙ m ρ c ∗ ∃ W, owes (c : Thread nD τ) (0 : CellTallies nD τ sig Unit) W)
        iintro ⟨Hh, Hp, Ho⟩
        isplitl [Hh Hp]
        · isplitl [Hh]; · iexact Hh
          iexact Hp
        iexact Ho⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B9 m ρ c b)
    (hfin := fun c s' => by
      iintro ⟨⟨Hh, -⟩, HSI⟩
      unfold StableHlo.held
      imodintro
      iapply (pointsTo_read_all (Pipeline.ucRefs τ sig) (fun b => (((c : Thread nD τ)).1, b)) (B9 m ρ c) s')
      isplitl [Hh] <;> iassumption)
    (hQ := fun s h => h)

/-- An argument array ends as launched. -/
theorem arg_kept (c : Dev nD) (r : Ref sig .tc) (hu : ¬ (Proc.devRef .tc r : DevRef τ sig).isScoped)
    (h0 : r ∉ hostOps0_W) (h1 : r ∉ hostOps1_W) (h2 : r ∉ hostOps2_W) (h3 : r ∉ hostOps3_W) (h4 : r ∉ hostOps4_W)
    (k0 : r ≠ main_v8) (k1 : r ≠ main_v25) (k2 : r ≠ main_v34) (k3 : r ≠ main_v51)
    (s : MemSt nD τ sig (Elt F)) (h : ∀ b ∈ Pipeline.ucRefs τ sig, s.mem (((c : Thread nD τ)).1, b) = B9 m ρ c b) :
    s.mem ((c.tc : Thread nD τ).loc r) = m ((c.tc : Thread nD τ).loc r) :=
  (h _ (mem_uc r hu)).trans (B9_keep m ρ c r h0 h1 h2 h3 h4 k0 k1 k2 k3)

/-- THE FRAME: the program runs to the end, faults nowhere, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨arg_kept m ρ c main_arg0 (by decide) (by decide) (by decide) (by decide) (by decide) (by decide) (by decide) (by decide) (by decide) (by decide) r.2 (h c),
      arg_kept m ρ c main_arg1 (by decide) (by decide) (by decide) (by decide) (by decide) (by decide) (by decide) (by decide) (by decide) (by decide) r.2 (h c),
      arg_kept m ρ c main_arg2 (by decide) (by decide) (by decide) (by decide) (by decide) (by decide) (by decide) (by decide) (by decide) (by decide) r.2 (h c),
      arg_kept m ρ c main_arg3 (by decide) (by decide) (by decide) (by decide) (by decide) (by decide) (by decide) (by decide) (by decide) (by decide) r.2 (h c),
      arg_kept m ρ c main_arg4 (by decide) (by decide) (by decide) (by decide) (by decide) (by decide) (by decide) (by decide) (by decide) (by decide) r.2 (h c),
      arg_kept m ρ c main_arg5 (by decide) (by decide) (by decide) (by decide) (by decide) (by decide) (by decide) (by decide) (by decide) (by decide) r.2 (h c),
      arg_kept m ρ c main_arg6 (by decide) (by decide) (by decide) (by decide) (by decide) (by decide) (by decide) (by decide) (by decide) (by decide) r.2 (h c),
      arg_kept m ρ c main_arg7 (by decide) (by decide) (by decide) (by decide) (by decide) (by decide) (by decide) (by decide) (by decide) (by decide) r.2 (h c),
      arg_kept m ρ c main_arg8 (by decide) (by decide) (by decide) (by decide) (by decide) (by decide) (by decide) (by decide) (by decide) (by decide) r.2 (h c),
      arg_kept m ρ c main_arg9 (by decide) (by decide) (by decide) (by decide) (by decide) (by decide) (by decide) (by decide) (by decide) (by decide) r.2 (h c),
      arg_kept m ρ c main_arg10 (by decide) (by decide) (by decide) (by decide) (by decide) (by decide) (by decide) (by decide) (by decide) (by decide) r.2 (h c),
      arg_kept m ρ c main_arg11 (by decide) (by decide) (by decide) (by decide) (by decide) (by decide) (by decide) (by decide) (by decide) (by decide) r.2 (h c)⟩) (run_all m ρ)

end Cert.KernelIdeal.Whole

end
-- ==== Proof.BodyValue.lean ====
/-
  The two kernel bodies read at one element, at the extended reals.

  The message body forms, for a block of 2000 node rows, the 384 gate pre-activations of each row — the row against
  each ROW of the 384 × 128 gate matrix (the body transposes the matrix before the product, so the product's right
  operand at (k, r) is the matrix at (r, k)), plus the bias entry — cuts the three column ranges 0 … 127, 128 … 255,
  256 … 383 (input, cell, output gate) and returns σ(o) · tanh (σ(i) · tanh g). The update body adds two such products
  (the node's own row and the aggregated row, each against a 128 × 128 matrix's rows), then the bias, and clamps below
  at zero. At the extended reals the format changes are the identity, the product into a zero accumulator is the plain
  sum over the contracted coordinate, and the zero constant is the number 0; so each body at (p, q) is the closed
  expression stated here. No distributivity and no finiteness is used: only re-indexing of a sum along a bijection.
-/
import proofs.«165492_j790273982767_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.BodyValue

open Idealize.ShloMosaic Idealize.ShloMosaic.ValueIdx Cert.KernelIdeal Cert.KernelIdeal.Gen

/-! ## A product into the zero accumulator, read at an element -/

/-- A plain M × K by K × N product accumulated into the zero splat, read at (p, c): the sum over the K coordinates
    of the left operand's row p against the right operand's column c. The contraction index set has one axis of
    extent K; the sum is re-indexed along the bijection with `Fin K`, and the two operand indices at (p, c) and
    contraction coordinate k are (p, k) and (k, c), coordinate by coordinate. -/
theorem plain_matmul_apply {M K N : Nat} {φ₁ φ₂ : FTy}
    (l : FVec Ideal ⟨2, ![M, K]⟩ φ₁) (r : FVec Ideal ⟨2, ![K, N]⟩ φ₂) (p : Fin M) (c : Fin N) :
    matmul (F := Ideal) (DotDims.plain M K N) none l r (constant (F := Ideal) ⟨2, ![M, N]⟩ .f32 0x00000000#32) (ix2 p c)
      = ∑ k : Fin K, l (ix2 p k) * r (ix2 k c) := by
  refine (Ideal.matmul_constant_zero_apply (DotDims.plain M K N) none l r (ix2 p c)).trans ?_
  rw [← Equiv.sum_comp (contrEquiv1 (DotDims.plain M K N) K rfl rfl).symm]
  refine Finset.sum_congr rfl fun k _ => ?_
  have hl : (DotDims.plain M K N).lhsIdx (ix2 p c) ((contrEquiv1 (DotDims.plain M K N) K rfl rfl).symm k) = ix2 p k := by
    funext a
    match a with
    | ⟨0, _⟩ => rfl
    | ⟨1, _⟩ => rfl
  have hr : (DotDims.plain M K N).rhsIdx (ix2 p c) ((contrEquiv1 (DotDims.plain M K N) K rfl rfl).symm k) = ix2 k c := by
    funext a
    match a with
    | ⟨0, _⟩ => rfl
    | ⟨1, _⟩ => rfl
  rw [hl, hr]

/-- A block of rows against the ROWS of a weight matrix: the left operand and the N × K matrix narrowed to the
    half-width format (the identity here), the matrix transposed to K × N, multiplied into the zero splat. At (p, c)
    this is the sum over k of the left row p at k times the matrix's row c at k. -/
theorem rows_matmul_apply {M K N : Nat} (D : DotDims ⟨2, ![M, K]⟩ ⟨2, ![K, N]⟩ ⟨2, ![M, N]⟩) (hD : D = DotDims.plain M K N)
    (l : FVec Ideal ⟨2, ![M, K]⟩ .f32) (w : FVec Ideal ⟨2, ![N, K]⟩ .f32) (hb : FTy.bits .bf16 < FTy.bits .f32)
    (ht : (⟨2, ![N, K]⟩ : Shape).Transposes [1, 0] ⟨2, ![K, N]⟩) (p : Fin M) (c : Fin N) :
    matmul (F := Ideal) D none (truncf .bf16 l hb) (transpose ⟨2, ![K, N]⟩ [1, 0] (truncf .bf16 w hb) ht)
        (constant (F := Ideal) ⟨2, ![M, N]⟩ .f32 0x00000000#32) (ix2 p c)
      = ∑ k : Fin K, l (ix2 p k) * w (ix2 c k) := by
  subst hD
  refine (plain_matmul_apply _ _ p c).trans ?_
  refine Finset.sum_congr rfl fun k _ => ?_
  exact congrArg (fun t => l (ix2 p k) * t) (transpose_ix2_apply (truncf .bf16 w hb) ht k c)

/-- A bias vector of length b, given one leading unit axis and repeated over a rows, reads at (p, c) its entry c. -/
theorem bias_row_apply {a b : Nat} (v : FVec Ideal ⟨1, ![b]⟩ .f32) (hc : (⟨1, ![b]⟩ : Shape).ShapeCasts ⟨2, ![1, b]⟩)
    (hbr : (⟨2, ![1, b]⟩ : Shape).Broadcasts ⟨2, ![a, b]⟩) (p : Fin a) (c : Fin b) :
    broadcastTo ⟨2, ![a, b]⟩ (shapeCast ⟨2, ![1, b]⟩ v hc) hbr (ix2 p c) = v (ix1 c) :=
  (broadcastTo_1b_ab_apply _ hbr p c).trans (shapeCast_a_1a_apply v hc 0 c)

/-! ## The message body -/

/-- Gate row r's pre-activation at block row p: the row against row r of the 384 × 128 gate matrix, plus bias r. -/
def g3 (x : Vec Ideal S2000x128 .f32) (W3 : Vec Ideal S384x128 .f32) (b3 : Vec Ideal S384 .f32)
    (p : Fin 2000) (r : Fin 384) : EReal :=
  (∑ k : Fin 128, x (ix2 p k) * W3 (ix2 r k)) + b3 (ix1 r)

/-- The 2000 × 384 array of gate pre-activations the body forms before cutting it: product plus repeated bias. -/
def gates (x : Vec Ideal S2000x128 .f32) (W3 : Vec Ideal S384x128 .f32) (b3 : Vec Ideal S384 .f32) :
    FVec Ideal S2000x384 .f32 :=
  addf
    (matmul (F := Ideal) dot_S2000x128_S128x384_S2000x384_1_0_0_1_n_n none
      (truncf .bf16 x bitsLt_bf16_f32)
      (transpose S128x384 [1, 0]
        (truncf .bf16 (shapeCast S384x128 W3 shapeCasts_S384x128_S384x128) bitsLt_bf16_f32)
        transposes_S384x128_p1_0_S128x384)
      (constant (F := Ideal) S2000x384 .f32 0x00000000#32))
    (broadcastTo S2000x384
      (shapeCast S1x384 (shapeCast S384 b3 shapeCasts_S384_S384) shapeCasts_S384_S1x384)
      broadcasts_S1x384_S2000x384)

/-- The gate array at (p, r) is gate row r's pre-activation at block row p. -/
theorem gates_apply (x : Vec Ideal S2000x128 .f32) (W3 : Vec Ideal S384x128 .f32) (b3 : Vec Ideal S384 .f32)
    (p : Fin 2000) (r : Fin 384) : gates x W3 b3 (ix2 p r) = g3 x W3 b3 p r := by
  have hW : shapeCast S384x128 W3 shapeCasts_S384x128_S384x128 = W3 := shapeCast_self W3 _
  have hb : shapeCast S384 b3 shapeCasts_S384_S384 = b3 := shapeCast_self b3 _
  unfold gates g3
  rw [hW, hb]
  exact congrArg₂ (· + ·)
    (rows_matmul_apply dot_S2000x128_S128x384_S2000x384_1_0_0_1_n_n rfl x W3 bitsLt_bf16_f32
      transposes_S384x128_p1_0_S128x384 p r)
    (bias_row_apply b3 shapeCasts_S384_S1x384 broadcasts_S1x384_S2000x384 p r)

/-- The message body's expression over the gate array: the three column ranges cut at offsets 0, 128, 256 are the
    input, cell and output gates; the result is σ(o) · tanh (σ(i) · tanh g). -/
theorem msg_of_gates (G : FVec Ideal S2000x384 .f32) (gv : Fin 2000 → Fin 384 → EReal)
    (hG : ∀ p r, G (ix2 p r) = gv p r) (p : Fin 2000) (q : Fin 128) :
    mulf (logistic (extractStridedSlice S2000x128 ![0, 256] G slices_S2000x384_o0_256_S2000x128))
        (tanh (mulf (logistic (extractStridedSlice S2000x128 ![0, 0] G slices_S2000x384_o0_0_S2000x128))
          (tanh (extractStridedSlice S2000x128 ![0, 128] G slices_S2000x384_o0_128_S2000x128)))) (ix2 p q)
      = Ideal.logistic (gv p ⟨256 + q.val, by omega⟩)
          * Ideal.tanh (Ideal.logistic (gv p ⟨q.val, by omega⟩) * Ideal.tanh (gv p ⟨128 + q.val, by omega⟩)) := by
  have ho : extractStridedSlice S2000x128 ![0, 256] G slices_S2000x384_o0_256_S2000x128 (ix2 p q)
      = gv p ⟨256 + q.val, by omega⟩ :=
    (slice2_axis1_apply 256 G slices_S2000x384_o0_256_S2000x128 p q ⟨256 + q.val, by omega⟩ rfl).trans (hG _ _)
  have hi : extractStridedSlice S2000x128 ![0, 0] G slices_S2000x384_o0_0_S2000x128 (ix2 p q)
      = gv p ⟨q.val, by omega⟩ :=
    (slice2_axis1_apply 0 G slices_S2000x384_o0_0_S2000x128 p q ⟨q.val, by omega⟩ (Nat.zero_add _).symm).trans (hG _ _)
  have hg : extractStridedSlice S2000x128 ![0, 128] G slices_S2000x384_o0_128_S2000x128 (ix2 p q)
      = gv p ⟨128 + q.val, by omega⟩ :=
    (slice2_axis1_apply 128 G slices_S2000x384_o0_128_S2000x128 p q ⟨128 + q.val, by omega⟩ rfl).trans (hG _ _)
  show Ideal.logistic (extractStridedSlice S2000x128 ![0, 256] G slices_S2000x384_o0_256_S2000x128 (ix2 p q))
      * Ideal.tanh (Ideal.logistic (extractStridedSlice S2000x128 ![0, 0] G slices_S2000x384_o0_0_S2000x128 (ix2 p q))
          * Ideal.tanh (extractStridedSlice S2000x128 ![0, 128] G slices_S2000x384_o0_128_S2000x128 (ix2 p q))) = _
  rw [ho, hi, hg]

/-- The first message body at (p, q). -/
theorem msg_pay0 (x : Vec Ideal S2000x128 .f32) (W3 : Vec Ideal S384x128 .f32) (b3 : Vec Ideal S384 .f32)
    (p : Fin 2000) (q : Fin 128) :
    k0_pay1 (F := Ideal) x W3 b3 (ix2 p q)
      = Ideal.logistic (g3 x W3 b3 p ⟨256 + q.val, by omega⟩)
          * Ideal.tanh (Ideal.logistic (g3 x W3 b3 p ⟨q.val, by omega⟩) * Ideal.tanh (g3 x W3 b3 p ⟨128 + q.val, by omega⟩)) :=
  msg_of_gates (gates x W3 b3) (g3 x W3 b3) (gates_apply x W3 b3) p q

/-- The second message body is the same text. -/
theorem msg_pay2 (x : Vec Ideal S2000x128 .f32) (W3 : Vec Ideal S384x128 .f32) (b3 : Vec Ideal S384 .f32)
    (p : Fin 2000) (q : Fin 128) :
    k2_pay1 (F := Ideal) x W3 b3 (ix2 p q)
      = Ideal.logistic (g3 x W3 b3 p ⟨256 + q.val, by omega⟩)
          * Ideal.tanh (Ideal.logistic (g3 x W3 b3 p ⟨q.val, by omega⟩) * Ideal.tanh (g3 x W3 b3 p ⟨128 + q.val, by omega⟩)) :=
  msg_of_gates (gates x W3 b3) (g3 x W3 b3) (gates_apply x W3 b3) p q

/-! ## The update body -/

/-- The update body at (p, q): the node's own row against row q of the first 128 × 128 matrix, plus the aggregated
    row against row q of the second, plus bias q (bracketed as the body adds them: the two products first, then the
    bias), clamped below at the zero constant, which is the number 0. -/
theorem upd_pay1 (xd ag : Vec Ideal S5000x128 .f32) (Wx Wa : Vec Ideal S128x128 .f32) (bl : Vec Ideal S128 .f32)
    (p : Fin 5000) (q : Fin 128) :
    k1_pay1 (F := Ideal) xd ag Wx Wa bl (ix2 p q)
      = max ((∑ k : Fin 128, xd (ix2 p k) * Wx (ix2 q k)) + (∑ k : Fin 128, ag (ix2 p k) * Wa (ix2 q k)) + bl (ix1 q)) 0 := by
  have hWx : shapeCast S128x128 Wx shapeCasts_S128x128_S128x128 = Wx := shapeCast_self Wx _
  have hWa : shapeCast S128x128 Wa shapeCasts_S128x128_S128x128 = Wa := shapeCast_self Wa _
  have hag : shapeCast S5000x128 ag shapeCasts_S5000x128_S5000x128 = ag := shapeCast_self ag _
  have e1 := (rows_matmul_apply dot_S5000x128_S128x128_S5000x128_1_0_0_1_n_n rfl xd
      (shapeCast S128x128 Wx shapeCasts_S128x128_S128x128) bitsLt_bf16_f32 transposes_S128x128_p1_0_S128x128 p q).trans
    (show (∑ k : Fin 128, xd (ix2 p k) * shapeCast S128x128 Wx shapeCasts_S128x128_S128x128 (ix2 q k))
        = ∑ k : Fin 128, xd (ix2 p k) * Wx (ix2 q k) by rw [hWx])
  have e2 := (rows_matmul_apply dot_S5000x128_S128x128_S5000x128_1_0_0_1_n_n rfl
      (shapeCast S5000x128 ag shapeCasts_S5000x128_S5000x128)
      (shapeCast S128x128 Wa shapeCasts_S128x128_S128x128) bitsLt_bf16_f32 transposes_S128x128_p1_0_S128x128 p q).trans
    (show (∑ k : Fin 128, shapeCast S5000x128 ag shapeCasts_S5000x128_S5000x128 (ix2 p k)
          * shapeCast S128x128 Wa shapeCasts_S128x128_S128x128 (ix2 q k))
        = ∑ k : Fin 128, ag (ix2 p k) * Wa (ix2 q k) by rw [hag, hWa])
  have e3 := bias_row_apply bl shapeCasts_S128_S1x128 broadcasts_S1x128_S5000x128 p q
  exact congrArg₂ max (congrArg₂ (· + ·) (congrArg₂ (· + ·) e1 e2) e3) Ideal.ofBits_zero_f32

/-- The second update body is the same text. -/
theorem upd_pay3 (xd ag : Vec Ideal S5000x128 .f32) (Wx Wa : Vec Ideal S128x128 .f32) (bl : Vec Ideal S128 .f32)
    (p : Fin 5000) (q : Fin 128) :
    k3_pay1 (F := Ideal) xd ag Wx Wa bl (ix2 p q)
      = max ((∑ k : Fin 128, xd (ix2 p k) * Wx (ix2 q k)) + (∑ k : Fin 128, ag (ix2 p k) * Wa (ix2 q k)) + bl (ix1 q)) 0 :=
  upd_pay1 xd ag Wx Wa bl p q

end Cert.BodyValue

end
-- ==== Proof.Spec.lean ====
/-
  The function both programs compute, written once over the argument arrays at the extended reals.

  A relation's message: node `n`'s feature row times the rows `j`, `256 + j`, `384 + j` of the 512-row gate matrix
  (the input, cell and output gates of a one-step LSTM cell started from a zero state; rows `128 … 255`, the forget gate,
  never enter), each plus its bias entry; the message is `σ(o) · tanh (σ(i) · tanh g)` with `σ x = 1 / (1 + e⁻ˣ)`.
  A relation's update: the target node's own row against the first 128 columns of the 128 × 256 linear map, plus the
  aggregated messages' row against its last 128 columns, plus the bias, clamped below at zero.
  How messages are aggregated along the edges (`agg`) and how the two relations' results are stacked (`stk`) are
  parameters: both programs spell those two steps with the same host operations.
-/
import Idealize.ShloMosaic.PureOps.Ideal
import Idealize.ShloMosaic.Lib.ValueIdx

noncomputable section

open scoped BigOperators

namespace Cert.Spec

open Idealize.ShloMosaic Idealize.ShloMosaic.ValueIdx

/-- Node features and messages: 50000 nodes, 128 channels. -/
abbrev SN : Shape := ⟨2, ![50000, 128]⟩
/-- A relation's gate matrix: 4 × 128 gate rows, 128 input channels. -/
abbrev SW : Shape := ⟨2, ![512, 128]⟩
/-- A relation's gate bias. -/
abbrev SB : Shape := ⟨1, ![512]⟩
/-- A relation's linear map: 128 output channels, 128 own channels then 128 aggregated channels. -/
abbrev SL : Shape := ⟨2, ![128, 256]⟩
/-- A relation's linear bias. -/
abbrev SC : Shape := ⟨1, ![128]⟩

/-- Gate row `r`'s pre-activation at node `n`: the node's feature row against row `r` of the gate matrix, plus the
    bias entry `r`. -/
def gate (x : FVec Ideal SN .f32) (W : FVec Ideal SW .f32) (b : FVec Ideal SB .f32) (n : Fin 50000) (r : Fin 512) : EReal :=
  (∑ k : Fin 128, x (ix2 n k) * W (ix2 r k)) + b (ix1 r)

/-- The input, cell and output gate rows of channel `j`. -/
abbrev rowI (j : Fin 128) : Fin 512 := ⟨j.val, by omega⟩
abbrev rowG (j : Fin 128) : Fin 512 := ⟨256 + j.val, by omega⟩
abbrev rowO (j : Fin 128) : Fin 512 := ⟨384 + j.val, by omega⟩

/-- Node `n`'s message at channel `j`: `σ(o) · tanh (σ(i) · tanh g)`. -/
def msgAt (x : FVec Ideal SN .f32) (W : FVec Ideal SW .f32) (b : FVec Ideal SB .f32) (n : Fin 50000) (j : Fin 128) : EReal :=
  Ideal.logistic (gate x W b n (rowO j)) * Ideal.tanh (Ideal.logistic (gate x W b n (rowI j)) * Ideal.tanh (gate x W b n (rowG j)))

/-- A relation's messages, one row per source node. -/
def msg (x : FVec Ideal SN .f32) (W : FVec Ideal SW .f32) (b : FVec Ideal SB .f32) : FVec Ideal SN .f32 :=
  fun i => msgAt x W b (i 0) (i 1)

/-- The aggregated-channel column `128 + k` of the linear map. -/
abbrev colA (k : Fin 128) : Fin 256 := ⟨128 + k.val, by omega⟩
/-- The own-channel column `k` of the linear map. -/
abbrev colX (k : Fin 128) : Fin 256 := ⟨k.val, by omega⟩

/-- Node `n`'s updated channel `j`: own row against the map's first half, aggregated row against its second half, bias,
    clamped below at zero. -/
def updAt (xd ag : FVec Ideal SN .f32) (Wl : FVec Ideal SL .f32) (bl : FVec Ideal SC .f32) (n : Fin 50000) (j : Fin 128) : EReal :=
  max ((∑ k : Fin 128, xd (ix2 n k) * Wl (ix2 j (colX k))) + (∑ k : Fin 128, ag (ix2 n k) * Wl (ix2 j (colA k))) + bl (ix1 j)) 0

/-- A relation's updated target features. -/
def upd (xd ag : FVec Ideal SN .f32) (Wl : FVec Ideal SL .f32) (bl : FVec Ideal SC .f32) : FVec Ideal SN .f32 :=
  fun i => updAt xd ag Wl bl (i 0) (i 1)

/-- The whole result: relation b→a updates the a-nodes from the b-nodes' messages along `eba`, relation a→b the
    b-nodes from the a-nodes' messages along `eab`; the two are stacked, a first. `E` is the edge lists' type and `R`
    the stacked result's. -/
def out {E R : Type} (agg : FVec Ideal SN .f32 → E → FVec Ideal SN .f32) (stk : FVec Ideal SN .f32 → FVec Ideal SN .f32 → R)
    (xa xb : FVec Ideal SN .f32) (eab eba : E)
    (Wab : FVec Ideal SW .f32) (bab : FVec Ideal SB .f32) (Lab : FVec Ideal SL .f32) (cab : FVec Ideal SC .f32)
    (Wba : FVec Ideal SW .f32) (bba : FVec Ideal SB .f32) (Lba : FVec Ideal SL .f32) (cba : FVec Ideal SC .f32) : R :=
  stk (upd xa (agg (msg xb Wba bba) eba) Lba cba) (upd xb (agg (msg xa Wab bab) eab) Lab cab)

end Cert.Spec

end
-- ==== Proof.GateJoin.lean ====
/-
  The gate matrix the message body receives, against the 512-row matrix of the specification.

  Before the message body runs, rows 0 … 127, 256 … 383 and 384 … 511 of the 512 × 128 gate matrix are cut out and laid
  end to end as a 384 × 128 matrix (rows 128 … 255, the forget gate, are dropped), and likewise the 512 bias entries.
  So row r of the 384-row matrix is row r of the 512-row one for r < 128 and row r + 128 otherwise. The body's gate
  rows q, 128 + q, 256 + q are therefore the specification's input, cell and output rows q, 256 + q, 384 + q, and the
  body's gate pre-activation on a block row that holds node n's features is the specification's at node n. For the
  update, the two 128 × 128 matrices are the first and the last 128 columns of the 128 × 256 linear map.
-/
import proofs.«165492_j790273982767_2_alg».proof.Proof.BodyValue
import proofs.«165492_j790273982767_2_alg».proof.Proof.Spec
import Idealize.ShloMosaic.Lib.ValueIdx
import Idealize.ShloMosaic.Lib.Pipeline.Value
import Idealize.ShloMosaic.Lib.ValueLayout

noncomputable section

open scoped BigOperators

namespace Cert.GateJoin

open Idealize.ShloMosaic Idealize.ShloMosaic.ValueIdx Cert.KernelIdeal Cert.KernelIdeal.Gen

/-! ## The kept rows -/

/-- Where row r of the 384 kept rows sits among the 512: unmoved below 128, 128 further on from there. -/
def row512 (r : Fin 384) : Fin 512 :=
  ⟨if r.val < 128 then r.val else r.val + 128, by have := r.isLt; split <;> omega⟩

theorem row512_val_lt {r : Fin 384} (h : r.val < 128) : (row512 r).val = r.val := if_pos h
theorem row512_val_ge {r : Fin 384} (h : ¬r.val < 128) : (row512 r).val = r.val + 128 := if_neg h

/-- The kept rows q, 128 + q, 256 + q are the specification's input, cell and output rows of channel q. -/
theorem row512_I (q : Fin 128) : row512 ⟨q.val, by omega⟩ = Cert.Spec.rowI q :=
  Fin.ext (row512_val_lt (r := ⟨q.val, by omega⟩) q.isLt)
theorem row512_G (q : Fin 128) : row512 ⟨128 + q.val, by omega⟩ = Cert.Spec.rowG q :=
  Fin.ext ((row512_val_ge (r := ⟨128 + q.val, by omega⟩) (by show ¬(128 + q.val < 128); omega)).trans
    (by show 128 + q.val + 128 = 256 + q.val; omega))
theorem row512_O (q : Fin 128) : row512 ⟨256 + q.val, by omega⟩ = Cert.Spec.rowO q :=
  Fin.ext ((row512_val_ge (r := ⟨256 + q.val, by omega⟩) (by show ¬(256 + q.val < 128); omega)).trans
    (by show 256 + q.val + 128 = 384 + q.val; omega))

/-! ## The 384-row gate matrix -/

/-- The three row ranges cut out of the 512 × 128 matrix, in order. -/
def Wpieces (W : FVec Ideal S512x128 .f32) : List ((s : Shape) × (s.Idx → Ideal .f32)) :=
  [⟨S128x128, extractStridedSlice S128x128 ![0, 0] W slices_S512x128_S128x128_0_0⟩,
   ⟨S128x128, extractStridedSlice S128x128 ![256, 0] W slices_S512x128_S128x128_256_0⟩,
   ⟨S128x128, extractStridedSlice S128x128 ![384, 0] W slices_S512x128_S128x128_384_0⟩]

/-- The three row ranges of the 512 × 128 matrix laid end to end. -/
def Weff (W : FVec Ideal S512x128 .f32) : FVec Ideal S384x128 .f32 :=
  concatenate S384x128 0 (Wpieces W) concatenates_S128x128_S128x128_S128x128_S384x128_d0

/-- Row r of the 384-row matrix is row `row512 r` of the 512-row one: r falls in the first, second or third piece
    according to r < 128, r < 256 or not; the piece is read at r less the rows before it, and the piece is the cut of
    the 512-row matrix at its offset. -/
theorem Weff_apply (W : FVec Ideal S512x128 .f32) (r : Fin 384) (k : Fin 128) :
    Weff W (ix2 r k) = W (ix2 (row512 r) k) := by
  have hr := r.isLt
  unfold Weff
  by_cases h1 : r.val < 128
  · refine (concatenate_apply_piece 0 (Wpieces W) concatenates_S128x128_S128x128_S128x128_S384x128_d0 (ix2 r k)
      0 (show (0 : Nat) < 3 by decide) S128x128 _ rfl rfl 0 rfl (ix2 ⟨r.val, h1⟩ k) (fun b hb => ?_) (Nat.zero_add _)).trans ?_
    · match b with
      | ⟨0, _⟩ => exact absurd rfl hb
      | ⟨1, _⟩ => rfl
    · exact slice2_axis0_apply 0 W slices_S512x128_S128x128_0_0 ⟨r.val, h1⟩ k (row512 r)
        ((row512_val_lt h1).trans (Nat.zero_add _).symm)
  · by_cases h2 : r.val < 256
    · refine (concatenate_apply_piece 0 (Wpieces W) concatenates_S128x128_S128x128_S128x128_S384x128_d0 (ix2 r k)
        1 (show (1 : Nat) < 3 by decide) S128x128 _ rfl rfl 128 rfl (ix2 ⟨r.val - 128, by omega⟩ k) (fun b hb => ?_)
        (by show 128 + (r.val - 128) = r.val; omega)).trans ?_
      · match b with
        | ⟨0, _⟩ => exact absurd rfl hb
        | ⟨1, _⟩ => rfl
      · exact slice2_axis0_apply 256 W slices_S512x128_S128x128_256_0 ⟨r.val - 128, by omega⟩ k (row512 r)
          ((row512_val_ge h1).trans (by show r.val + 128 = 256 + (r.val - 128); omega))
    · refine (concatenate_apply_piece 0 (Wpieces W) concatenates_S128x128_S128x128_S128x128_S384x128_d0 (ix2 r k)
        2 (show (2 : Nat) < 3 by decide) S128x128 _ rfl rfl 256 rfl (ix2 ⟨r.val - 256, by omega⟩ k) (fun b hb => ?_)
        (by show 256 + (r.val - 256) = r.val; omega)).trans ?_
      · match b with
        | ⟨0, _⟩ => exact absurd rfl hb
        | ⟨1, _⟩ => rfl
      · exact slice2_axis0_apply 384 W slices_S512x128_S128x128_384_0 ⟨r.val - 256, by omega⟩ k (row512 r)
          ((row512_val_ge h1).trans (by show r.val + 128 = 384 + (r.val - 256); omega))

/-! ## The 384-entry bias -/

/-- The three ranges cut out of the 512 bias entries, in order. -/
def bpieces (b : FVec Ideal S512 .f32) : List ((s : Shape) × (s.Idx → Ideal .f32)) :=
  [⟨S128, extractStridedSlice S128 ![0] b slices_S512_S128_0⟩,
   ⟨S128, extractStridedSlice S128 ![256] b slices_S512_S128_256⟩,
   ⟨S128, extractStridedSlice S128 ![384] b slices_S512_S128_384⟩]

/-- The three ranges of the 512 bias entries laid end to end. -/
def beff (b : FVec Ideal S512 .f32) : FVec Ideal S384 .f32 :=
  concatenate S384 0 (bpieces b) concatenates_S128_S128_S128_S384_d0

/-- A cut of a vector from offset o reads, at j, the vector at k with k = o + j. -/
theorem slice1_apply {n m : Nat} (o : Nat) (X : (⟨1, ![n]⟩ : Shape).Idx → EReal)
    (h : (⟨1, ![n]⟩ : Shape).Slices ![o] ⟨1, ![m]⟩) (j : Fin m) (k : Fin n) (hk : k.val = o + j.val) :
    extractStridedSlice ⟨1, ![m]⟩ ![o] X h (ix1 j) = X (ix1 k) :=
  extractStridedSlice_apply _ _ _ _ _ (fun ax => by
    match ax with
    | ⟨0, _⟩ => exact hk)

/-- Entry r of the 384-entry bias is entry `row512 r` of the 512-entry one. -/
theorem beff_apply (b : FVec Ideal S512 .f32) (r : Fin 384) : beff b (ix1 r) = b (ix1 (row512 r)) := by
  have hr := r.isLt
  unfold beff
  by_cases h1 : r.val < 128
  · refine (concatenate_apply_piece 0 (bpieces b) concatenates_S128_S128_S128_S384_d0 (ix1 r)
      0 (show (0 : Nat) < 3 by decide) S128 _ rfl rfl 0 rfl (ix1 ⟨r.val, h1⟩) (fun b' hb => ?_) (Nat.zero_add _)).trans ?_
    · match b' with
      | ⟨0, _⟩ => exact absurd rfl hb
    · exact slice1_apply 0 b slices_S512_S128_0 ⟨r.val, h1⟩ (row512 r)
        ((row512_val_lt h1).trans (Nat.zero_add _).symm)
  · by_cases h2 : r.val < 256
    · refine (concatenate_apply_piece 0 (bpieces b) concatenates_S128_S128_S128_S384_d0 (ix1 r)
        1 (show (1 : Nat) < 3 by decide) S128 _ rfl rfl 128 rfl (ix1 ⟨r.val - 128, by omega⟩) (fun b' hb => ?_)
        (by show 128 + (r.val - 128) = r.val; omega)).trans ?_
      · match b' with
        | ⟨0, _⟩ => exact absurd rfl hb
      · exact slice1_apply 256 b slices_S512_S128_256 ⟨r.val - 128, by omega⟩ (row512 r)
          ((row512_val_ge h1).trans (by show r.val + 128 = 256 + (r.val - 128); omega))
    · refine (concatenate_apply_piece 0 (bpieces b) concatenates_S128_S128_S128_S384_d0 (ix1 r)
        2 (show (2 : Nat) < 3 by decide) S128 _ rfl rfl 256 rfl (ix1 ⟨r.val - 256, by omega⟩) (fun b' hb => ?_)
        (by show 256 + (r.val - 256) = r.val; omega)).trans ?_
      · match b' with
        | ⟨0, _⟩ => exact absurd rfl hb
      · exact slice1_apply 384 b slices_S512_S128_384 ⟨r.val - 256, by omega⟩ (row512 r)
          ((row512_val_ge h1).trans (by show r.val + 128 = 384 + (r.val - 256); omega))

/-! ## The body's gate pre-activation is the specification's -/

/-- On a block whose row p holds node n's features, the body's pre-activation of kept row r, formed with the 384-row
    matrix and bias, is the specification's pre-activation of row `row512 r` at node n. -/
theorem g3_eq_gate (x : FVec Ideal Cert.Spec.SN .f32) (W : FVec Ideal S512x128 .f32) (b : FVec Ideal S512 .f32)
    (xblk : Vec Ideal S2000x128 .f32) (p : Fin 2000) (n : Fin 50000) (hx : ∀ k : Fin 128, xblk (ix2 p k) = x (ix2 n k))
    (r : Fin 384) :
    Cert.BodyValue.g3 xblk (Weff W) (beff b) p r = Cert.Spec.gate x W b n (row512 r) := by
  unfold Cert.BodyValue.g3 Cert.Spec.gate
  exact congrArg₂ (· + ·)
    (Finset.sum_congr rfl fun k _ => congrArg₂ (· * ·) (hx k) (Weff_apply W r k))
    (beff_apply b r)

/-- The input gate row. -/
theorem g3_rowI (x : FVec Ideal Cert.Spec.SN .f32) (W : FVec Ideal S512x128 .f32) (b : FVec Ideal S512 .f32)
    (xblk : Vec Ideal S2000x128 .f32) (p : Fin 2000) (n : Fin 50000) (hx : ∀ k : Fin 128, xblk (ix2 p k) = x (ix2 n k))
    (q : Fin 128) :
    Cert.BodyValue.g3 xblk (Weff W) (beff b) p ⟨q.val, by omega⟩ = Cert.Spec.gate x W b n (Cert.Spec.rowI q) :=
  (g3_eq_gate x W b xblk p n hx _).trans (congrArg (Cert.Spec.gate x W b n) (row512_I q))

/-- The cell gate row. -/
theorem g3_rowG (x : FVec Ideal Cert.Spec.SN .f32) (W : FVec Ideal S512x128 .f32) (b : FVec Ideal S512 .f32)
    (xblk : Vec Ideal S2000x128 .f32) (p : Fin 2000) (n : Fin 50000) (hx : ∀ k : Fin 128, xblk (ix2 p k) = x (ix2 n k))
    (q : Fin 128) :
    Cert.BodyValue.g3 xblk (Weff W) (beff b) p ⟨128 + q.val, by omega⟩ = Cert.Spec.gate x W b n (Cert.Spec.rowG q) :=
  (g3_eq_gate x W b xblk p n hx _).trans (congrArg (Cert.Spec.gate x W b n) (row512_G q))

/-- The output gate row. -/
theorem g3_rowO (x : FVec Ideal Cert.Spec.SN .f32) (W : FVec Ideal S512x128 .f32) (b : FVec Ideal S512 .f32)
    (xblk : Vec Ideal S2000x128 .f32) (p : Fin 2000) (n : Fin 50000) (hx : ∀ k : Fin 128, xblk (ix2 p k) = x (ix2 n k))
    (q : Fin 128) :
    Cert.BodyValue.g3 xblk (Weff W) (beff b) p ⟨256 + q.val, by omega⟩ = Cert.Spec.gate x W b n (Cert.Spec.rowO q) :=
  (g3_eq_gate x W b xblk p n hx _).trans (congrArg (Cert.Spec.gate x W b n) (row512_O q))

/-! ## The update's two matrices -/

/-- The first 128 columns of the 128 × 256 linear map, at (j, k): the map at (j, own-channel column k). -/
theorem Wx_apply (Wl : FVec Ideal S128x256 .f32) (j k : Fin 128) :
    extractStridedSlice S128x128 ![0, 0] Wl slices_S128x256_S128x128_0_0 (ix2 j k) = Wl (ix2 j (Cert.Spec.colX k)) :=
  slice2_axis1_apply 0 Wl slices_S128x256_S128x128_0_0 j k (Cert.Spec.colX k) (Nat.zero_add _).symm

/-- The last 128 columns, at (j, k): the map at (j, aggregated-channel column 128 + k). -/
theorem Wa_apply (Wl : FVec Ideal S128x256 .f32) (j k : Fin 128) :
    extractStridedSlice S128x128 ![0, 128] Wl slices_S128x256_S128x128_0_128 (ix2 j k) = Wl (ix2 j (Cert.Spec.colA k)) :=
  slice2_axis1_apply 128 Wl slices_S128x256_S128x128_0_128 j k (Cert.Spec.colA k) rfl

/-! ## The bodies against the specification -/

/-- The message body, run on a block whose row p holds node n's features with the 384-row matrix and bias, gives at
    (p, q) the specification's message of node n at channel q. -/
theorem msg_pay0_eq_msgAt (x : FVec Ideal Cert.Spec.SN .f32) (W : FVec Ideal S512x128 .f32) (b : FVec Ideal S512 .f32)
    (xblk : Vec Ideal S2000x128 .f32) (p : Fin 2000) (n : Fin 50000) (hx : ∀ k : Fin 128, xblk (ix2 p k) = x (ix2 n k))
    (q : Fin 128) :
    k0_pay1 (F := Ideal) xblk (Weff W) (beff b) (ix2 p q) = Cert.Spec.msgAt x W b n q := by
  refine (Cert.BodyValue.msg_pay0 xblk (Weff W) (beff b) p q).trans ?_
  unfold Cert.Spec.msgAt
  rw [g3_rowO x W b xblk p n hx q, g3_rowI x W b xblk p n hx q, g3_rowG x W b xblk p n hx q]

/-- The same for the second message body. -/
theorem msg_pay2_eq_msgAt (x : FVec Ideal Cert.Spec.SN .f32) (W : FVec Ideal S512x128 .f32) (b : FVec Ideal S512 .f32)
    (xblk : Vec Ideal S2000x128 .f32) (p : Fin 2000) (n : Fin 50000) (hx : ∀ k : Fin 128, xblk (ix2 p k) = x (ix2 n k))
    (q : Fin 128) :
    k2_pay1 (F := Ideal) xblk (Weff W) (beff b) (ix2 p q) = Cert.Spec.msgAt x W b n q :=
  msg_pay0_eq_msgAt x W b xblk p n hx q

/-- The update body, run on blocks whose rows p hold node n's own and aggregated features with the two halves of the
    linear map, gives at (p, j) the specification's updated channel j of node n. -/
theorem upd_pay1_eq_updAt (xd ag : FVec Ideal Cert.Spec.SN .f32) (Wl : FVec Ideal S128x256 .f32) (bl : FVec Ideal S128 .f32)
    (xdblk agblk : Vec Ideal S5000x128 .f32) (p : Fin 5000) (n : Fin 50000)
    (hxd : ∀ k : Fin 128, xdblk (ix2 p k) = xd (ix2 n k)) (hag : ∀ k : Fin 128, agblk (ix2 p k) = ag (ix2 n k))
    (j : Fin 128) :
    k1_pay1 (F := Ideal) xdblk agblk
        (extractStridedSlice S128x128 ![0, 0] Wl slices_S128x256_S128x128_0_0)
        (extractStridedSlice S128x128 ![0, 128] Wl slices_S128x256_S128x128_0_128) bl (ix2 p j)
      = Cert.Spec.updAt xd ag Wl bl n j := by
  refine (Cert.BodyValue.upd_pay1 xdblk agblk _ _ bl p j).trans ?_
  unfold Cert.Spec.updAt
  refine congrArg (fun t => max t 0) (congrArg (fun t => t + bl (ix1 j)) (congrArg₂ (· + ·) ?_ ?_))
  · exact Finset.sum_congr rfl fun k _ => congrArg₂ (· * ·) (hxd k) (Wx_apply Wl j k)
  · exact Finset.sum_congr rfl fun k _ => congrArg₂ (· * ·) (hag k) (Wa_apply Wl j k)

/-- The same for the second update body. -/
theorem upd_pay3_eq_updAt (xd ag : FVec Ideal Cert.Spec.SN .f32) (Wl : FVec Ideal S128x256 .f32) (bl : FVec Ideal S128 .f32)
    (xdblk agblk : Vec Ideal S5000x128 .f32) (p : Fin 5000) (n : Fin 50000)
    (hxd : ∀ k : Fin 128, xdblk (ix2 p k) = xd (ix2 n k)) (hag : ∀ k : Fin 128, agblk (ix2 p k) = ag (ix2 n k))
    (j : Fin 128) :
    k3_pay1 (F := Ideal) xdblk agblk
        (extractStridedSlice S128x128 ![0, 0] Wl slices_S128x256_S128x128_0_0)
        (extractStridedSlice S128x128 ![0, 128] Wl slices_S128x256_S128x128_0_128) bl (ix2 p j)
      = Cert.Spec.updAt xd ag Wl bl n j :=
  upd_pay1_eq_updAt xd ag Wl bl xdblk agblk p n hxd hag j

end Cert.GateJoin

end
-- ==== Proof.KIValue.lean ====
/-
  What the idealized program's result buffer holds at the end, as one function of the twelve argument arrays.

  Each message region writes, block of 2000 rows by block, node `n`'s messages `σ(o) · tanh (σ(i) · tanh g)` from the node's
  own feature row and the three kept gate blocks of its relation's gate matrix and bias; the 25 blocks tile the 50000 rows,
  so the region's output array is the specification's `msg` of the region's entry contents. Each update region writes,
  block of 5000 rows by block, the target's own row against the linear map's first 128 columns plus its aggregated row against
  the last 128 plus the bias, clamped at zero; its 10 blocks tile the rows, so its output is the specification's `upd`.
  Between the regions the host stretches cut the gate matrix and bias down to the kept rows, gather the messages along the
  edges and add them up per target, cut the linear map in two, and at the end stack the two relations' results. Reading the
  boundary contents `B0 … B9` back through these steps gives the result as the specification's `out`, with the gathering
  and stacking steps kept as the program spells them.
-/
import proofs.«165492_j790273982767_2_alg».proof.Proof.KIFrame
import proofs.«165492_j790273982767_2_alg».proof.Proof.GateJoin
import Idealize.ShloMosaic.Lib.Pipeline.Value
import Idealize.ShloMosaic.Lib.ValueIdx
import Idealize.ShloMosaic.Lib.StableHlo.Run

set_option maxRecDepth 16384

noncomputable section

namespace Cert.KernelIdeal.WholeValue

open Idealize.ShloMosaic Idealize.ShloMosaic.TcCoe Idealize.ShloMosaic.ValueIdx Idealize.SL.Sem Idealize.ShloMosaic.StableHlo
open Idealize.ShloMosaic.Pipeline (Dat)
open Cert.KernelIdeal Cert.KernelIdeal.Gen Cert.KernelIdeal.GenP Cert.KernelIdeal.Whole

theorem hz2 : (![0, 0] : Fin 2 → Nat) = fun _ => 0 := funext fun a => by fin_cases a <;> rfl
theorem hz1 : (![0] : Fin 1 → Nat) = fun _ => 0 := funext fun a => by fin_cases a <;> rfl

/-- The update payload at a block index `j`, for blocks whose row `j 0` is row `n` of the whole arrays. -/
theorem upd_at1 (xd ag : FVec Ideal Cert.Spec.SN .f32) (Wl : FVec Ideal S128x256 .f32) (bl : FVec Ideal S128 .f32)
    (xdblk agblk : Vec Ideal S5000x128 .f32) (j : S5000x128.Idx) (n : Fin 50000)
    (hxd : ∀ k : Fin 128, xdblk (ix2 (j 0) k) = xd (ix2 n k)) (hag : ∀ k : Fin 128, agblk (ix2 (j 0) k) = ag (ix2 n k)) :
    k1_pay1 (F := Ideal) xdblk agblk (extractStridedSlice S128x128 ![0, 0] Wl slices_S128x256_S128x128_0_0)
        (extractStridedSlice S128x128 ![0, 128] Wl slices_S128x256_S128x128_0_128) bl j
      = Cert.Spec.upd xd ag Wl bl (ix2 n (j 1)) := by
  obtain ⟨p, q, rfl⟩ : ∃ (p : Fin 5000) (q : Fin 128), j = ix2 p q := ⟨j 0, j 1, eq_ix2 j⟩
  exact Cert.GateJoin.upd_pay1_eq_updAt xd ag Wl bl xdblk agblk p n hxd hag q

/-- The update payload at a block index `j`, for blocks whose row `j 0` is row `n` of the whole arrays. -/
theorem upd_at3 (xd ag : FVec Ideal Cert.Spec.SN .f32) (Wl : FVec Ideal S128x256 .f32) (bl : FVec Ideal S128 .f32)
    (xdblk agblk : Vec Ideal S5000x128 .f32) (j : S5000x128.Idx) (n : Fin 50000)
    (hxd : ∀ k : Fin 128, xdblk (ix2 (j 0) k) = xd (ix2 n k)) (hag : ∀ k : Fin 128, agblk (ix2 (j 0) k) = ag (ix2 n k)) :
    k3_pay1 (F := Ideal) xdblk agblk (extractStridedSlice S128x128 ![0, 0] Wl slices_S128x256_S128x128_0_0)
        (extractStridedSlice S128x128 ![0, 128] Wl slices_S128x256_S128x128_0_128) bl j
      = Cert.Spec.upd xd ag Wl bl (ix2 n (j 1)) := by
  obtain ⟨p, q, rfl⟩ : ∃ (p : Fin 5000) (q : Fin 128), j = ix2 p q := ⟨j 0, j 1, eq_ix2 j⟩
  exact Cert.GateJoin.upd_pay3_eq_updAt xd ag Wl bl xdblk agblk p n hxd hag q

section Regions
variable (V : (c : Dev nD) → (b : Ref sig .tc) → Buf (Elt Ideal) ((c : Thread nD τ).loc b))

/-! ## Message region 0 -/

/-- The printed block index maps over the grid: the row block moves with the output's, every other index stays 0. -/
theorem idx0 : ∀ t : Fin cfg0.N, win0_0.index t (0 : Fin 2) = win0_3.index t (0 : Fin 2) ∧ win0_0.index t (1 : Fin 2) = 0
    ∧ win0_1.index t (0 : Fin 2) = 0 ∧ win0_1.index t (1 : Fin 2) = 0 ∧ win0_2.index t (0 : Fin 1) = 0
    ∧ win0_3.index t (1 : Fin 2) = 0 ∧ win0_3.index t (0 : Fin 2) ≤ 24 :=
  (by decide +kernel : ∀ t : Fin grid0.N, _)
/-- Every row block is some point's. -/
theorem onto0 : ∀ q0 : Fin 25, ∃ t : Fin cfg0.N, win0_3.index t = ![q0.val, 0] :=
  (by decide +kernel : ∀ q0 : Fin 25, ∃ t : Fin grid0.N, win0_3.index t = ![q0.val, 0])

/-- What point `t` writes back is block `t` of the messages of the region's entry contents, the gate rows read through the
    kept-rows cut of a 512-row matrix `W` and bias `b`. -/
theorem flushed0 (c : Dev nD) (W : FVec Ideal S512x128 .f32) (b : FVec Ideal S512 .f32)
    (hW : V c main_v3 = Cert.GateJoin.Weff W) (hb : V c main_v7 = Cert.GateJoin.beff b) (t : Fin cfg0.N) :
    (dat0 (F := Ideal) V c).flushed 3 t = ((cfg0.win 3).blk t).view.read (Elt Ideal) (Cert.Spec.msg (V c main_arg0) W b) := by
  show (cfg0.win 3).cut (grid0.coords t) ((dat0 V c).after 3 t) = _
  rw [after0_3]
  unfold out0_3
  rw [View.canon_unit_zero hz2]
  simp only [View.ld_unit_zero (S := S2000x128) hz2, View.ld_unit_zero (S := S384x128) hz2, View.ld_unit_zero (S := S384) hz1]
  obtain ⟨e0, e1, e2, e3, e4, e5, e6⟩ := idx0 t
  have hWb : iblk0 V c 1 t = Cert.GateJoin.Weff W := by
    rw [← hW]; funext y
    show V c main_v3 (((cfg0.win 1).blk t).view.emb y) = V c main_v3 y
    refine congrArg _ ?_; funext a; apply Fin.ext
    match a with
    | ⟨0, _⟩ => show win0_1.index t (0 : Fin 2) * 384 + 1 * (y 0).val = (y 0).val; omega
    | ⟨1, _⟩ => show win0_1.index t (1 : Fin 2) * 128 + 1 * (y 1).val = (y 1).val; omega
  have hbb : iblk0 V c 2 t = Cert.GateJoin.beff b := by
    rw [← hb]; funext y
    show V c main_v7 (((cfg0.win 2).blk t).view.emb y) = V c main_v7 y
    refine congrArg _ ?_; funext a; apply Fin.ext
    match a with
    | ⟨0, _⟩ => show win0_2.index t (0 : Fin 1) * 384 + 1 * (y 0).val = (y 0).val; omega
  rw [hWb, hbb]
  refine funext fun (j : S2000x128.Idx) => ?_
  have hj0 : (j 0).val < 2000 := (j 0).isLt
  have hj1 : (j 1).val < 128 := (j 1).isLt
  have hn : win0_3.index t (0 : Fin 2) * 2000 + (j 0).val < 50000 := by omega
  have hemb : ((cfg0.win 3).blk t).view.emb j = ix2 (⟨win0_3.index t (0 : Fin 2) * 2000 + (j 0).val, hn⟩ : Fin 50000) (j 1) := by
    funext a; apply Fin.ext
    match a with
    | ⟨0, _⟩ => show win0_3.index t (0 : Fin 2) * 2000 + 1 * (j 0).val = win0_3.index t (0 : Fin 2) * 2000 + (j 0).val; omega
    | ⟨1, _⟩ => show win0_3.index t (1 : Fin 2) * 128 + 1 * (j 1).val = (j 1).val; omega
  show k0_pay1 (F := Ideal) (iblk0 V c 0 t) (Cert.GateJoin.Weff W) (Cert.GateJoin.beff b) j
      = Cert.Spec.msg (V c main_arg0) W b (((cfg0.win 3).blk t).view.emb j)
  rw [hemb]
  refine (congrArg (k0_pay1 (F := Ideal) (iblk0 V c 0 t) (Cert.GateJoin.Weff W) (Cert.GateJoin.beff b)) (eq_ix2 j)).trans ?_
  exact Cert.GateJoin.msg_pay0_eq_msgAt (V c main_arg0) W b (iblk0 V c 0 t) (j 0) ⟨win0_3.index t (0 : Fin 2) * 2000 + (j 0).val, hn⟩
    (fun k => by
      show V c main_arg0 (((cfg0.win 0).blk t).view.emb (ix2 (j 0) k)) = V c main_arg0 (ix2 _ k)
      refine congrArg _ ?_; funext a; apply Fin.ext
      match a with
      | ⟨0, _⟩ => show win0_0.index t (0 : Fin 2) * 2000 + 1 * (j 0).val = win0_3.index t (0 : Fin 2) * 2000 + (j 0).val; omega
      | ⟨1, _⟩ => show win0_0.index t (1 : Fin 2) * 128 + 1 * k.val = k.val; omega)
    (j 1)

/-- An index of the output array is in point `t`'s block iff each coordinate is in the block's range on its axis. -/
theorem mem_blk0 (t : Fin cfg0.N) (i : S50000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v8).slice (win0_3.rect t)).set ↔ _
  rw [View.set_slice_whole, Rect.mem_set_unit]
  exact Iff.rfl

/-- The 25 row blocks tile the 50000 rows: row `r` is in block `r / 2000`. -/
theorem cover0 (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ := onto0 ⟨(i 0).val / 2000, by omega⟩
  have q0 : win0_3.index t (0 : Fin 2) = (i 0).val / 2000 := congrFun ht 0
  have q1 : win0_3.index t (1 : Fin 2) = 0 := congrFun ht 1
  refine ⟨t, flush0_3 t, ?_⟩
  rw [mem_blk0]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 128 ≤ (i 1).val ∧ (i 1).val < win0_3.index t (1 : Fin 2) * 128 + 128; omega

/-- The region's output array after the run: the messages of its entry contents. -/
theorem final0 (c : Dev nD) (W : FVec Ideal S512x128 .f32) (b : FVec Ideal S512 .f32)
    (hW : V c main_v3 = Cert.GateJoin.Weff W) (hb : V c main_v7 = Cert.GateJoin.beff b) :
    (dat0 (F := Ideal) V c).arrAt 3 cfg0.N = Cert.Spec.msg (V c main_arg0) W b :=
  (dat0 (F := Ideal) V c).arrAt_eq_of_cover 3 (Cert.Spec.msg (V c main_arg0) W b) (fun t _ => flushed0 V c W b hW hb t) (fun i => cover0 i)

/-! ## Message region 2 -/

/-- The printed block index maps over the grid: the row block moves with the output's, every other index stays 0. -/
theorem idx2 : ∀ t : Fin cfg2.N, win2_0.index t (0 : Fin 2) = win2_3.index t (0 : Fin 2) ∧ win2_0.index t (1 : Fin 2) = 0
    ∧ win2_1.index t (0 : Fin 2) = 0 ∧ win2_1.index t (1 : Fin 2) = 0 ∧ win2_2.index t (0 : Fin 1) = 0
    ∧ win2_3.index t (1 : Fin 2) = 0 ∧ win2_3.index t (0 : Fin 2) ≤ 24 :=
  (by decide +kernel : ∀ t : Fin grid2.N, _)
/-- Every row block is some point's. -/
theorem onto2 : ∀ q0 : Fin 25, ∃ t : Fin cfg2.N, win2_3.index t = ![q0.val, 0] :=
  (by decide +kernel : ∀ q0 : Fin 25, ∃ t : Fin grid2.N, win2_3.index t = ![q0.val, 0])

/-- What point `t` writes back is block `t` of the messages of the region's entry contents, the gate rows read through the
    kept-rows cut of a 512-row matrix `W` and bias `b`. -/
theorem flushed2 (c : Dev nD) (W : FVec Ideal S512x128 .f32) (b : FVec Ideal S512 .f32)
    (hW : V c main_v29 = Cert.GateJoin.Weff W) (hb : V c main_v33 = Cert.GateJoin.beff b) (t : Fin cfg2.N) :
    (dat2 (F := Ideal) V c).flushed 3 t = ((cfg2.win 3).blk t).view.read (Elt Ideal) (Cert.Spec.msg (V c main_arg1) W b) := by
  show (cfg2.win 3).cut (grid2.coords t) ((dat2 V c).after 3 t) = _
  rw [after2_3]
  unfold out2_3
  rw [View.canon_unit_zero hz2]
  simp only [View.ld_unit_zero (S := S2000x128) hz2, View.ld_unit_zero (S := S384x128) hz2, View.ld_unit_zero (S := S384) hz1]
  obtain ⟨e0, e1, e2, e3, e4, e5, e6⟩ := idx2 t
  have hWb : iblk2 V c 1 t = Cert.GateJoin.Weff W := by
    rw [← hW]; funext y
    show V c main_v29 (((cfg2.win 1).blk t).view.emb y) = V c main_v29 y
    refine congrArg _ ?_; funext a; apply Fin.ext
    match a with
    | ⟨0, _⟩ => show win2_1.index t (0 : Fin 2) * 384 + 1 * (y 0).val = (y 0).val; omega
    | ⟨1, _⟩ => show win2_1.index t (1 : Fin 2) * 128 + 1 * (y 1).val = (y 1).val; omega
  have hbb : iblk2 V c 2 t = Cert.GateJoin.beff b := by
    rw [← hb]; funext y
    show V c main_v33 (((cfg2.win 2).blk t).view.emb y) = V c main_v33 y
    refine congrArg _ ?_; funext a; apply Fin.ext
    match a with
    | ⟨0, _⟩ => show win2_2.index t (0 : Fin 1) * 384 + 1 * (y 0).val = (y 0).val; omega
  rw [hWb, hbb]
  refine funext fun (j : S2000x128.Idx) => ?_
  have hj0 : (j 0).val < 2000 := (j 0).isLt
  have hj1 : (j 1).val < 128 := (j 1).isLt
  have hn : win2_3.index t (0 : Fin 2) * 2000 + (j 0).val < 50000 := by omega
  have hemb : ((cfg2.win 3).blk t).view.emb j = ix2 (⟨win2_3.index t (0 : Fin 2) * 2000 + (j 0).val, hn⟩ : Fin 50000) (j 1) := by
    funext a; apply Fin.ext
    match a with
    | ⟨0, _⟩ => show win2_3.index t (0 : Fin 2) * 2000 + 1 * (j 0).val = win2_3.index t (0 : Fin 2) * 2000 + (j 0).val; omega
    | ⟨1, _⟩ => show win2_3.index t (1 : Fin 2) * 128 + 1 * (j 1).val = (j 1).val; omega
  show k2_pay1 (F := Ideal) (iblk2 V c 0 t) (Cert.GateJoin.Weff W) (Cert.GateJoin.beff b) j
      = Cert.Spec.msg (V c main_arg1) W b (((cfg2.win 3).blk t).view.emb j)
  rw [hemb]
  refine (congrArg (k2_pay1 (F := Ideal) (iblk2 V c 0 t) (Cert.GateJoin.Weff W) (Cert.GateJoin.beff b)) (eq_ix2 j)).trans ?_
  exact Cert.GateJoin.msg_pay2_eq_msgAt (V c main_arg1) W b (iblk2 V c 0 t) (j 0) ⟨win2_3.index t (0 : Fin 2) * 2000 + (j 0).val, hn⟩
    (fun k => by
      show V c main_arg1 (((cfg2.win 0).blk t).view.emb (ix2 (j 0) k)) = V c main_arg1 (ix2 _ k)
      refine congrArg _ ?_; funext a; apply Fin.ext
      match a with
      | ⟨0, _⟩ => show win2_0.index t (0 : Fin 2) * 2000 + 1 * (j 0).val = win2_3.index t (0 : Fin 2) * 2000 + (j 0).val; omega
      | ⟨1, _⟩ => show win2_0.index t (1 : Fin 2) * 128 + 1 * k.val = k.val; omega)
    (j 1)

/-- An index of the output array is in point `t`'s block iff each coordinate is in the block's range on its axis. -/
theorem mem_blk2 (t : Fin cfg2.N) (i : S50000x128.Idx) :
    i ∈ ((cfg2.win 3).blk t).view.set ↔ ∀ a : Fin 2, win2_3.index t a * S2000x128.size a ≤ (i a).val ∧ (i a).val < win2_3.index t a * S2000x128.size a + S2000x128.size a := by
  show i ∈ ((View.whole main_v34).slice (win2_3.rect t)).set ↔ _
  rw [View.set_slice_whole, Rect.mem_set_unit]
  exact Iff.rfl

/-- The 25 row blocks tile the 50000 rows: row `r` is in block `r / 2000`. -/
theorem cover2 (i : S50000x128.Idx) : ∃ t : Fin cfg2.N, (cfg2.win 3).flush t = true ∧ i ∈ ((cfg2.win 3).blk t).view.set := by
  have hi0 : (i 0).val < 50000 := (i 0).isLt
  have hi1 : (i 1).val < 128 := (i 1).isLt
  obtain ⟨t, ht⟩ := onto2 ⟨(i 0).val / 2000, by omega⟩
  have q0 : win2_3.index t (0 : Fin 2) = (i 0).val / 2000 := congrFun ht 0
  have q1 : win2_3.index t (1 : Fin 2) = 0 := congrFun ht 1
  refine ⟨t, flush2_3 t, ?_⟩
  rw [mem_blk2]
  intro a
  match a with
  | ⟨0, _⟩ => show win2_3.index t (0 : Fin 2) * 2000 ≤ (i 0).val ∧ (i 0).val < win2_3.index t (0 : Fin 2) * 2000 + 2000; omega
  | ⟨1, _⟩ => show win2_3.index t (1 : Fin 2) * 128 ≤ (i 1).val ∧ (i 1).val < win2_3.index t (1 : Fin 2) * 128 + 128; omega

/-- The region's output array after the run: the messages of its entry contents. -/
theorem final2 (c : Dev nD) (W : FVec Ideal S512x128 .f32) (b : FVec Ideal S512 .f32)
    (hW : V c main_v29 = Cert.GateJoin.Weff W) (hb : V c main_v33 = Cert.GateJoin.beff b) :
    (dat2 (F := Ideal) V c).arrAt 3 cfg2.N = Cert.Spec.msg (V c main_arg1) W b :=
  (dat2 (F := Ideal) V c).arrAt_eq_of_cover 3 (Cert.Spec.msg (V c main_arg1) W b) (fun t _ => flushed2 V c W b hW hb t) (fun i => cover2 i)

/-! ## Update region 1 -/

theorem idx1 : ∀ t : Fin cfg1.N, win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0 ∧ win1_3.index t (0 : Fin 2) = 0 ∧ win1_3.index t (1 : Fin 2) = 0
    ∧ win1_4.index t (0 : Fin 1) = 0 ∧ win1_5.index t (1 : Fin 2) = 0 ∧ win1_5.index t (0 : Fin 2) ≤ 9 :=
  (by decide +kernel : ∀ t : Fin grid1.N, _)
theorem onto1 : ∀ q0 : Fin 10, ∃ t : Fin cfg1.N, win1_5.index t = ![q0.val, 0] :=
  (by decide +kernel : ∀ q0 : Fin 10, ∃ t : Fin grid1.N, win1_5.index t = ![q0.val, 0])

/-- What point `t` writes back is block `t` of the updated features of the region's entry contents, the two 128 × 128
    operands being the two column halves of a 128 × 256 map `Wl`. -/
theorem flushed1 (c : Dev nD) (Wl : FVec Ideal S128x256 .f32)
    (hWx : V c main_v23 = extractStridedSlice S128x128 ![0, 0] Wl slices_S128x256_S128x128_0_0)
    (hWa : V c main_v24 = extractStridedSlice S128x128 ![0, 128] Wl slices_S128x256_S128x128_0_128) (t : Fin cfg1.N) :
    (dat1 (F := Ideal) V c).flushed 5 t = ((cfg1.win 5).blk t).view.read (Elt Ideal) (Cert.Spec.upd (V c main_arg1) (V c main_v22) Wl (V c main_arg7)) := by
  show (cfg1.win 5).cut (grid1.coords t) ((dat1 V c).after 5 t) = _
  rw [after1_5]
  unfold out1_5
  rw [View.canon_unit_zero hz2]
  simp only [View.ld_unit_zero (S := S5000x128) hz2, View.ld_unit_zero (S := S128x128) hz2, View.ld_unit_zero (S := S128) hz1]
  obtain ⟨e0, e1, e2, e3, e4, e5, e6, e7, e8, e9, e10⟩ := idx1 t
  have hWxb : iblk1 V c 2 t = extractStridedSlice S128x128 ![0, 0] Wl slices_S128x256_S128x128_0_0 := by
    rw [← hWx]; funext y
    show V c main_v23 (((cfg1.win 2).blk t).view.emb y) = V c main_v23 y
    refine congrArg _ ?_; funext a; apply Fin.ext
    match a with
    | ⟨0, _⟩ => show win1_2.index t (0 : Fin 2) * 128 + 1 * (y 0).val = (y 0).val; omega
    | ⟨1, _⟩ => show win1_2.index t (1 : Fin 2) * 128 + 1 * (y 1).val = (y 1).val; omega
  have hWab : iblk1 V c 3 t = extractStridedSlice S128x128 ![0, 128] Wl slices_S128x256_S128x128_0_128 := by
    rw [← hWa]; funext y
    show V c main_v24 (((cfg1.win 3).blk t).view.emb y) = V c main_v24 y
    refine congrArg _ ?_; funext a; apply Fin.ext
    match a with
    | ⟨0, _⟩ => show win1_3.index t (0 : Fin 2) * 128 + 1 * (y 0).val = (y 0).val; omega
    | ⟨1, _⟩ => show win1_3.index t (1 : Fin 2) * 128 + 1 * (y 1).val = (y 1).val; omega
  have hblb : iblk1 V c 4 t = V c main_arg7 := by
    funext y
    show V c main_arg7 (((cfg1.win 4).blk t).view.emb y) = V c main_arg7 y
    refine congrArg _ ?_; funext a; apply Fin.ext
    match a with
    | ⟨0, _⟩ => show win1_4.index t (0 : Fin 1) * 128 + 1 * (y 0).val = (y 0).val; omega
  rw [hWxb, hWab, hblb]
  refine funext fun (j : S5000x128.Idx) => ?_
  have hj0 : (j 0).val < 5000 := (j 0).isLt
  have hj1 : (j 1).val < 128 := (j 1).isLt
  have hn : win1_5.index t (0 : Fin 2) * 5000 + (j 0).val < 50000 := by omega
  have hemb : ((cfg1.win 5).blk t).view.emb j = ix2 (⟨win1_5.index t (0 : Fin 2) * 5000 + (j 0).val, hn⟩ : Fin 50000) (j 1) := by
    funext a; apply Fin.ext
    match a with
    | ⟨0, _⟩ => show win1_5.index t (0 : Fin 2) * 5000 + 1 * (j 0).val = win1_5.index t (0 : Fin 2) * 5000 + (j 0).val; omega
    | ⟨1, _⟩ => show win1_5.index t (1 : Fin 2) * 128 + 1 * (j 1).val = (j 1).val; omega
  show k1_pay1 (F := Ideal) (iblk1 V c 0 t) (iblk1 V c 1 t) (extractStridedSlice S128x128 ![0, 0] Wl slices_S128x256_S128x128_0_0)
        (extractStridedSlice S128x128 ![0, 128] Wl slices_S128x256_S128x128_0_128) (V c main_arg7) j
      = Cert.Spec.upd (V c main_arg1) (V c main_v22) Wl (V c main_arg7) (((cfg1.win 5).blk t).view.emb j)
  rw [hemb]
  exact upd_at1 (V c main_arg1) (V c main_v22) Wl (V c main_arg7) (iblk1 V c 0 t) (iblk1 V c 1 t) j
    ⟨win1_5.index t (0 : Fin 2) * 5000 + (j 0).val, hn⟩
    (fun k => by
      show V c main_arg1 (((cfg1.win 0).blk t).view.emb (ix2 (j 0) k)) = V c main_arg1 (ix2 _ k)
      refine congrArg _ ?_; funext a; apply Fin.ext
      match a with
      | ⟨0, _⟩ => show win1_0.index t (0 : Fin 2) * 5000 + 1 * (j 0).val = win1_5.index t (0 : Fin 2) * 5000 + (j 0).val; omega
      | ⟨1, _⟩ => show win1_0.index t (1 : Fin 2) * 128 + 1 * k.val = k.val; omega)
    (fun k => by
      show V c main_v22 (((cfg1.win 1).blk t).view.emb (ix2 (j 0) k)) = V c main_v22 (ix2 _ k)
      refine congrArg _ ?_; funext a; apply Fin.ext
      match a with
      | ⟨0, _⟩ => show win1_1.index t (0 : Fin 2) * 5000 + 1 * (j 0).val = win1_5.index t (0 : Fin 2) * 5000 + (j 0).val; omega
      | ⟨1, _⟩ => show win1_1.index t (1 : Fin 2) * 128 + 1 * k.val = k.val; omega)

theorem mem_blk1 (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v25).slice (win1_5.rect t)).set ↔ _
  rw [View.set_slice_whole, Rect.mem_set_unit]
  exact Iff.rfl

/-- The 10 row blocks tile the 50000 rows: row `r` is in block `r / 5000`. -/
theorem cover1 (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ := onto1 ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- The region's output array after the run: the updated features of its entry contents. -/
theorem final1 (c : Dev nD) (Wl : FVec Ideal S128x256 .f32)
    (hWx : V c main_v23 = extractStridedSlice S128x128 ![0, 0] Wl slices_S128x256_S128x128_0_0)
    (hWa : V c main_v24 = extractStridedSlice S128x128 ![0, 128] Wl slices_S128x256_S128x128_0_128) :
    (dat1 (F := Ideal) V c).arrAt 5 cfg1.N = Cert.Spec.upd (V c main_arg1) (V c main_v22) Wl (V c main_arg7) :=
  (dat1 (F := Ideal) V c).arrAt_eq_of_cover 5 (Cert.Spec.upd (V c main_arg1) (V c main_v22) Wl (V c main_arg7)) (fun t _ => flushed1 V c Wl hWx hWa t) (fun i => cover1 i)

/-! ## Update region 3 -/

theorem idx3 : ∀ t : Fin cfg3.N, win3_0.index t (0 : Fin 2) = win3_5.index t (0 : Fin 2) ∧ win3_0.index t (1 : Fin 2) = 0
    ∧ win3_1.index t (0 : Fin 2) = win3_5.index t (0 : Fin 2) ∧ win3_1.index t (1 : Fin 2) = 0
    ∧ win3_2.index t (0 : Fin 2) = 0 ∧ win3_2.index t (1 : Fin 2) = 0 ∧ win3_3.index t (0 : Fin 2) = 0 ∧ win3_3.index t (1 : Fin 2) = 0
    ∧ win3_4.index t (0 : Fin 1) = 0 ∧ win3_5.index t (1 : Fin 2) = 0 ∧ win3_5.index t (0 : Fin 2) ≤ 9 :=
  (by decide +kernel : ∀ t : Fin grid3.N, _)
theorem onto3 : ∀ q0 : Fin 10, ∃ t : Fin cfg3.N, win3_5.index t = ![q0.val, 0] :=
  (by decide +kernel : ∀ q0 : Fin 10, ∃ t : Fin grid3.N, win3_5.index t = ![q0.val, 0])

/-- What point `t` writes back is block `t` of the updated features of the region's entry contents, the two 128 × 128
    operands being the two column halves of a 128 × 256 map `Wl`. -/
theorem flushed3 (c : Dev nD) (Wl : FVec Ideal S128x256 .f32)
    (hWx : V c main_v49 = extractStridedSlice S128x128 ![0, 0] Wl slices_S128x256_S128x128_0_0)
    (hWa : V c main_v50 = extractStridedSlice S128x128 ![0, 128] Wl slices_S128x256_S128x128_0_128) (t : Fin cfg3.N) :
    (dat3 (F := Ideal) V c).flushed 5 t = ((cfg3.win 5).blk t).view.read (Elt Ideal) (Cert.Spec.upd (V c main_arg0) (V c main_v48) Wl (V c main_arg11)) := by
  show (cfg3.win 5).cut (grid3.coords t) ((dat3 V c).after 5 t) = _
  rw [after3_5]
  unfold out3_5
  rw [View.canon_unit_zero hz2]
  simp only [View.ld_unit_zero (S := S5000x128) hz2, View.ld_unit_zero (S := S128x128) hz2, View.ld_unit_zero (S := S128) hz1]
  obtain ⟨e0, e1, e2, e3, e4, e5, e6, e7, e8, e9, e10⟩ := idx3 t
  have hWxb : iblk3 V c 2 t = extractStridedSlice S128x128 ![0, 0] Wl slices_S128x256_S128x128_0_0 := by
    rw [← hWx]; funext y
    show V c main_v49 (((cfg3.win 2).blk t).view.emb y) = V c main_v49 y
    refine congrArg _ ?_; funext a; apply Fin.ext
    match a with
    | ⟨0, _⟩ => show win3_2.index t (0 : Fin 2) * 128 + 1 * (y 0).val = (y 0).val; omega
    | ⟨1, _⟩ => show win3_2.index t (1 : Fin 2) * 128 + 1 * (y 1).val = (y 1).val; omega
  have hWab : iblk3 V c 3 t = extractStridedSlice S128x128 ![0, 128] Wl slices_S128x256_S128x128_0_128 := by
    rw [← hWa]; funext y
    show V c main_v50 (((cfg3.win 3).blk t).view.emb y) = V c main_v50 y
    refine congrArg _ ?_; funext a; apply Fin.ext
    match a with
    | ⟨0, _⟩ => show win3_3.index t (0 : Fin 2) * 128 + 1 * (y 0).val = (y 0).val; omega
    | ⟨1, _⟩ => show win3_3.index t (1 : Fin 2) * 128 + 1 * (y 1).val = (y 1).val; omega
  have hblb : iblk3 V c 4 t = V c main_arg11 := by
    funext y
    show V c main_arg11 (((cfg3.win 4).blk t).view.emb y) = V c main_arg11 y
    refine congrArg _ ?_; funext a; apply Fin.ext
    match a with
    | ⟨0, _⟩ => show win3_4.index t (0 : Fin 1) * 128 + 1 * (y 0).val = (y 0).val; omega
  rw [hWxb, hWab, hblb]
  refine funext fun (j : S5000x128.Idx) => ?_
  have hj0 : (j 0).val < 5000 := (j 0).isLt
  have hj1 : (j 1).val < 128 := (j 1).isLt
  have hn : win3_5.index t (0 : Fin 2) * 5000 + (j 0).val < 50000 := by omega
  have hemb : ((cfg3.win 5).blk t).view.emb j = ix2 (⟨win3_5.index t (0 : Fin 2) * 5000 + (j 0).val, hn⟩ : Fin 50000) (j 1) := by
    funext a; apply Fin.ext
    match a with
    | ⟨0, _⟩ => show win3_5.index t (0 : Fin 2) * 5000 + 1 * (j 0).val = win3_5.index t (0 : Fin 2) * 5000 + (j 0).val; omega
    | ⟨1, _⟩ => show win3_5.index t (1 : Fin 2) * 128 + 1 * (j 1).val = (j 1).val; omega
  show k3_pay1 (F := Ideal) (iblk3 V c 0 t) (iblk3 V c 1 t) (extractStridedSlice S128x128 ![0, 0] Wl slices_S128x256_S128x128_0_0)
        (extractStridedSlice S128x128 ![0, 128] Wl slices_S128x256_S128x128_0_128) (V c main_arg11) j
      = Cert.Spec.upd (V c main_arg0) (V c main_v48) Wl (V c main_arg11) (((cfg3.win 5).blk t).view.emb j)
  rw [hemb]
  exact upd_at3 (V c main_arg0) (V c main_v48) Wl (V c main_arg11) (iblk3 V c 0 t) (iblk3 V c 1 t) j
    ⟨win3_5.index t (0 : Fin 2) * 5000 + (j 0).val, hn⟩
    (fun k => by
      show V c main_arg0 (((cfg3.win 0).blk t).view.emb (ix2 (j 0) k)) = V c main_arg0 (ix2 _ k)
      refine congrArg _ ?_; funext a; apply Fin.ext
      match a with
      | ⟨0, _⟩ => show win3_0.index t (0 : Fin 2) * 5000 + 1 * (j 0).val = win3_5.index t (0 : Fin 2) * 5000 + (j 0).val; omega
      | ⟨1, _⟩ => show win3_0.index t (1 : Fin 2) * 128 + 1 * k.val = k.val; omega)
    (fun k => by
      show V c main_v48 (((cfg3.win 1).blk t).view.emb (ix2 (j 0) k)) = V c main_v48 (ix2 _ k)
      refine congrArg _ ?_; funext a; apply Fin.ext
      match a with
      | ⟨0, _⟩ => show win3_1.index t (0 : Fin 2) * 5000 + 1 * (j 0).val = win3_5.index t (0 : Fin 2) * 5000 + (j 0).val; omega
      | ⟨1, _⟩ => show win3_1.index t (1 : Fin 2) * 128 + 1 * k.val = k.val; omega)

theorem mem_blk3 (t : Fin cfg3.N) (i : S50000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v51).slice (win3_5.rect t)).set ↔ _
  rw [View.set_slice_whole, Rect.mem_set_unit]
  exact Iff.rfl

/-- The 10 row blocks tile the 50000 rows: row `r` is in block `r / 5000`. -/
theorem cover3 (i : S50000x128.Idx) : ∃ t : Fin cfg3.N, (cfg3.win 5).flush t = true ∧ i ∈ ((cfg3.win 5).blk t).view.set := by
  have hi0 : (i 0).val < 50000 := (i 0).isLt
  have hi1 : (i 1).val < 128 := (i 1).isLt
  obtain ⟨t, ht⟩ := onto3 ⟨(i 0).val / 5000, by omega⟩
  have q0 : win3_5.index t (0 : Fin 2) = (i 0).val / 5000 := congrFun ht 0
  have q1 : win3_5.index t (1 : Fin 2) = 0 := congrFun ht 1
  refine ⟨t, flush3_5 t, ?_⟩
  rw [mem_blk3]
  intro a
  match a with
  | ⟨0, _⟩ => show win3_5.index t (0 : Fin 2) * 5000 ≤ (i 0).val ∧ (i 0).val < win3_5.index t (0 : Fin 2) * 5000 + 5000; omega
  | ⟨1, _⟩ => show win3_5.index t (1 : Fin 2) * 128 ≤ (i 1).val ∧ (i 1).val < win3_5.index t (1 : Fin 2) * 128 + 128; omega

/-- The region's output array after the run: the updated features of its entry contents. -/
theorem final3 (c : Dev nD) (Wl : FVec Ideal S128x256 .f32)
    (hWx : V c main_v49 = extractStridedSlice S128x128 ![0, 0] Wl slices_S128x256_S128x128_0_0)
    (hWa : V c main_v50 = extractStridedSlice S128x128 ![0, 128] Wl slices_S128x256_S128x128_0_128) :
    (dat3 (F := Ideal) V c).arrAt 5 cfg3.N = Cert.Spec.upd (V c main_arg0) (V c main_v48) Wl (V c main_arg11) :=
  (dat3 (F := Ideal) V c).arrAt_eq_of_cover 5 (Cert.Spec.upd (V c main_arg0) (V c main_v48) Wl (V c main_arg11)) (fun t _ => flushed3 V c Wl hWx hWa t) (fun i => cover3 i)

end Regions

/-! # The host stretches, read -/

/-- Messages aggregated along an edge list, as the program spells it: the list's first row gives each edge's source node
    (a negative number counted from the end), its second row the target; the sources' message rows are gathered and added
    up per target into a zero array. -/
def aggK (msg : FVec Ideal Cert.Spec.SN .f32) (e : IVec S2x800000 32) : FVec Ideal Cert.Spec.SN .f32 :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0
      (shapeCast S800000 (extractStridedSlice S1x800000 ![1, 0] e slices_S2x800000_S1x800000_1_0) shapeCasts_S1x800000_S800000))
    (Host.gather gather_S50000x128_S800000x1_S800000x128_1_0_n_n_0_1_1128 msg
      (broadcastInDim S800000x1 ![0] bcast_S800000_S800000x1_0
        (select
          (cmpi .slt (shapeCast S800000 (extractStridedSlice S1x800000 ![0, 0] e slices_S2x800000_S1x800000_0_0) shapeCasts_S1x800000_S800000)
            (broadcastInDim S800000 ![] bcast_S_S800000 (constantI S_ 32 0#32)))
          (addi (shapeCast S800000 (extractStridedSlice S1x800000 ![0, 0] e slices_S2x800000_S1x800000_0_0) shapeCasts_S1x800000_S800000)
            (broadcastInDim S800000 ![] bcast_S_S800000 (constantI S_ 32 50000#32)))
          (shapeCast S800000 (extractStridedSlice S1x800000 ![0, 0] e slices_S2x800000_S1x800000_0_0) shapeCasts_S1x800000_S800000))))

/-- The two relations' results stacked on a new leading axis, as the program spells it. -/
def stkK (a b : FVec Ideal Cert.Spec.SN .f32) : FVec Ideal S2x50000x128 .f32 :=
  concatenate S2x50000x128 0
    [⟨S1x50000x128, (broadcastInDim S1x50000x128 ![1, 2] bcast_S50000x128_S1x50000x128_1_2 a)⟩,
     ⟨S1x50000x128, (broadcastInDim S1x50000x128 ![1, 2] bcast_S50000x128_S1x50000x128_1_2 b)⟩]
    concatenates_S1x50000x128_S1x50000x128_S2x50000x128_d0

variable (m : (ℓ : Loc nD τ sig) → Buf (Elt Ideal) ℓ) (ρ : Dev nD → PrngReg)

/-! ## A buffer nothing has written yet is at its launch contents -/

theorem B1_launch (c : Dev nD) (r : Ref sig .tc) (h0 : r ∉ hostOps0_W) : B1 m ρ c (Proc.devRef .tc r) = m ((c : Thread nD τ).loc r) :=
  (StableHlo.after_of_writes_sub hostOps0 _ hostOps0_writes h0).trans rfl
theorem B2_launch (c : Dev nD) (r : Ref sig .tc) (h0 : r ∉ hostOps0_W) (k0 : r ≠ main_v8) : B2 m ρ c (Proc.devRef .tc r) = m ((c : Thread nD τ).loc r) :=
  (B2_keep m ρ c r k0).trans (B1_launch m ρ c r h0)
theorem B3_launch (c : Dev nD) (r : Ref sig .tc) (h0 : r ∉ hostOps0_W) (k0 : r ≠ main_v8) (h1 : r ∉ hostOps1_W) : B3 m ρ c (Proc.devRef .tc r) = m ((c : Thread nD τ).loc r) :=
  (StableHlo.after_of_writes_sub hostOps1 _ hostOps1_writes h1).trans (B2_launch m ρ c r h0 k0)
theorem B4_launch (c : Dev nD) (r : Ref sig .tc) (h0 : r ∉ hostOps0_W) (k0 : r ≠ main_v8) (h1 : r ∉ hostOps1_W) (k1 : r ≠ main_v25) : B4 m ρ c (Proc.devRef .tc r) = m ((c : Thread nD τ).loc r) :=
  (B4_keep m ρ c r k1).trans (B3_launch m ρ c r h0 k0 h1)
theorem B5_launch (c : Dev nD) (r : Ref sig .tc) (h0 : r ∉ hostOps0_W) (k0 : r ≠ main_v8) (h1 : r ∉ hostOps1_W) (k1 : r ≠ main_v25) (h2 : r ∉ hostOps2_W) : B5 m ρ c (Proc.devRef .tc r) = m ((c : Thread nD τ).loc r) :=
  (StableHlo.after_of_writes_sub hostOps2 _ hostOps2_writes h2).trans (B4_launch m ρ c r h0 k0 h1 k1)
theorem B6_launch (c : Dev nD) (r : Ref sig .tc) (h0 : r ∉ hostOps0_W) (k0 : r ≠ main_v8) (h1 : r ∉ hostOps1_W) (k1 : r ≠ main_v25) (h2 : r ∉ hostOps2_W) (k2 : r ≠ main_v34) : B6 m ρ c (Proc.devRef .tc r) = m ((c : Thread nD τ).loc r) :=
  (B6_keep m ρ c r k2).trans (B5_launch m ρ c r h0 k0 h1 k1 h2)
theorem B7_launch (c : Dev nD) (r : Ref sig .tc) (h0 : r ∉ hostOps0_W) (k0 : r ≠ main_v8) (h1 : r ∉ hostOps1_W) (k1 : r ≠ main_v25) (h2 : r ∉ hostOps2_W) (k2 : r ≠ main_v34) (h3 : r ∉ hostOps3_W) : B7 m ρ c (Proc.devRef .tc r) = m ((c : Thread nD τ).loc r) :=
  (StableHlo.after_of_writes_sub hostOps3 _ hostOps3_writes h3).trans (B6_launch m ρ c r h0 k0 h1 k1 h2 k2)

/-! ## What each host stretch leaves in the buffers the next region (or the end) reads -/

/-- Stretch 0 cuts relation a→b's gate matrix and bias down to the kept rows. -/
theorem B1_v3 (c : Dev nD) : B1 m ρ c (Proc.devRef .tc main_v3) = Cert.GateJoin.Weff (m ((c : Thread nD τ).loc main_arg4)) := by
  show StableHlo.after hostOps0 (B0 m ρ c) (Proc.devRef .tc main_v3) = _
  dsimp only [hostOps0]
  after_results
  rfl
theorem B1_v7 (c : Dev nD) : B1 m ρ c (Proc.devRef .tc main_v7) = Cert.GateJoin.beff (m ((c : Thread nD τ).loc main_arg5)) := by
  show StableHlo.after hostOps0 (B0 m ρ c) (Proc.devRef .tc main_v7) = _
  dsimp only [hostOps0]
  after_results
  rfl
/-- Stretch 1 aggregates region 0's messages along relation a→b's edges and cuts that relation's linear map in two. -/
theorem B3_v22 (c : Dev nD) : B3 m ρ c (Proc.devRef .tc main_v22) = aggK (B2 m ρ c (Proc.devRef .tc main_v8)) (B2 m ρ c (Proc.devRef .tc main_arg2)) := by
  show StableHlo.after hostOps1 (B2 m ρ c) (Proc.devRef .tc main_v22) = _
  dsimp only [hostOps1]
  after_results
  rfl
theorem B3_v23 (c : Dev nD) : B3 m ρ c (Proc.devRef .tc main_v23) = extractStridedSlice S128x128 ![0, 0] (B2 m ρ c (Proc.devRef .tc main_arg6)) slices_S128x256_S128x128_0_0 := by
  show StableHlo.after hostOps1 (B2 m ρ c) (Proc.devRef .tc main_v23) = _
  dsimp only [hostOps1]
  after_results
theorem B3_v24 (c : Dev nD) : B3 m ρ c (Proc.devRef .tc main_v24) = extractStridedSlice S128x128 ![0, 128] (B2 m ρ c (Proc.devRef .tc main_arg6)) slices_S128x256_S128x128_0_128 := by
  show StableHlo.after hostOps1 (B2 m ρ c) (Proc.devRef .tc main_v24) = _
  dsimp only [hostOps1]
  after_results
/-- Stretch 2 cuts relation b→a's gate matrix and bias down to the kept rows. -/
theorem B5_v29 (c : Dev nD) : B5 m ρ c (Proc.devRef .tc main_v29) = Cert.GateJoin.Weff (B4 m ρ c (Proc.devRef .tc main_arg8)) := by
  show StableHlo.after hostOps2 (B4 m ρ c) (Proc.devRef .tc main_v29) = _
  dsimp only [hostOps2]
  after_results
  rfl
theorem B5_v33 (c : Dev nD) : B5 m ρ c (Proc.devRef .tc main_v33) = Cert.GateJoin.beff (B4 m ρ c (Proc.devRef .tc main_arg9)) := by
  show StableHlo.after hostOps2 (B4 m ρ c) (Proc.devRef .tc main_v33) = _
  dsimp only [hostOps2]
  after_results
  rfl
/-- Stretch 3 aggregates region 2's messages along relation b→a's edges and cuts that relation's linear map in two. -/
theorem B7_v48 (c : Dev nD) : B7 m ρ c (Proc.devRef .tc main_v48) = aggK (B6 m ρ c (Proc.devRef .tc main_v34)) (B6 m ρ c (Proc.devRef .tc main_arg3)) := by
  show StableHlo.after hostOps3 (B6 m ρ c) (Proc.devRef .tc main_v48) = _
  dsimp only [hostOps3]
  after_results
  rfl
theorem B7_v49 (c : Dev nD) : B7 m ρ c (Proc.devRef .tc main_v49) = extractStridedSlice S128x128 ![0, 0] (B6 m ρ c (Proc.devRef .tc main_arg10)) slices_S128x256_S128x128_0_0 := by
  show StableHlo.after hostOps3 (B6 m ρ c) (Proc.devRef .tc main_v49) = _
  dsimp only [hostOps3]
  after_results
theorem B7_v50 (c : Dev nD) : B7 m ρ c (Proc.devRef .tc main_v50) = extractStridedSlice S128x128 ![0, 128] (B6 m ρ c (Proc.devRef .tc main_arg10)) slices_S128x256_S128x128_0_128 := by
  show StableHlo.after hostOps3 (B6 m ρ c) (Proc.devRef .tc main_v50) = _
  dsimp only [hostOps3]
  after_results
/-- Stretch 4 stacks region 3's result over region 1's. -/
theorem B9_v54 (c : Dev nD) : B9 m ρ c (Proc.devRef .tc main_v54) = stkK (B8 m ρ c (Proc.devRef .tc main_v51)) (B8 m ρ c (Proc.devRef .tc main_v25)) := by
  show StableHlo.after hostOps4 (B8 m ρ c) (Proc.devRef .tc main_v54) = _
  dsimp only [hostOps4]
  after_results
  rfl

/-! # The result -/

/-- Region 0's output: relation a→b's messages of the a-nodes. -/
theorem v8_eq (c : Dev nD) : B2 m ρ c (Proc.devRef .tc main_v8) = Cert.Spec.msg (m ((c : Thread nD τ).loc main_arg0)) (m ((c : Thread nD τ).loc main_arg4)) (m ((c : Thread nD τ).loc main_arg5)) :=
  (B2_arr m ρ c 3).trans ((final0 (Bv1 m ρ) c (m ((c : Thread nD τ).loc main_arg4)) (m ((c : Thread nD τ).loc main_arg5)) (B1_v3 m ρ c) (B1_v7 m ρ c)).trans
    (congrArg (fun x => Cert.Spec.msg x (m ((c : Thread nD τ).loc main_arg4)) (m ((c : Thread nD τ).loc main_arg5))) (B1_launch m ρ c main_arg0 (by decide))))

/-- Relation a→b's messages aggregated per b-node. -/
theorem v22_eq (c : Dev nD) : B3 m ρ c (Proc.devRef .tc main_v22) = aggK (Cert.Spec.msg (m ((c : Thread nD τ).loc main_arg0)) (m ((c : Thread nD τ).loc main_arg4)) (m ((c : Thread nD τ).loc main_arg5))) (m ((c : Thread nD τ).loc main_arg2)) := by
  rw [B3_v22, v8_eq, B2_launch m ρ c main_arg2 (by decide) (by decide)]

/-- Region 1's output: the b-nodes updated. -/
theorem v25_eq (c : Dev nD) : B4 m ρ c (Proc.devRef .tc main_v25)
    = Cert.Spec.upd (m ((c : Thread nD τ).loc main_arg1)) (aggK (Cert.Spec.msg (m ((c : Thread nD τ).loc main_arg0)) (m ((c : Thread nD τ).loc main_arg4)) (m ((c : Thread nD τ).loc main_arg5))) (m ((c : Thread nD τ).loc main_arg2))) (m ((c : Thread nD τ).loc main_arg6)) (m ((c : Thread nD τ).loc main_arg7)) := by
  have hWx : Bv3 m ρ c main_v23 = extractStridedSlice S128x128 ![0, 0] (m ((c : Thread nD τ).loc main_arg6)) slices_S128x256_S128x128_0_0 := by
    show B3 m ρ c (Proc.devRef .tc main_v23) = _
    rw [B3_v23, B2_launch m ρ c main_arg6 (by decide) (by decide)]
  have hWa : Bv3 m ρ c main_v24 = extractStridedSlice S128x128 ![0, 128] (m ((c : Thread nD τ).loc main_arg6)) slices_S128x256_S128x128_0_128 := by
    show B3 m ρ c (Proc.devRef .tc main_v24) = _
    rw [B3_v24, B2_launch m ρ c main_arg6 (by decide) (by decide)]
  have e1 : Bv3 m ρ c main_arg1 = (m ((c : Thread nD τ).loc main_arg1)) := B3_launch m ρ c main_arg1 (by decide) (by decide) (by decide)
  have e7 : Bv3 m ρ c main_arg7 = (m ((c : Thread nD τ).loc main_arg7)) := B3_launch m ρ c main_arg7 (by decide) (by decide) (by decide)
  have e22 : Bv3 m ρ c main_v22 = aggK (Cert.Spec.msg (m ((c : Thread nD τ).loc main_arg0)) (m ((c : Thread nD τ).loc main_arg4)) (m ((c : Thread nD τ).loc main_arg5))) (m ((c : Thread nD τ).loc main_arg2)) := v22_eq m ρ c
  refine (B4_arr m ρ c 5).trans ((final1 (Bv3 m ρ) c (m ((c : Thread nD τ).loc main_arg6)) hWx hWa).trans ?_)
  rw [e1, e7, e22]

/-- Region 2's output: relation b→a's messages of the b-nodes. -/
theorem v34_eq (c : Dev nD) : B6 m ρ c (Proc.devRef .tc main_v34) = Cert.Spec.msg (m ((c : Thread nD τ).loc main_arg1)) (m ((c : Thread nD τ).loc main_arg8)) (m ((c : Thread nD τ).loc main_arg9)) := by
  have hW : Bv5 m ρ c main_v29 = Cert.GateJoin.Weff (m ((c : Thread nD τ).loc main_arg8)) := by
    show B5 m ρ c (Proc.devRef .tc main_v29) = _
    rw [B5_v29, B4_launch m ρ c main_arg8 (by decide) (by decide) (by decide) (by decide)]
  have hb : Bv5 m ρ c main_v33 = Cert.GateJoin.beff (m ((c : Thread nD τ).loc main_arg9)) := by
    show B5 m ρ c (Proc.devRef .tc main_v33) = _
    rw [B5_v33, B4_launch m ρ c main_arg9 (by decide) (by decide) (by decide) (by decide)]
  have e1 : Bv5 m ρ c main_arg1 = (m ((c : Thread nD τ).loc main_arg1)) := B5_launch m ρ c main_arg1 (by decide) (by decide) (by decide) (by decide) (by decide)
  refine (B6_arr m ρ c 3).trans ((final2 (Bv5 m ρ) c (m ((c : Thread nD τ).loc main_arg8)) (m ((c : Thread nD τ).loc main_arg9)) hW hb).trans ?_)
  rw [e1]

/-- Relation b→a's messages aggregated per a-node. -/
theorem v48_eq (c : Dev nD) : B7 m ρ c (Proc.devRef .tc main_v48) = aggK (Cert.Spec.msg (m ((c : Thread nD τ).loc main_arg1)) (m ((c : Thread nD τ).loc main_arg8)) (m ((c : Thread nD τ).loc main_arg9))) (m ((c : Thread nD τ).loc main_arg3)) := by
  rw [B7_v48, v34_eq, B6_launch m ρ c main_arg3 (by decide) (by decide) (by decide) (by decide) (by decide) (by decide)]

/-- Region 3's output: the a-nodes updated. -/
theorem v51_eq (c : Dev nD) : B8 m ρ c (Proc.devRef .tc main_v51)
    = Cert.Spec.upd (m ((c : Thread nD τ).loc main_arg0)) (aggK (Cert.Spec.msg (m ((c : Thread nD τ).loc main_arg1)) (m ((c : Thread nD τ).loc main_arg8)) (m ((c : Thread nD τ).loc main_arg9))) (m ((c : Thread nD τ).loc main_arg3))) (m ((c : Thread nD τ).loc main_arg10)) (m ((c : Thread nD τ).loc main_arg11)) := by
  have hWx : Bv7 m ρ c main_v49 = extractStridedSlice S128x128 ![0, 0] (m ((c : Thread nD τ).loc main_arg10)) slices_S128x256_S128x128_0_0 := by
    show B7 m ρ c (Proc.devRef .tc main_v49) = _
    rw [B7_v49, B6_launch m ρ c main_arg10 (by decide) (by decide) (by decide) (by decide) (by decide) (by decide)]
  have hWa : Bv7 m ρ c main_v50 = extractStridedSlice S128x128 ![0, 128] (m ((c : Thread nD τ).loc main_arg10)) slices_S128x256_S128x128_0_128 := by
    show B7 m ρ c (Proc.devRef .tc main_v50) = _
    rw [B7_v50, B6_launch m ρ c main_arg10 (by decide) (by decide) (by decide) (by decide) (by decide) (by decide)]
  have e0 : Bv7 m ρ c main_arg0 = (m ((c : Thread nD τ).loc main_arg0)) := B7_launch m ρ c main_arg0 (by decide) (by decide) (by decide) (by decide) (by decide) (by decide) (by decide)
  have e11 : Bv7 m ρ c main_arg11 = (m ((c : Thread nD τ).loc main_arg11)) := B7_launch m ρ c main_arg11 (by decide) (by decide) (by decide) (by decide) (by decide) (by decide) (by decide)
  have e48 : Bv7 m ρ c main_v48 = aggK (Cert.Spec.msg (m ((c : Thread nD τ).loc main_arg1)) (m ((c : Thread nD τ).loc main_arg8)) (m ((c : Thread nD τ).loc main_arg9))) (m ((c : Thread nD τ).loc main_arg3)) := v48_eq m ρ c
  refine (B8_arr m ρ c 5).trans ((final3 (Bv7 m ρ) c (m ((c : Thread nD τ).loc main_arg10)) hWx hWa).trans ?_)
  rw [e0, e11, e48]

/-- Region 1's output is still in place when the last stretch reads it: neither later stretch writes it and neither later
    region's output is that array. -/
theorem v25_at_end (c : Dev nD) : B8 m ρ c (Proc.devRef .tc main_v25) = B4 m ρ c (Proc.devRef .tc main_v25) :=
  calc B8 m ρ c (Proc.devRef .tc main_v25)
    _ = B7 m ρ c (Proc.devRef .tc main_v25) := B8_keep m ρ c main_v25 (by decide)
    _ = B6 m ρ c (Proc.devRef .tc main_v25) := StableHlo.after_of_writes_sub hostOps3 _ hostOps3_writes (by decide)
    _ = B5 m ρ c (Proc.devRef .tc main_v25) := B6_keep m ρ c main_v25 (by decide)
    _ = B4 m ρ c (Proc.devRef .tc main_v25) := StableHlo.after_of_writes_sub hostOps2 _ hostOps2_writes (by decide)

/-- THE RESULT: the result buffer ends at the specification's function of the twelve arguments. -/
theorem result (c : Dev nD) : B9 m ρ c (Proc.devRef .tc main_v54)
    = Cert.Spec.out aggK stkK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  rw [B9_v54, v51_eq, v25_at_end, v25_eq]
  rfl

end Cert.KernelIdeal.WholeValue

end
-- ==== Proof.RefLemmas.lean ====
/-
  The reference program's term, written out, is the specification.

  Per relation the reference computes the gate pre-activations of every source node (one contraction of the node
  features against the transposed 512-row gate matrix, plus the bias broadcast down the rows), slices out the input,
  cell and output gate columns, and forms the message `σ(o) · tanh (σ(i) · tanh g)` with `σ x = 1 / (1 + e⁻ˣ)` spelt as
  negate, exponential, add one, divide; it aggregates the messages along the edges; joins the target nodes' own rows
  with the aggregated rows into rows of 256 channels, contracts them against the transposed 128 × 256 linear map, adds
  the bias and clamps below at zero; and stacks the two relations' results.

  Read at one element, each of these is the specification's formula: a slice, transpose or broadcast reads its operand
  at the matching element, and the contraction over the 256 joined channels splits, by associativity of the sum alone,
  into the 128 own channels against the map's first half plus the 128 aggregated channels against its second half.
  The aggregation along the edges and the final stacking are not opened: they are named (`agg`, `stk`) by the reference's
  own operations and enter the specification as parameters.
-/
import proofs.«165492_j790273982767_2_alg».proof.Proof.Gen.ReferenceIdeal
import proofs.«165492_j790273982767_2_alg».proof.Proof.Spec
import Idealize.ShloMosaic.Lib.Pipeline.Value
import Idealize.ShloMosaic.Lib.ValueIdx
import Idealize.ShloMosaic.PureOps.Ideal.Laws
import Idealize.ShloMosaic.Lib.IdealHost

noncomputable section

open scoped BigOperators

namespace Cert.RefValue

open Cert.ReferenceIdeal Cert.ReferenceIdeal.Gen Idealize.ShloMosaic Idealize.ShloMosaic.ValueIdx

/-! ## The two steps both programs spell with the same host operations -/

/-- Aggregation of a message array along an edge list `e` (row 0 the source node of each edge, row 1 its target): take
    the two rows as flat lists, move a negative source index up by the number of nodes, gather the source nodes'
    message rows, and add each gathered row into its target node's row of a zero array. Operation for operation the
    reference's own term. -/
def agg (msg : FVec Ideal Cert.Spec.SN .f32) (e : IVec S2x800000 32) : FVec Ideal Cert.Spec.SN .f32 :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0
      (shapeCast S800000 (extractStridedSlice S1x800000 ![1, 0] e slices_S2x800000_S1x800000_1_0) shapeCasts_S1x800000_S800000))
    (Host.gather gather_S50000x128_S800000x1_S800000x128_1_0_n_n_0_1_1128 msg
      (broadcastInDim S800000x1 ![0] bcast_S800000_S800000x1_0
        (select
          (cmpi .slt (shapeCast S800000 (extractStridedSlice S1x800000 ![0, 0] e slices_S2x800000_S1x800000_0_0) shapeCasts_S1x800000_S800000)
            (broadcastInDim S800000 ![] bcast_S_S800000 (constantI S_ 32 0#32)))
          (addi (shapeCast S800000 (extractStridedSlice S1x800000 ![0, 0] e slices_S2x800000_S1x800000_0_0) shapeCasts_S1x800000_S800000)
            (broadcastInDim S800000 ![] bcast_S_S800000 (constantI S_ 32 50000#32)))
          (shapeCast S800000 (extractStridedSlice S1x800000 ![0, 0] e slices_S2x800000_S1x800000_0_0) shapeCasts_S1x800000_S800000))))

/-- Stacking the two relations' results along a new leading axis, the first argument first: each gets a leading axis
    of extent one, and the two are joined along it. The reference's last three operations. -/
def stk (a b : FVec Ideal Cert.Spec.SN .f32) : FVec Ideal S2x50000x128 .f32 :=
  concatenate S2x50000x128 0
    [⟨S1x50000x128, (broadcastInDim S1x50000x128 ![1, 2] bcast_S50000x128_S1x50000x128_1_2 a)⟩,
     ⟨S1x50000x128, (broadcastInDim S1x50000x128 ![1, 2] bcast_S50000x128_S1x50000x128_1_2 b)⟩]
    concatenates_S1x50000x128_S1x50000x128_S2x50000x128_d0

/-! ## A relation's messages -/

/-- The gates' contraction: left operand [50000, 128], right operand [128, 512], one contracted axis of extent 128. -/
abbrev D128 : DotDims S50000x128 S128x512 S50000x512 := dot_S50000x128_S128x512_S50000x512_1_0_0_1_n_n

theorem D128_lhs0 (i : S50000x512.Idx) (q : D128.contr.Idx) : (D128.lhsIdx i q 0).val = (i 0).val := by
  unfold DotDims.lhsIdx
  rw [dif_neg (show ¬(0 : Fin S50000x128.rank) ∈ D128.lhsBatch by decide), dif_pos (show (0 : Fin S50000x128.rank) ∈ D128.lhsNonContracting by decide)]
  rfl
theorem D128_lhs1 (i : S50000x512.Idx) (q : D128.contr.Idx) : (D128.lhsIdx i q 1).val = (q ⟨0, by decide⟩).val :=
  D128.lhsIdx_val_of_single rfl i q
theorem D128_rhs0 (i : S50000x512.Idx) (q : D128.contr.Idx) : (D128.rhsIdx i q 0).val = (q ⟨0, by decide⟩).val :=
  D128.rhsIdx_val_of_single rfl i q
theorem D128_rhs1 (i : S50000x512.Idx) (q : D128.contr.Idx) : (D128.rhsIdx i q 1).val = (i 1).val := by
  unfold DotDims.rhsIdx
  rw [dif_neg (show ¬(1 : Fin S128x512.rank) ∈ D128.rhsBatch by decide), dif_pos (show (1 : Fin S128x512.rank) ∈ D128.rhsNonContracting by decide)]
  rfl

/-- The gates' contraction at node `n`, gate column `r`: the sum over the 128 input channels. -/
theorem dot128_apply (x : FVec Ideal S50000x128 .f32) (y : FVec Ideal S128x512 .f32) (n : Fin 50000) (r : Fin 512) :
    Host.dotGeneral (F := Ideal) D128 none x y (ix2 n r) = ∑ k : Fin 128, x (ix2 n k) * y (ix2 k r) := by
  simp only [Host.dotGeneral]
  rw [Ideal.dotGeneral_apply, ← Equiv.sum_comp (contrEquiv1 D128 128 rfl rfl).symm]
  refine Finset.sum_congr rfl fun k _ => ?_
  have hk := contrEquiv1_symm_val D128 128 rfl rfl k
  have el : D128.lhsIdx (ix2 n r) ((contrEquiv1 D128 128 rfl rfl).symm k) = ix2 n k := funext fun a => Fin.ext (by
    match a with
    | ⟨0, _⟩ => exact D128_lhs0 _ _
    | ⟨1, _⟩ => exact (D128_lhs1 _ _).trans hk)
  have er : D128.rhsIdx (ix2 n r) ((contrEquiv1 D128 128 rfl rfl).symm k) = ix2 k r := funext fun a => Fin.ext (by
    match a with
    | ⟨0, _⟩ => exact (D128_rhs0 _ _).trans hk
    | ⟨1, _⟩ => exact D128_rhs1 _ _)
  rw [el, er]

/-- The transposed gate matrix at (channel, row) is the matrix at (row, channel). -/
theorem trW_apply (W : FVec Ideal S512x128 .f32) (k : Fin 128) (r : Fin 512) :
    transpose S128x512 [1, 0] W transposes_S512x128_S128x512_1_0 (ix2 k r) = W (ix2 r k) :=
  transpose_apply [1, 0] W transposes_S512x128_S128x512_1_0 (ix2 k r) (ix2 r k) (fun b => match b with
    | ⟨0, _⟩ => rfl
    | ⟨1, _⟩ => rfl)

/-- The gate bias broadcast down the rows reads the bias entry of the column. -/
theorem biasW_apply (b : FVec Ideal S512 .f32) (n : Fin 50000) (r : Fin 512) :
    broadcastInDim S50000x512 ![0, 1] bcast_S1x512_S50000x512_0_1 (broadcastInDim S1x512 ![1] bcast_S512_S1x512_1 b) (ix2 n r)
      = b (ix1 r) := by
  rw [broadcastInDim_apply _ bcast_S1x512_S50000x512_0_1 _ (ix2 n r) (ix2 (⟨0, Nat.one_pos⟩ : Fin 1) r) (fun a => match a with
    | ⟨0, _⟩ => by show 0 = if (1 : Nat) = 1 then 0 else n.val; rw [if_pos rfl]
    | ⟨1, _⟩ => by show r.val = if (512 : Nat) = 1 then 0 else r.val; rw [if_neg (by decide)])]
  exact broadcastInDim_apply _ bcast_S512_S1x512_1 b _ (ix1 r) (fun a => match a with
    | ⟨0, _⟩ => by show r.val = if (512 : Nat) = 1 then 0 else r.val; rw [if_neg (by decide)])

/-- The gate pre-activations [50000, 512] as the reference spells them: the node features contracted against the
    transposed gate matrix, plus the bias broadcast down the rows. -/
def gatesTerm (x : FVec Ideal S50000x128 .f32) (W : FVec Ideal S512x128 .f32) (b : FVec Ideal S512 .f32) : FVec Ideal S50000x512 .f32 :=
  addf (Host.dotGeneral (F := Ideal) dot_S50000x128_S128x512_S50000x512_1_0_0_1_n_n none x
      (transpose S128x512 [1, 0] W transposes_S512x128_S128x512_1_0))
    (broadcastInDim S50000x512 ![0, 1] bcast_S1x512_S50000x512_0_1 (broadcastInDim S1x512 ![1] bcast_S512_S1x512_1 b))

/-- At node `n`, gate row `r`, that is the specification's gate pre-activation. -/
theorem gates_apply (x : FVec Ideal S50000x128 .f32) (W : FVec Ideal S512x128 .f32) (b : FVec Ideal S512 .f32)
    (n : Fin 50000) (r : Fin 512) :
    gatesTerm x W b (ix2 n r) = Cert.Spec.gate x W b n r := by
  unfold gatesTerm
  rw [addf_apply, biasW_apply]
  refine congrArg (fun s => s + b (ix1 r)) ?_
  refine (dot128_apply _ _ n r).trans (Finset.sum_congr rfl fun k _ => ?_)
  rw [trW_apply]

/-- The slice of the gate array at columns `0 … 127` reads the input gate row of the channel … -/
theorem sliceI_apply (y : FVec Ideal S50000x512 .f32) (n : Fin 50000) (j : Fin 128) :
    extractStridedSlice S50000x128 ![0, 0] y slices_S50000x512_S50000x128_0_0 (ix2 n j) = y (ix2 n (Cert.Spec.rowI j)) :=
  extractStridedSlice_apply ![0, 0] y slices_S50000x512_S50000x128_0_0 (ix2 n j) (ix2 n (Cert.Spec.rowI j)) (fun a => match a with
    | ⟨0, _⟩ => by show n.val = 0 + n.val; omega
    | ⟨1, _⟩ => by show j.val = 0 + j.val; omega)
/-- … at columns `256 … 383` the cell gate row … -/
theorem sliceG_apply (y : FVec Ideal S50000x512 .f32) (n : Fin 50000) (j : Fin 128) :
    extractStridedSlice S50000x128 ![0, 256] y slices_S50000x512_S50000x128_0_256 (ix2 n j) = y (ix2 n (Cert.Spec.rowG j)) :=
  extractStridedSlice_apply ![0, 256] y slices_S50000x512_S50000x128_0_256 (ix2 n j) (ix2 n (Cert.Spec.rowG j)) (fun a => match a with
    | ⟨0, _⟩ => by show n.val = 0 + n.val; omega
    | ⟨1, _⟩ => by show 256 + j.val = 256 + j.val; omega)
/-- … and at columns `384 … 511` the output gate row. -/
theorem sliceO_apply (y : FVec Ideal S50000x512 .f32) (n : Fin 50000) (j : Fin 128) :
    extractStridedSlice S50000x128 ![0, 384] y slices_S50000x512_S50000x128_0_384 (ix2 n j) = y (ix2 n (Cert.Spec.rowO j)) :=
  extractStridedSlice_apply ![0, 384] y slices_S50000x512_S50000x128_0_384 (ix2 n j) (ix2 n (Cert.Spec.rowO j)) (fun a => match a with
    | ⟨0, _⟩ => by show n.val = 0 + n.val; omega
    | ⟨1, _⟩ => by show 384 + j.val = 384 + j.val; omega)

/-- The constant one broadcast over the array is one everywhere. -/
theorem one_apply (i : S50000x128.Idx) :
    (broadcastInDim S50000x128 ![] bcast_S_S50000x128 (constant (F := Ideal) S_ .f32 0x3F800000#32)) i = 1 := by
  rw [broadcastInDim_scalar_apply]
  exact Ideal.ofBits_one_f32

/-- A relation's message array as the reference spells it: `σ(o) · tanh (σ(i) · tanh g)` over the sliced gate columns, with
    `σ x` written as one divided by one plus the exponential of the negation. -/
def msgTerm (x : FVec Ideal S50000x128 .f32) (W : FVec Ideal S512x128 .f32) (b : FVec Ideal S512 .f32) : FVec Ideal S50000x128 .f32 :=
  mulf
    (Host.divf (F := Ideal) (broadcastInDim S50000x128 ![] bcast_S_S50000x128 (constant (F := Ideal) S_ .f32 0x3F800000#32))
      (addf (broadcastInDim S50000x128 ![] bcast_S_S50000x128 (constant (F := Ideal) S_ .f32 0x3F800000#32))
        (Host.exp (F := Ideal) (Host.negf (F := Ideal) (extractStridedSlice S50000x128 ![0, 384] (gatesTerm x W b) slices_S50000x512_S50000x128_0_384)))))
    (Host.tanh (F := Ideal) (mulf
      (Host.divf (F := Ideal) (broadcastInDim S50000x128 ![] bcast_S_S50000x128 (constant (F := Ideal) S_ .f32 0x3F800000#32))
        (addf (broadcastInDim S50000x128 ![] bcast_S_S50000x128 (constant (F := Ideal) S_ .f32 0x3F800000#32))
          (Host.exp (F := Ideal) (Host.negf (F := Ideal) (extractStridedSlice S50000x128 ![0, 0] (gatesTerm x W b) slices_S50000x512_S50000x128_0_0)))))
      (Host.tanh (F := Ideal) (extractStridedSlice S50000x128 ![0, 256] (gatesTerm x W b) slices_S50000x512_S50000x128_0_256))))

/-- The reference's message array is the specification's: the slices are the input, cell and output gate rows, and
    `1 / (1 + exp (-x))` is the logistic function by definition. -/
theorem ref_msg (x : FVec Ideal S50000x128 .f32) (W : FVec Ideal S512x128 .f32) (b : FVec Ideal S512 .f32) :
    msgTerm x W b = Cert.Spec.msg x W b := by
  funext i
  obtain ⟨n, j, rfl⟩ : ∃ (n : Fin 50000) (j : Fin 128), i = ix2 n j := ⟨i 0, i 1, eq_ix2 i⟩
  have h : msgTerm x W b (ix2 n j)
      = Ideal.div ((broadcastInDim S50000x128 ![] bcast_S_S50000x128 (constant (F := Ideal) S_ .f32 0x3F800000#32)) (ix2 n j))
          ((broadcastInDim S50000x128 ![] bcast_S_S50000x128 (constant (F := Ideal) S_ .f32 0x3F800000#32)) (ix2 n j) + Ideal.exp (-((extractStridedSlice S50000x128 ![0, 384] (gatesTerm x W b) slices_S50000x512_S50000x128_0_384) (ix2 n j))))
        * Ideal.tanh (Ideal.div ((broadcastInDim S50000x128 ![] bcast_S_S50000x128 (constant (F := Ideal) S_ .f32 0x3F800000#32)) (ix2 n j))
            ((broadcastInDim S50000x128 ![] bcast_S_S50000x128 (constant (F := Ideal) S_ .f32 0x3F800000#32)) (ix2 n j) + Ideal.exp (-((extractStridedSlice S50000x128 ![0, 0] (gatesTerm x W b) slices_S50000x512_S50000x128_0_0) (ix2 n j))))
          * Ideal.tanh ((extractStridedSlice S50000x128 ![0, 256] (gatesTerm x W b) slices_S50000x512_S50000x128_0_256) (ix2 n j))) := rfl
  rw [h, one_apply, sliceO_apply, sliceI_apply, sliceG_apply, gates_apply, gates_apply, gates_apply]
  rfl

/-! ## A relation's update -/

/-- The update's contraction: left operand [50000, 256], right operand [256, 128], one contracted axis of extent 256. -/
abbrev D256 : DotDims S50000x256 S256x128 S50000x128 := dot_S50000x256_S256x128_S50000x128_1_0_0_1_n_n

theorem D256_lhs0 (i : S50000x128.Idx) (q : D256.contr.Idx) : (D256.lhsIdx i q 0).val = (i 0).val := by
  unfold DotDims.lhsIdx
  rw [dif_neg (show ¬(0 : Fin S50000x256.rank) ∈ D256.lhsBatch by decide), dif_pos (show (0 : Fin S50000x256.rank) ∈ D256.lhsNonContracting by decide)]
  rfl
theorem D256_lhs1 (i : S50000x128.Idx) (q : D256.contr.Idx) : (D256.lhsIdx i q 1).val = (q ⟨0, by decide⟩).val :=
  D256.lhsIdx_val_of_single rfl i q
theorem D256_rhs0 (i : S50000x128.Idx) (q : D256.contr.Idx) : (D256.rhsIdx i q 0).val = (q ⟨0, by decide⟩).val :=
  D256.rhsIdx_val_of_single rfl i q
theorem D256_rhs1 (i : S50000x128.Idx) (q : D256.contr.Idx) : (D256.rhsIdx i q 1).val = (i 1).val := by
  unfold DotDims.rhsIdx
  rw [dif_neg (show ¬(1 : Fin S256x128.rank) ∈ D256.rhsBatch by decide), dif_pos (show (1 : Fin S256x128.rank) ∈ D256.rhsNonContracting by decide)]
  rfl

/-- The update's contraction at row `n`, column `j`: the sum over the 256 joined channels. -/
theorem dot256_apply (y : FVec Ideal S50000x256 .f32) (z : FVec Ideal S256x128 .f32) (n : Fin 50000) (j : Fin 128) :
    Host.dotGeneral (F := Ideal) D256 none y z (ix2 n j) = ∑ k : Fin 256, y (ix2 n k) * z (ix2 k j) := by
  simp only [Host.dotGeneral]
  rw [Ideal.dotGeneral_apply, ← Equiv.sum_comp (contrEquiv1 D256 256 rfl rfl).symm]
  refine Finset.sum_congr rfl fun k _ => ?_
  have hk := contrEquiv1_symm_val D256 256 rfl rfl k
  have el : D256.lhsIdx (ix2 n j) ((contrEquiv1 D256 256 rfl rfl).symm k) = ix2 n k := funext fun a => Fin.ext (by
    match a with
    | ⟨0, _⟩ => exact D256_lhs0 _ _
    | ⟨1, _⟩ => exact (D256_lhs1 _ _).trans hk)
  have er : D256.rhsIdx (ix2 n j) ((contrEquiv1 D256 256 rfl rfl).symm k) = ix2 k j := funext fun a => Fin.ext (by
    match a with
    | ⟨0, _⟩ => exact (D256_rhs0 _ _).trans hk
    | ⟨1, _⟩ => exact D256_rhs1 _ _)
  rw [el, er]

/-- The joined row [own channels | aggregated channels] at a column of the first half is the own row. -/
theorem cat_left (xd ag : FVec Ideal S50000x128 .f32) (n : Fin 50000) (k : Fin 128) :
    concatenate S50000x256 1 [⟨S50000x128, xd⟩, ⟨S50000x128, ag⟩] concatenates_S50000x128_S50000x128_S50000x256_d1
      (ix2 n (Fin.castAdd 128 k)) = xd (ix2 n k) :=
  concatenate_pair_apply_left 1 xd ag concatenates_S50000x128_S50000x128_S50000x256_d1 (ix2 n (Fin.castAdd 128 k)) rfl (ix2 n k)
    (fun b => match b with
      | ⟨0, _⟩ => rfl
      | ⟨1, _⟩ => rfl)

/-- … and at a column of the second half the aggregated row, 128 columns back. -/
theorem cat_right (xd ag : FVec Ideal S50000x128 .f32) (n : Fin 50000) (k : Fin 128) :
    concatenate S50000x256 1 [⟨S50000x128, xd⟩, ⟨S50000x128, ag⟩] concatenates_S50000x128_S50000x128_S50000x256_d1
      (ix2 n (Fin.natAdd 128 k)) = ag (ix2 n k) :=
  concatenate_pair_apply_right 1 xd ag concatenates_S50000x128_S50000x128_S50000x256_d1 (ix2 n (Fin.natAdd 128 k)) rfl rfl (ix2 n k)
    (fun b => match b with
      | ⟨0, _⟩ => fun _ => rfl
      | ⟨1, _⟩ => fun h => absurd rfl h)
    (by show k.val + 128 = 128 + k.val; omega)

/-- The transposed linear map at (column, row) is the map at (row, column). -/
theorem tr_apply (Wl : FVec Ideal S128x256 .f32) (c : Fin 256) (j : Fin 128) :
    transpose S256x128 [1, 0] Wl transposes_S128x256_S256x128_1_0 (ix2 c j) = Wl (ix2 j c) :=
  transpose_apply [1, 0] Wl transposes_S128x256_S256x128_1_0 (ix2 c j) (ix2 j c) (fun b => match b with
    | ⟨0, _⟩ => rfl
    | ⟨1, _⟩ => rfl)

/-- The bias broadcast down the rows reads the bias entry of the column. -/
theorem bias_apply (bl : FVec Ideal S128 .f32) (n : Fin 50000) (j : Fin 128) :
    broadcastInDim S50000x128 ![0, 1] bcast_S1x128_S50000x128_0_1 (broadcastInDim S1x128 ![1] bcast_S128_S1x128_1 bl) (ix2 n j)
      = bl (ix1 j) := by
  rw [broadcastInDim_apply _ bcast_S1x128_S50000x128_0_1 _ (ix2 n j) (ix2 (⟨0, Nat.one_pos⟩ : Fin 1) j) (fun a => match a with
    | ⟨0, _⟩ => by show 0 = if (1 : Nat) = 1 then 0 else n.val; rw [if_pos rfl]
    | ⟨1, _⟩ => by show j.val = if (128 : Nat) = 1 then 0 else j.val; rw [if_neg (by decide)])]
  exact broadcastInDim_apply _ bcast_S128_S1x128_1 bl _ (ix1 j) (fun a => match a with
    | ⟨0, _⟩ => by show j.val = if (128 : Nat) = 1 then 0 else j.val; rw [if_neg (by decide)])

/-- The zero constant broadcast over the array is zero everywhere. -/
theorem zero_apply (i : S50000x128.Idx) :
    broadcastInDim S50000x128 ![] bcast_S_S50000x128 (constant (F := Ideal) S_ .f32 0x00000000#32) i = 0 := by
  rw [broadcastInDim_scalar_apply]
  exact Ideal.ofBits_zero_f32

/-- A relation's update as the reference spells it: join own and aggregated rows, contract against the transposed linear
    map, add the broadcast bias, clamp below at the broadcast zero. -/
def updTerm (xd ag : FVec Ideal S50000x128 .f32) (Wl : FVec Ideal S128x256 .f32) (bl : FVec Ideal S128 .f32) : FVec Ideal S50000x128 .f32 :=
  maximumf (addf (Host.dotGeneral (F := Ideal) dot_S50000x256_S256x128_S50000x128_1_0_0_1_n_n none
        (concatenate S50000x256 1 [⟨S50000x128, xd⟩, ⟨S50000x128, ag⟩] concatenates_S50000x128_S50000x128_S50000x256_d1)
        (transpose S256x128 [1, 0] Wl transposes_S128x256_S256x128_1_0))
      (broadcastInDim S50000x128 ![0, 1] bcast_S1x128_S50000x128_0_1 (broadcastInDim S1x128 ![1] bcast_S128_S1x128_1 bl)))
    (broadcastInDim S50000x128 ![] bcast_S_S50000x128 (constant (F := Ideal) S_ .f32 0x00000000#32))

/-- The reference's update is the specification's: the sum over the 256 joined channels splits into the sum over the
    128 own channels against the map's first 128 columns plus the sum over the 128 aggregated channels against its
    last 128 columns. -/
theorem ref_upd (xd ag : FVec Ideal S50000x128 .f32) (Wl : FVec Ideal S128x256 .f32) (bl : FVec Ideal S128 .f32) :
    updTerm xd ag Wl bl = Cert.Spec.upd xd ag Wl bl := by
  funext i
  obtain ⟨n, j, rfl⟩ : ∃ (n : Fin 50000) (j : Fin 128), i = ix2 n j := ⟨i 0, i 1, eq_ix2 i⟩
  unfold updTerm
  rw [maximumf_apply, addf_apply, zero_apply, bias_apply]
  refine congrArg (fun s => max (s + bl (ix1 j)) 0) ?_
  refine (dot256_apply _ _ n j).trans ?_
  refine (Fin.sum_univ_add (a := 128) (b := 128) _).trans ?_
  refine congrArg₂ (· + ·) (Finset.sum_congr rfl fun k _ => ?_) (Finset.sum_congr rfl fun k _ => ?_)
  · rw [cat_left, tr_apply]; rfl
  · rw [cat_right, tr_apply]; rfl

/-! ## The whole result -/

/-- The reference's whole term — each relation's update of its target nodes from the other side's messages aggregated
    along its edge list, the two stacked — is the specification. -/
theorem term_eq (xa xb : FVec Ideal S50000x128 .f32) (eab eba : IVec S2x800000 32)
    (Wab : FVec Ideal S512x128 .f32) (bab : FVec Ideal S512 .f32) (Lab : FVec Ideal S128x256 .f32) (cab : FVec Ideal S128 .f32)
    (Wba : FVec Ideal S512x128 .f32) (bba : FVec Ideal S512 .f32) (Lba : FVec Ideal S128x256 .f32) (cba : FVec Ideal S128 .f32) :
    stk (updTerm xa (agg (msgTerm xb Wba bba) eba) Lba cba) (updTerm xb (agg (msgTerm xa Wab bab) eab) Lab cab)
      = Cert.Spec.out agg stk xa xb eab eba Wab bab Lab cab Wba bba Lba cba := by
  rw [ref_msg, ref_msg, ref_upd, ref_upd]
  rfl

end Cert.RefValue

end
-- ==== Proof.RefRun.lean ====
/-
  The reference's run, read stretch by stretch.

  The reference is a straight line of 113 host operations with no kernel call: relation a→b's messages (29 operations), their
  aggregation along the edges (17), the b-nodes' update (9), then the same three stretches for relation b→a, and the stack of
  the two results (3). Every weakly fair execution of such a line terminates with each buffer at the fold of the operations'
  results over its launch contents. The fold over the whole line is the fold over its last stretch of the fold over the
  rest, so the result buffer is read by peeling the stretches from the end: each stretch's one kept result is a written-out
  term of what the stretch found, and a buffer a stretch does not write is as the stretch found it. What is left is the
  written-out term of the twelve argument arrays, which is the specification.
-/
import proofs.«165492_j790273982767_2_alg».proof.Proof.RefLemmas
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo
open Cert.RefValue

variable {F : FTy → Type} [FloatOps F]

/-- The reference's 113 operations, in order (the outlined clamp's three operations stand in each call's place). -/
abbrev allOps : List (HloOp τ sig (Elt F)) :=
  [ unary main_arg4 main_v0 ((transpose S128x512 [1, 0] · transposes_S512x128_S128x512_1_0) : (⟨S512x128, .f32⟩ : BufTy).Contents (Elt F) → (⟨S128x512, .f32⟩ : BufTy).Contents (Elt F)),
    binary main_arg0 main_v0 main_v1 ((fun l r => Host.dotGeneral dot_S50000x128_S128x512_S50000x512_1_0_0_1_n_n none l r) : (⟨S50000x128, .f32⟩ : BufTy).Contents (Elt F) → (⟨S128x512, .f32⟩ : BufTy).Contents (Elt F) → (⟨S50000x512, .f32⟩ : BufTy).Contents (Elt F)),
    unary main_arg5 main_v2 (broadcastInDim S1x512 ![1] bcast_S512_S1x512_1 : (⟨S512, .f32⟩ : BufTy).Contents (Elt F) → (⟨S1x512, .f32⟩ : BufTy).Contents (Elt F)),
    unary main_v2 main_v3 (broadcastInDim S50000x512 ![0, 1] bcast_S1x512_S50000x512_0_1 : (⟨S1x512, .f32⟩ : BufTy).Contents (Elt F) → (⟨S50000x512, .f32⟩ : BufTy).Contents (Elt F)),
    binary main_v1 main_v3 main_v4 (addf : (⟨S50000x512, .f32⟩ : BufTy).Contents (Elt F) → (⟨S50000x512, .f32⟩ : BufTy).Contents (Elt F) → (⟨S50000x512, .f32⟩ : BufTy).Contents (Elt F)),
    unary main_v4 main_v5 ((extractStridedSlice S50000x128 ![0, 0] · slices_S50000x512_S50000x128_0_0) : (⟨S50000x512, .f32⟩ : BufTy).Contents (Elt F) → (⟨S50000x128, .f32⟩ : BufTy).Contents (Elt F)),
    unary main_v4 main_v6 ((extractStridedSlice S50000x128 ![0, 128] · slices_S50000x512_S50000x128_0_128) : (⟨S50000x512, .f32⟩ : BufTy).Contents (Elt F) → (⟨S50000x128, .f32⟩ : BufTy).Contents (Elt F)),
    unary main_v4 main_v7 ((extractStridedSlice S50000x128 ![0, 256] · slices_S50000x512_S50000x128_0_256) : (⟨S50000x512, .f32⟩ : BufTy).Contents (Elt F) → (⟨S50000x128, .f32⟩ : BufTy).Contents (Elt F)),
    unary main_v4 main_v8 ((extractStridedSlice S50000x128 ![0, 384] · slices_S50000x512_S50000x128_0_384) : (⟨S50000x512, .f32⟩ : BufTy).Contents (Elt F) → (⟨S50000x128, .f32⟩ : BufTy).Contents (Elt F)),
    unary main_v5 main_v9 (Host.negf : (⟨S50000x128, .f32⟩ : BufTy).Contents (Elt F) → (⟨S50000x128, .f32⟩ : BufTy).Contents (Elt F)),
    unary main_v9 main_v10 (Host.exp : (⟨S50000x128, .f32⟩ : BufTy).Contents (Elt F) → (⟨S50000x128, .f32⟩ : BufTy).Contents (Elt F)),
    nullary main_cst (constant S_ .f32 0x3F800000#32),
    unary main_cst main_v11 (broadcastInDim S50000x128 ![] bcast_S_S50000x128 : (⟨S_, .f32⟩ : BufTy).Contents (Elt F) → (⟨S50000x128, .f32⟩ : BufTy).Contents (Elt F)),
    binary main_v11 main_v10 main_v12 (addf : (⟨S50000x128, .f32⟩ : BufTy).Contents (Elt F) → (⟨S50000x128, .f32⟩ : BufTy).Contents (Elt F) → (⟨S50000x128, .f32⟩ : BufTy).Contents (Elt F)),
    nullary main_cst_0 (constant S_ .f32 0x3F800000#32),
    unary main_cst_0 main_v13 (broadcastInDim S50000x128 ![] bcast_S_S50000x128 : (⟨S_, .f32⟩ : BufTy).Contents (Elt F) → (⟨S50000x128, .f32⟩ : BufTy).Contents (Elt F)),
    binary main_v13 main_v12 main_v14 (Host.divf : (⟨S50000x128, .f32⟩ : BufTy).Contents (Elt F) → (⟨S50000x128, .f32⟩ : BufTy).Contents (Elt F) → (⟨S50000x128, .f32⟩ : BufTy).Contents (Elt F)),
    unary main_v7 main_v15 (Host.tanh : (⟨S50000x128, .f32⟩ : BufTy).Contents (Elt F) → (⟨S50000x128, .f32⟩ : BufTy).Contents (Elt F)),
    binary main_v14 main_v15 main_v16 (mulf : (⟨S50000x128, .f32⟩ : BufTy).Contents (Elt F) → (⟨S50000x128, .f32⟩ : BufTy).Contents (Elt F) → (⟨S50000x128, .f32⟩ : BufTy).Contents (Elt F)),
    unary main_v8 main_v17 (Host.negf : (⟨S50000x128, .f32⟩ : BufTy).Contents (Elt F) → (⟨S50000x128, .f32⟩ : BufTy).Contents (Elt F)),
    unary main_v17 main_v18 (Host.exp : (⟨S50000x128, .f32⟩ : BufTy).Contents (Elt F) → (⟨S50000x128, .f32⟩ : BufTy).Contents (Elt F)),
    nullary main_cst_1 (constant S_ .f32 0x3F800000#32),
    unary main_cst_1 main_v19 (broadcastInDim S50000x128 ![] bcast_S_S50000x128 : (⟨S_, .f32⟩ : BufTy).Contents (Elt F) → (⟨S50000x128, .f32⟩ : BufTy).Contents (Elt F)),
    binary main_v19 main_v18 main_v20 (addf : (⟨S50000x128, .f32⟩ : BufTy).Contents (Elt F) → (⟨S50000x128, .f32⟩ : BufTy).Contents (Elt F) → (⟨S50000x128, .f32⟩ : BufTy).Contents (Elt F)),
    nullary main_cst_2 (constant S_ .f32 0x3F800000#32),
    unary main_cst_2 main_v21 (broadcastInDim S50000x128 ![] bcast_S_S50000x128 : (⟨S_, .f32⟩ : BufTy).Contents (Elt F) → (⟨S50000x128, .f32⟩ : BufTy).Contents (Elt F)),
    binary main_v21 main_v20 main_v22 (Host.divf : (⟨S50000x128, .f32⟩ : BufTy).Contents (Elt F) → (⟨S50000x128, .f32⟩ : BufTy).Contents (Elt F) → (⟨S50000x128, .f32⟩ : BufTy).Contents (Elt F)),
    unary main_v16 main_v23 (Host.tanh : (⟨S50000x128, .f32⟩ : BufTy).Contents (Elt F) → (⟨S50000x128, .f32⟩ : BufTy).Contents (Elt F)),
    binary main_v22 main_v23 main_v24 (mulf : (⟨S50000x128, .f32⟩ : BufTy).Contents (Elt F) → (⟨S50000x128, .f32⟩ : BufTy).Contents (Elt F) → (⟨S50000x128, .f32⟩ : BufTy).Contents (Elt F)),
    unary main_arg2 main_v25 ((extractStridedSlice S1x800000 ![0, 0] · slices_S2x800000_S1x800000_0_0) : (⟨S2x800000, .i32⟩ : BufTy).Contents (Elt F) → (⟨S1x800000, .i32⟩ : BufTy).Contents (Elt F)),
    reshape main_v25 main_v26 rfl shapeCasts_S1x800000_S800000,
    unary main_arg2 main_v27 ((extractStridedSlice S1x800000 ![1, 0] · slices_S2x800000_S1x800000_1_0) : (⟨S2x800000, .i32⟩ : BufTy).Contents (Elt F) → (⟨S1x800000, .i32⟩ : BufTy).Contents (Elt F)),
    reshape main_v27 main_v28 rfl shapeCasts_S1x800000_S800000,
    nullary main_c (constantI S_ 32 0#32),
    unary main_c main_v29 (broadcastInDim S800000 ![] bcast_S_S800000 : (⟨S_, .i32⟩ : BufTy).Contents (Elt F) → (⟨S800000, .i32⟩ : BufTy).Contents (Elt F)),
    binary main_v26 main_v29 main_v30 (cmpi .slt : (⟨S800000, .i32⟩ : BufTy).Contents (Elt F) → (⟨S800000, .i32⟩ : BufTy).Contents (Elt F) → (⟨S800000, .i1⟩ : BufTy).Contents (Elt F)),
    nullary main_c_3 (constantI S_ 32 50000#32),
    unary main_c_3 main_v31 (broadcastInDim S800000 ![] bcast_S_S800000 : (⟨S_, .i32⟩ : BufTy).Contents (Elt F) → (⟨S800000, .i32⟩ : BufTy).Contents (Elt F)),
    binary main_v26 main_v31 main_v32 (addi : (⟨S800000, .i32⟩ : BufTy).Contents (Elt F) → (⟨S800000, .i32⟩ : BufTy).Contents (Elt F) → (⟨S800000, .i32⟩ : BufTy).Contents (Elt F)),
    ternary main_v30 main_v32 main_v26 main_v33 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v33 main_v34 (broadcastInDim S800000x1 ![0] bcast_S800000_S800000x1_0 : (⟨S800000, .i32⟩ : BufTy).Contents (Elt F) → (⟨S800000x1, .i32⟩ : BufTy).Contents (Elt F)),
    binary main_v24 main_v34 main_v35 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_4 (constant S_ .f32 0x00000000#32),
    unary main_cst_4 main_v36 (broadcastInDim S50000x128 ![] bcast_S_S50000x128 : (⟨S_, .f32⟩ : BufTy).Contents (Elt F) → (⟨S50000x128, .f32⟩ : BufTy).Contents (Elt F)),
    unary main_v28 main_v37 (broadcastInDim S800000x1 ![0] bcast_S800000_S800000x1_0 : (⟨S800000, .i32⟩ : BufTy).Contents (Elt F) → (⟨S800000x1, .i32⟩ : BufTy).Contents (Elt F)),
    ternary main_v36 main_v37 main_v35 main_v38 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_arg1 main_v38 main_v39 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    unary main_arg6 main_v40 ((transpose S256x128 [1, 0] · transposes_S128x256_S256x128_1_0) : (⟨S128x256, .f32⟩ : BufTy).Contents (Elt F) → (⟨S256x128, .f32⟩ : BufTy).Contents (Elt F)),
    binary main_v39 main_v40 main_v41 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg7 main_v42 (broadcastInDim S1x128 ![1] bcast_S128_S1x128_1 : (⟨S128, .f32⟩ : BufTy).Contents (Elt F) → (⟨S1x128, .f32⟩ : BufTy).Contents (Elt F)),
    unary main_v42 main_v43 (broadcastInDim S50000x128 ![0, 1] bcast_S1x128_S50000x128_0_1 : (⟨S1x128, .f32⟩ : BufTy).Contents (Elt F) → (⟨S50000x128, .f32⟩ : BufTy).Contents (Elt F)),
    binary main_v41 main_v43 main_v44 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v44) (TRef.of (T := ⟨S50000x128, .f32⟩) main_call0_v0) (TRef.of (T := ⟨S50000x128, .f32⟩) main_v45) maximumf,
    unary main_arg8 main_v46 ((transpose S128x512 [1, 0] · transposes_S512x128_S128x512_1_0) : (⟨S512x128, .f32⟩ : BufTy).Contents (Elt F) → (⟨S128x512, .f32⟩ : BufTy).Contents (Elt F)),
    binary main_arg1 main_v46 main_v47 ((fun l r => Host.dotGeneral dot_S50000x128_S128x512_S50000x512_1_0_0_1_n_n none l r) : (⟨S50000x128, .f32⟩ : BufTy).Contents (Elt F) → (⟨S128x512, .f32⟩ : BufTy).Contents (Elt F) → (⟨S50000x512, .f32⟩ : BufTy).Contents (Elt F)),
    unary main_arg9 main_v48 (broadcastInDim S1x512 ![1] bcast_S512_S1x512_1 : (⟨S512, .f32⟩ : BufTy).Contents (Elt F) → (⟨S1x512, .f32⟩ : BufTy).Contents (Elt F)),
    unary main_v48 main_v49 (broadcastInDim S50000x512 ![0, 1] bcast_S1x512_S50000x512_0_1 : (⟨S1x512, .f32⟩ : BufTy).Contents (Elt F) → (⟨S50000x512, .f32⟩ : BufTy).Contents (Elt F)),
    binary main_v47 main_v49 main_v50 (addf : (⟨S50000x512, .f32⟩ : BufTy).Contents (Elt F) → (⟨S50000x512, .f32⟩ : BufTy).Contents (Elt F) → (⟨S50000x512, .f32⟩ : BufTy).Contents (Elt F)),
    unary main_v50 main_v51 ((extractStridedSlice S50000x128 ![0, 0] · slices_S50000x512_S50000x128_0_0) : (⟨S50000x512, .f32⟩ : BufTy).Contents (Elt F) → (⟨S50000x128, .f32⟩ : BufTy).Contents (Elt F)),
    unary main_v50 main_v52 ((extractStridedSlice S50000x128 ![0, 128] · slices_S50000x512_S50000x128_0_128) : (⟨S50000x512, .f32⟩ : BufTy).Contents (Elt F) → (⟨S50000x128, .f32⟩ : BufTy).Contents (Elt F)),
    unary main_v50 main_v53 ((extractStridedSlice S50000x128 ![0, 256] · slices_S50000x512_S50000x128_0_256) : (⟨S50000x512, .f32⟩ : BufTy).Contents (Elt F) → (⟨S50000x128, .f32⟩ : BufTy).Contents (Elt F)),
    unary main_v50 main_v54 ((extractStridedSlice S50000x128 ![0, 384] · slices_S50000x512_S50000x128_0_384) : (⟨S50000x512, .f32⟩ : BufTy).Contents (Elt F) → (⟨S50000x128, .f32⟩ : BufTy).Contents (Elt F)),
    unary main_v51 main_v55 (Host.negf : (⟨S50000x128, .f32⟩ : BufTy).Contents (Elt F) → (⟨S50000x128, .f32⟩ : BufTy).Contents (Elt F)),
    unary main_v55 main_v56 (Host.exp : (⟨S50000x128, .f32⟩ : BufTy).Contents (Elt F) → (⟨S50000x128, .f32⟩ : BufTy).Contents (Elt F)),
    nullary main_cst_5 (constant S_ .f32 0x3F800000#32),
    unary main_cst_5 main_v57 (broadcastInDim S50000x128 ![] bcast_S_S50000x128 : (⟨S_, .f32⟩ : BufTy).Contents (Elt F) → (⟨S50000x128, .f32⟩ : BufTy).Contents (Elt F)),
    binary main_v57 main_v56 main_v58 (addf : (⟨S50000x128, .f32⟩ : BufTy).Contents (Elt F) → (⟨S50000x128, .f32⟩ : BufTy).Contents (Elt F) → (⟨S50000x128, .f32⟩ : BufTy).Contents (Elt F)),
    nullary main_cst_6 (constant S_ .f32 0x3F800000#32),
    unary main_cst_6 main_v59 (broadcastInDim S50000x128 ![] bcast_S_S50000x128 : (⟨S_, .f32⟩ : BufTy).Contents (Elt F) → (⟨S50000x128, .f32⟩ : BufTy).Contents (Elt F)),
    binary main_v59 main_v58 main_v60 (Host.divf : (⟨S50000x128, .f32⟩ : BufTy).Contents (Elt F) → (⟨S50000x128, .f32⟩ : BufTy).Contents (Elt F) → (⟨S50000x128, .f32⟩ : BufTy).Contents (Elt F)),
    unary main_v53 main_v61 (Host.tanh : (⟨S50000x128, .f32⟩ : BufTy).Contents (Elt F) → (⟨S50000x128, .f32⟩ : BufTy).Contents (Elt F)),
    binary main_v60 main_v61 main_v62 (mulf : (⟨S50000x128, .f32⟩ : BufTy).Contents (Elt F) → (⟨S50000x128, .f32⟩ : BufTy).Contents (Elt F) → (⟨S50000x128, .f32⟩ : BufTy).Contents (Elt F)),
    unary main_v54 main_v63 (Host.negf : (⟨S50000x128, .f32⟩ : BufTy).Contents (Elt F) → (⟨S50000x128, .f32⟩ : BufTy).Contents (Elt F)),
    unary main_v63 main_v64 (Host.exp : (⟨S50000x128, .f32⟩ : BufTy).Contents (Elt F) → (⟨S50000x128, .f32⟩ : BufTy).Contents (Elt F)),
    nullary main_cst_7 (constant S_ .f32 0x3F800000#32),
    unary main_cst_7 main_v65 (broadcastInDim S50000x128 ![] bcast_S_S50000x128 : (⟨S_, .f32⟩ : BufTy).Contents (Elt F) → (⟨S50000x128, .f32⟩ : BufTy).Contents (Elt F)),
    binary main_v65 main_v64 main_v66 (addf : (⟨S50000x128, .f32⟩ : BufTy).Contents (Elt F) → (⟨S50000x128, .f32⟩ : BufTy).Contents (Elt F) → (⟨S50000x128, .f32⟩ : BufTy).Contents (Elt F)),
    nullary main_cst_8 (constant S_ .f32 0x3F800000#32),
    unary main_cst_8 main_v67 (broadcastInDim S50000x128 ![] bcast_S_S50000x128 : (⟨S_, .f32⟩ : BufTy).Contents (Elt F) → (⟨S50000x128, .f32⟩ : BufTy).Contents (Elt F)),
    binary main_v67 main_v66 main_v68 (Host.divf : (⟨S50000x128, .f32⟩ : BufTy).Contents (Elt F) → (⟨S50000x128, .f32⟩ : BufTy).Contents (Elt F) → (⟨S50000x128, .f32⟩ : BufTy).Contents (Elt F)),
    unary main_v62 main_v69 (Host.tanh : (⟨S50000x128, .f32⟩ : BufTy).Contents (Elt F) → (⟨S50000x128, .f32⟩ : BufTy).Contents (Elt F)),
    binary main_v68 main_v69 main_v70 (mulf : (⟨S50000x128, .f32⟩ : BufTy).Contents (Elt F) → (⟨S50000x128, .f32⟩ : BufTy).Contents (Elt F) → (⟨S50000x128, .f32⟩ : BufTy).Contents (Elt F)),
    unary main_arg3 main_v71 ((extractStridedSlice S1x800000 ![0, 0] · slices_S2x800000_S1x800000_0_0) : (⟨S2x800000, .i32⟩ : BufTy).Contents (Elt F) → (⟨S1x800000, .i32⟩ : BufTy).Contents (Elt F)),
    reshape main_v71 main_v72 rfl shapeCasts_S1x800000_S800000,
    unary main_arg3 main_v73 ((extractStridedSlice S1x800000 ![1, 0] · slices_S2x800000_S1x800000_1_0) : (⟨S2x800000, .i32⟩ : BufTy).Contents (Elt F) → (⟨S1x800000, .i32⟩ : BufTy).Contents (Elt F)),
    reshape main_v73 main_v74 rfl shapeCasts_S1x800000_S800000,
    nullary main_c_9 (constantI S_ 32 0#32),
    unary main_c_9 main_v75 (broadcastInDim S800000 ![] bcast_S_S800000 : (⟨S_, .i32⟩ : BufTy).Contents (Elt F) → (⟨S800000, .i32⟩ : BufTy).Contents (Elt F)),
    binary main_v72 main_v75 main_v76 (cmpi .slt : (⟨S800000, .i32⟩ : BufTy).Contents (Elt F) → (⟨S800000, .i32⟩ : BufTy).Contents (Elt F) → (⟨S800000, .i1⟩ : BufTy).Contents (Elt F)),
    nullary main_c_10 (constantI S_ 32 50000#32),
    unary main_c_10 main_v77 (broadcastInDim S800000 ![] bcast_S_S800000 : (⟨S_, .i32⟩ : BufTy).Contents (Elt F) → (⟨S800000, .i32⟩ : BufTy).Contents (Elt F)),
    binary main_v72 main_v77 main_v78 (addi : (⟨S800000, .i32⟩ : BufTy).Contents (Elt F) → (⟨S800000, .i32⟩ : BufTy).Contents (Elt F) → (⟨S800000, .i32⟩ : BufTy).Contents (Elt F)),
    ternary main_v76 main_v78 main_v72 main_v79 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v79 main_v80 (broadcastInDim S800000x1 ![0] bcast_S800000_S800000x1_0 : (⟨S800000, .i32⟩ : BufTy).Contents (Elt F) → (⟨S800000x1, .i32⟩ : BufTy).Contents (Elt F)),
    binary main_v70 main_v80 main_v81 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_11 (constant S_ .f32 0x00000000#32),
    unary main_cst_11 main_v82 (broadcastInDim S50000x128 ![] bcast_S_S50000x128 : (⟨S_, .f32⟩ : BufTy).Contents (Elt F) → (⟨S50000x128, .f32⟩ : BufTy).Contents (Elt F)),
    unary main_v74 main_v83 (broadcastInDim S800000x1 ![0] bcast_S800000_S800000x1_0 : (⟨S800000, .i32⟩ : BufTy).Contents (Elt F) → (⟨S800000x1, .i32⟩ : BufTy).Contents (Elt F)),
    ternary main_v82 main_v83 main_v81 main_v84 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_arg0 main_v84 main_v85 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    unary main_arg10 main_v86 ((transpose S256x128 [1, 0] · transposes_S128x256_S256x128_1_0) : (⟨S128x256, .f32⟩ : BufTy).Contents (Elt F) → (⟨S256x128, .f32⟩ : BufTy).Contents (Elt F)),
    binary main_v85 main_v86 main_v87 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg11 main_v88 (broadcastInDim S1x128 ![1] bcast_S128_S1x128_1 : (⟨S128, .f32⟩ : BufTy).Contents (Elt F) → (⟨S1x128, .f32⟩ : BufTy).Contents (Elt F)),
    unary main_v88 main_v89 (broadcastInDim S50000x128 ![0, 1] bcast_S1x128_S50000x128_0_1 : (⟨S1x128, .f32⟩ : BufTy).Contents (Elt F) → (⟨S50000x128, .f32⟩ : BufTy).Contents (Elt F)),
    binary main_v87 main_v89 main_v90 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v90) (TRef.of (T := ⟨S50000x128, .f32⟩) main_call1_v0) (TRef.of (T := ⟨S50000x128, .f32⟩) main_v91) maximumf,
    unary main_v91 main_v92 (broadcastInDim S1x50000x128 ![1, 2] bcast_S50000x128_S1x50000x128_1_2 : (⟨S50000x128, .f32⟩ : BufTy).Contents (Elt F) → (⟨S1x50000x128, .f32⟩ : BufTy).Contents (Elt F)),
    unary main_v45 main_v93 (broadcastInDim S1x50000x128 ![1, 2] bcast_S50000x128_S1x50000x128_1_2 : (⟨S50000x128, .f32⟩ : BufTy).Contents (Elt F) → (⟨S1x50000x128, .f32⟩ : BufTy).Contents (Elt F)),
    binary main_v92 main_v93 main_v94 ((fun a b => concatenate S2x50000x128 0 [⟨S1x50000x128, a⟩, ⟨S1x50000x128, b⟩] concatenates_S1x50000x128_S1x50000x128_S2x50000x128_d0) : (⟨S1x50000x128, .f32⟩ : BufTy).Contents (Elt F) → (⟨S1x50000x128, .f32⟩ : BufTy).Contents (Elt F) → (⟨S2x50000x128, .f32⟩ : BufTy).Contents (Elt F)) ]

/-- Stretch A: operations ending in `main_v24`. -/
def opsA : List (HloOp τ sig (Elt F)) :=
  [ unary main_arg4 main_v0 ((transpose S128x512 [1, 0] · transposes_S512x128_S128x512_1_0) : (⟨S512x128, .f32⟩ : BufTy).Contents (Elt F) → (⟨S128x512, .f32⟩ : BufTy).Contents (Elt F)),
    binary main_arg0 main_v0 main_v1 ((fun l r => Host.dotGeneral dot_S50000x128_S128x512_S50000x512_1_0_0_1_n_n none l r) : (⟨S50000x128, .f32⟩ : BufTy).Contents (Elt F) → (⟨S128x512, .f32⟩ : BufTy).Contents (Elt F) → (⟨S50000x512, .f32⟩ : BufTy).Contents (Elt F)),
    unary main_arg5 main_v2 (broadcastInDim S1x512 ![1] bcast_S512_S1x512_1 : (⟨S512, .f32⟩ : BufTy).Contents (Elt F) → (⟨S1x512, .f32⟩ : BufTy).Contents (Elt F)),
    unary main_v2 main_v3 (broadcastInDim S50000x512 ![0, 1] bcast_S1x512_S50000x512_0_1 : (⟨S1x512, .f32⟩ : BufTy).Contents (Elt F) → (⟨S50000x512, .f32⟩ : BufTy).Contents (Elt F)),
    binary main_v1 main_v3 main_v4 (addf : (⟨S50000x512, .f32⟩ : BufTy).Contents (Elt F) → (⟨S50000x512, .f32⟩ : BufTy).Contents (Elt F) → (⟨S50000x512, .f32⟩ : BufTy).Contents (Elt F)),
    unary main_v4 main_v5 ((extractStridedSlice S50000x128 ![0, 0] · slices_S50000x512_S50000x128_0_0) : (⟨S50000x512, .f32⟩ : BufTy).Contents (Elt F) → (⟨S50000x128, .f32⟩ : BufTy).Contents (Elt F)),
    unary main_v4 main_v6 ((extractStridedSlice S50000x128 ![0, 128] · slices_S50000x512_S50000x128_0_128) : (⟨S50000x512, .f32⟩ : BufTy).Contents (Elt F) → (⟨S50000x128, .f32⟩ : BufTy).Contents (Elt F)),
    unary main_v4 main_v7 ((extractStridedSlice S50000x128 ![0, 256] · slices_S50000x512_S50000x128_0_256) : (⟨S50000x512, .f32⟩ : BufTy).Contents (Elt F) → (⟨S50000x128, .f32⟩ : BufTy).Contents (Elt F)),
    unary main_v4 main_v8 ((extractStridedSlice S50000x128 ![0, 384] · slices_S50000x512_S50000x128_0_384) : (⟨S50000x512, .f32⟩ : BufTy).Contents (Elt F) → (⟨S50000x128, .f32⟩ : BufTy).Contents (Elt F)),
    unary main_v5 main_v9 (Host.negf : (⟨S50000x128, .f32⟩ : BufTy).Contents (Elt F) → (⟨S50000x128, .f32⟩ : BufTy).Contents (Elt F)),
    unary main_v9 main_v10 (Host.exp : (⟨S50000x128, .f32⟩ : BufTy).Contents (Elt F) → (⟨S50000x128, .f32⟩ : BufTy).Contents (Elt F)),
    nullary main_cst (constant S_ .f32 0x3F800000#32),
    unary main_cst main_v11 (broadcastInDim S50000x128 ![] bcast_S_S50000x128 : (⟨S_, .f32⟩ : BufTy).Contents (Elt F) → (⟨S50000x128, .f32⟩ : BufTy).Contents (Elt F)),
    binary main_v11 main_v10 main_v12 (addf : (⟨S50000x128, .f32⟩ : BufTy).Contents (Elt F) → (⟨S50000x128, .f32⟩ : BufTy).Contents (Elt F) → (⟨S50000x128, .f32⟩ : BufTy).Contents (Elt F)),
    nullary main_cst_0 (constant S_ .f32 0x3F800000#32),
    unary main_cst_0 main_v13 (broadcastInDim S50000x128 ![] bcast_S_S50000x128 : (⟨S_, .f32⟩ : BufTy).Contents (Elt F) → (⟨S50000x128, .f32⟩ : BufTy).Contents (Elt F)),
    binary main_v13 main_v12 main_v14 (Host.divf : (⟨S50000x128, .f32⟩ : BufTy).Contents (Elt F) → (⟨S50000x128, .f32⟩ : BufTy).Contents (Elt F) → (⟨S50000x128, .f32⟩ : BufTy).Contents (Elt F)),
    unary main_v7 main_v15 (Host.tanh : (⟨S50000x128, .f32⟩ : BufTy).Contents (Elt F) → (⟨S50000x128, .f32⟩ : BufTy).Contents (Elt F)),
    binary main_v14 main_v15 main_v16 (mulf : (⟨S50000x128, .f32⟩ : BufTy).Contents (Elt F) → (⟨S50000x128, .f32⟩ : BufTy).Contents (Elt F) → (⟨S50000x128, .f32⟩ : BufTy).Contents (Elt F)),
    unary main_v8 main_v17 (Host.negf : (⟨S50000x128, .f32⟩ : BufTy).Contents (Elt F) → (⟨S50000x128, .f32⟩ : BufTy).Contents (Elt F)),
    unary main_v17 main_v18 (Host.exp : (⟨S50000x128, .f32⟩ : BufTy).Contents (Elt F) → (⟨S50000x128, .f32⟩ : BufTy).Contents (Elt F)),
    nullary main_cst_1 (constant S_ .f32 0x3F800000#32),
    unary main_cst_1 main_v19 (broadcastInDim S50000x128 ![] bcast_S_S50000x128 : (⟨S_, .f32⟩ : BufTy).Contents (Elt F) → (⟨S50000x128, .f32⟩ : BufTy).Contents (Elt F)),
    binary main_v19 main_v18 main_v20 (addf : (⟨S50000x128, .f32⟩ : BufTy).Contents (Elt F) → (⟨S50000x128, .f32⟩ : BufTy).Contents (Elt F) → (⟨S50000x128, .f32⟩ : BufTy).Contents (Elt F)),
    nullary main_cst_2 (constant S_ .f32 0x3F800000#32),
    unary main_cst_2 main_v21 (broadcastInDim S50000x128 ![] bcast_S_S50000x128 : (⟨S_, .f32⟩ : BufTy).Contents (Elt F) → (⟨S50000x128, .f32⟩ : BufTy).Contents (Elt F)),
    binary main_v21 main_v20 main_v22 (Host.divf : (⟨S50000x128, .f32⟩ : BufTy).Contents (Elt F) → (⟨S50000x128, .f32⟩ : BufTy).Contents (Elt F) → (⟨S50000x128, .f32⟩ : BufTy).Contents (Elt F)),
    unary main_v16 main_v23 (Host.tanh : (⟨S50000x128, .f32⟩ : BufTy).Contents (Elt F) → (⟨S50000x128, .f32⟩ : BufTy).Contents (Elt F)),
    binary main_v22 main_v23 main_v24 (mulf : (⟨S50000x128, .f32⟩ : BufTy).Contents (Elt F) → (⟨S50000x128, .f32⟩ : BufTy).Contents (Elt F) → (⟨S50000x128, .f32⟩ : BufTy).Contents (Elt F)) ]
/-- The references stretch A writes. -/
abbrev WA : List (Ref sig .tc) := [main_v0, main_v1, main_v2, main_v3, main_v4, main_v5, main_v6, main_v7, main_v8, main_v9, main_v10, main_cst, main_v11, main_v12, main_cst_0, main_v13, main_v14, main_v15, main_v16, main_v17, main_v18, main_cst_1, main_v19, main_v20, main_cst_2, main_v21, main_v22, main_v23, main_v24]
theorem opsA_writes : (opsA : List (HloOp τ sig (Elt F))).Forall fun op => op.writes ⊆ (WA.map (Proc.devRef (τ := τ) .tc)).toFinset := by
  unfold opsA
  simp only [List.Forall]
  repeat' apply And.intro
  all_goals
    simp only [nullary_writes, unary_writes, binary_writes, ternary_writes, quaternary_writes, reshape_writes, binaryIndexed_writes, unaryIndexed_writes, nary_writes, Finset.singleton_subset_iff, List.mem_toFinset]
    exact List.mem_map_of_mem (by decide)
/-- A buffer stretch A does not write is as the stretch found it. -/
theorem keepA (V : Valuation τ sig (Elt F)) (r : Ref sig .tc) (h : r ∉ WA) : after opsA V (Proc.devRef .tc r) = V (Proc.devRef .tc r) :=
  after_of_writes_sub opsA V opsA_writes h

/-- Stretch B: operations ending in `main_v38`. -/
def opsB : List (HloOp τ sig (Elt F)) :=
  [ unary main_arg2 main_v25 ((extractStridedSlice S1x800000 ![0, 0] · slices_S2x800000_S1x800000_0_0) : (⟨S2x800000, .i32⟩ : BufTy).Contents (Elt F) → (⟨S1x800000, .i32⟩ : BufTy).Contents (Elt F)),
    reshape main_v25 main_v26 rfl shapeCasts_S1x800000_S800000,
    unary main_arg2 main_v27 ((extractStridedSlice S1x800000 ![1, 0] · slices_S2x800000_S1x800000_1_0) : (⟨S2x800000, .i32⟩ : BufTy).Contents (Elt F) → (⟨S1x800000, .i32⟩ : BufTy).Contents (Elt F)),
    reshape main_v27 main_v28 rfl shapeCasts_S1x800000_S800000,
    nullary main_c (constantI S_ 32 0#32),
    unary main_c main_v29 (broadcastInDim S800000 ![] bcast_S_S800000 : (⟨S_, .i32⟩ : BufTy).Contents (Elt F) → (⟨S800000, .i32⟩ : BufTy).Contents (Elt F)),
    binary main_v26 main_v29 main_v30 (cmpi .slt : (⟨S800000, .i32⟩ : BufTy).Contents (Elt F) → (⟨S800000, .i32⟩ : BufTy).Contents (Elt F) → (⟨S800000, .i1⟩ : BufTy).Contents (Elt F)),
    nullary main_c_3 (constantI S_ 32 50000#32),
    unary main_c_3 main_v31 (broadcastInDim S800000 ![] bcast_S_S800000 : (⟨S_, .i32⟩ : BufTy).Contents (Elt F) → (⟨S800000, .i32⟩ : BufTy).Contents (Elt F)),
    binary main_v26 main_v31 main_v32 (addi : (⟨S800000, .i32⟩ : BufTy).Contents (Elt F) → (⟨S800000, .i32⟩ : BufTy).Contents (Elt F) → (⟨S800000, .i32⟩ : BufTy).Contents (Elt F)),
    ternary main_v30 main_v32 main_v26 main_v33 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v33 main_v34 (broadcastInDim S800000x1 ![0] bcast_S800000_S800000x1_0 : (⟨S800000, .i32⟩ : BufTy).Contents (Elt F) → (⟨S800000x1, .i32⟩ : BufTy).Contents (Elt F)),
    binary main_v24 main_v34 main_v35 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_4 (constant S_ .f32 0x00000000#32),
    unary main_cst_4 main_v36 (broadcastInDim S50000x128 ![] bcast_S_S50000x128 : (⟨S_, .f32⟩ : BufTy).Contents (Elt F) → (⟨S50000x128, .f32⟩ : BufTy).Contents (Elt F)),
    unary main_v28 main_v37 (broadcastInDim S800000x1 ![0] bcast_S800000_S800000x1_0 : (⟨S800000, .i32⟩ : BufTy).Contents (Elt F) → (⟨S800000x1, .i32⟩ : BufTy).Contents (Elt F)),
    ternary main_v36 main_v37 main_v35 main_v38 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) ]
/-- The references stretch B writes. -/
abbrev WB : List (Ref sig .tc) := [main_v25, main_v26, main_v27, main_v28, main_c, main_v29, main_v30, main_c_3, main_v31, main_v32, main_v33, main_v34, main_v35, main_cst_4, main_v36, main_v37, main_v38]
theorem opsB_writes : (opsB : List (HloOp τ sig (Elt F))).Forall fun op => op.writes ⊆ (WB.map (Proc.devRef (τ := τ) .tc)).toFinset := by
  unfold opsB
  simp only [List.Forall]
  repeat' apply And.intro
  all_goals
    simp only [nullary_writes, unary_writes, binary_writes, ternary_writes, quaternary_writes, reshape_writes, binaryIndexed_writes, unaryIndexed_writes, nary_writes, Finset.singleton_subset_iff, List.mem_toFinset]
    exact List.mem_map_of_mem (by decide)
/-- A buffer stretch B does not write is as the stretch found it. -/
theorem keepB (V : Valuation τ sig (Elt F)) (r : Ref sig .tc) (h : r ∉ WB) : after opsB V (Proc.devRef .tc r) = V (Proc.devRef .tc r) :=
  after_of_writes_sub opsB V opsB_writes h

/-- Stretch C: operations ending in `main_v45`. -/
def opsC : List (HloOp τ sig (Elt F)) :=
  [ binary main_arg1 main_v38 main_v39 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    unary main_arg6 main_v40 ((transpose S256x128 [1, 0] · transposes_S128x256_S256x128_1_0) : (⟨S128x256, .f32⟩ : BufTy).Contents (Elt F) → (⟨S256x128, .f32⟩ : BufTy).Contents (Elt F)),
    binary main_v39 main_v40 main_v41 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg7 main_v42 (broadcastInDim S1x128 ![1] bcast_S128_S1x128_1 : (⟨S128, .f32⟩ : BufTy).Contents (Elt F) → (⟨S1x128, .f32⟩ : BufTy).Contents (Elt F)),
    unary main_v42 main_v43 (broadcastInDim S50000x128 ![0, 1] bcast_S1x128_S50000x128_0_1 : (⟨S1x128, .f32⟩ : BufTy).Contents (Elt F) → (⟨S50000x128, .f32⟩ : BufTy).Contents (Elt F)),
    binary main_v41 main_v43 main_v44 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v44) (TRef.of (T := ⟨S50000x128, .f32⟩) main_call0_v0) (TRef.of (T := ⟨S50000x128, .f32⟩) main_v45) maximumf ]
/-- The references stretch C writes. -/
abbrev WC : List (Ref sig .tc) := [main_v39, main_v40, main_v41, main_v42, main_v43, main_v44, main_call0_cst, main_call0_v0, main_v45]
theorem opsC_writes : (opsC : List (HloOp τ sig (Elt F))).Forall fun op => op.writes ⊆ (WC.map (Proc.devRef (τ := τ) .tc)).toFinset := by
  unfold opsC
  simp only [List.Forall]
  repeat' apply And.intro
  all_goals
    simp only [nullary_writes, unary_writes, binary_writes, ternary_writes, quaternary_writes, reshape_writes, binaryIndexed_writes, unaryIndexed_writes, nary_writes, Finset.singleton_subset_iff, List.mem_toFinset]
    exact List.mem_map_of_mem (by decide)
/-- A buffer stretch C does not write is as the stretch found it. -/
theorem keepC (V : Valuation τ sig (Elt F)) (r : Ref sig .tc) (h : r ∉ WC) : after opsC V (Proc.devRef .tc r) = V (Proc.devRef .tc r) :=
  after_of_writes_sub opsC V opsC_writes h

/-- Stretch D: operations ending in `main_v70`. -/
def opsD : List (HloOp τ sig (Elt F)) :=
  [ unary main_arg8 main_v46 ((transpose S128x512 [1, 0] · transposes_S512x128_S128x512_1_0) : (⟨S512x128, .f32⟩ : BufTy).Contents (Elt F) → (⟨S128x512, .f32⟩ : BufTy).Contents (Elt F)),
    binary main_arg1 main_v46 main_v47 ((fun l r => Host.dotGeneral dot_S50000x128_S128x512_S50000x512_1_0_0_1_n_n none l r) : (⟨S50000x128, .f32⟩ : BufTy).Contents (Elt F) → (⟨S128x512, .f32⟩ : BufTy).Contents (Elt F) → (⟨S50000x512, .f32⟩ : BufTy).Contents (Elt F)),
    unary main_arg9 main_v48 (broadcastInDim S1x512 ![1] bcast_S512_S1x512_1 : (⟨S512, .f32⟩ : BufTy).Contents (Elt F) → (⟨S1x512, .f32⟩ : BufTy).Contents (Elt F)),
    unary main_v48 main_v49 (broadcastInDim S50000x512 ![0, 1] bcast_S1x512_S50000x512_0_1 : (⟨S1x512, .f32⟩ : BufTy).Contents (Elt F) → (⟨S50000x512, .f32⟩ : BufTy).Contents (Elt F)),
    binary main_v47 main_v49 main_v50 (addf : (⟨S50000x512, .f32⟩ : BufTy).Contents (Elt F) → (⟨S50000x512, .f32⟩ : BufTy).Contents (Elt F) → (⟨S50000x512, .f32⟩ : BufTy).Contents (Elt F)),
    unary main_v50 main_v51 ((extractStridedSlice S50000x128 ![0, 0] · slices_S50000x512_S50000x128_0_0) : (⟨S50000x512, .f32⟩ : BufTy).Contents (Elt F) → (⟨S50000x128, .f32⟩ : BufTy).Contents (Elt F)),
    unary main_v50 main_v52 ((extractStridedSlice S50000x128 ![0, 128] · slices_S50000x512_S50000x128_0_128) : (⟨S50000x512, .f32⟩ : BufTy).Contents (Elt F) → (⟨S50000x128, .f32⟩ : BufTy).Contents (Elt F)),
    unary main_v50 main_v53 ((extractStridedSlice S50000x128 ![0, 256] · slices_S50000x512_S50000x128_0_256) : (⟨S50000x512, .f32⟩ : BufTy).Contents (Elt F) → (⟨S50000x128, .f32⟩ : BufTy).Contents (Elt F)),
    unary main_v50 main_v54 ((extractStridedSlice S50000x128 ![0, 384] · slices_S50000x512_S50000x128_0_384) : (⟨S50000x512, .f32⟩ : BufTy).Contents (Elt F) → (⟨S50000x128, .f32⟩ : BufTy).Contents (Elt F)),
    unary main_v51 main_v55 (Host.negf : (⟨S50000x128, .f32⟩ : BufTy).Contents (Elt F) → (⟨S50000x128, .f32⟩ : BufTy).Contents (Elt F)),
    unary main_v55 main_v56 (Host.exp : (⟨S50000x128, .f32⟩ : BufTy).Contents (Elt F) → (⟨S50000x128, .f32⟩ : BufTy).Contents (Elt F)),
    nullary main_cst_5 (constant S_ .f32 0x3F800000#32),
    unary main_cst_5 main_v57 (broadcastInDim S50000x128 ![] bcast_S_S50000x128 : (⟨S_, .f32⟩ : BufTy).Contents (Elt F) → (⟨S50000x128, .f32⟩ : BufTy).Contents (Elt F)),
    binary main_v57 main_v56 main_v58 (addf : (⟨S50000x128, .f32⟩ : BufTy).Contents (Elt F) → (⟨S50000x128, .f32⟩ : BufTy).Contents (Elt F) → (⟨S50000x128, .f32⟩ : BufTy).Contents (Elt F)),
    nullary main_cst_6 (constant S_ .f32 0x3F800000#32),
    unary main_cst_6 main_v59 (broadcastInDim S50000x128 ![] bcast_S_S50000x128 : (⟨S_, .f32⟩ : BufTy).Contents (Elt F) → (⟨S50000x128, .f32⟩ : BufTy).Contents (Elt F)),
    binary main_v59 main_v58 main_v60 (Host.divf : (⟨S50000x128, .f32⟩ : BufTy).Contents (Elt F) → (⟨S50000x128, .f32⟩ : BufTy).Contents (Elt F) → (⟨S50000x128, .f32⟩ : BufTy).Contents (Elt F)),
    unary main_v53 main_v61 (Host.tanh : (⟨S50000x128, .f32⟩ : BufTy).Contents (Elt F) → (⟨S50000x128, .f32⟩ : BufTy).Contents (Elt F)),
    binary main_v60 main_v61 main_v62 (mulf : (⟨S50000x128, .f32⟩ : BufTy).Contents (Elt F) → (⟨S50000x128, .f32⟩ : BufTy).Contents (Elt F) → (⟨S50000x128, .f32⟩ : BufTy).Contents (Elt F)),
    unary main_v54 main_v63 (Host.negf : (⟨S50000x128, .f32⟩ : BufTy).Contents (Elt F) → (⟨S50000x128, .f32⟩ : BufTy).Contents (Elt F)),
    unary main_v63 main_v64 (Host.exp : (⟨S50000x128, .f32⟩ : BufTy).Contents (Elt F) → (⟨S50000x128, .f32⟩ : BufTy).Contents (Elt F)),
    nullary main_cst_7 (constant S_ .f32 0x3F800000#32),
    unary main_cst_7 main_v65 (broadcastInDim S50000x128 ![] bcast_S_S50000x128 : (⟨S_, .f32⟩ : BufTy).Contents (Elt F) → (⟨S50000x128, .f32⟩ : BufTy).Contents (Elt F)),
    binary main_v65 main_v64 main_v66 (addf : (⟨S50000x128, .f32⟩ : BufTy).Contents (Elt F) → (⟨S50000x128, .f32⟩ : BufTy).Contents (Elt F) → (⟨S50000x128, .f32⟩ : BufTy).Contents (Elt F)),
    nullary main_cst_8 (constant S_ .f32 0x3F800000#32),
    unary main_cst_8 main_v67 (broadcastInDim S50000x128 ![] bcast_S_S50000x128 : (⟨S_, .f32⟩ : BufTy).Contents (Elt F) → (⟨S50000x128, .f32⟩ : BufTy).Contents (Elt F)),
    binary main_v67 main_v66 main_v68 (Host.divf : (⟨S50000x128, .f32⟩ : BufTy).Contents (Elt F) → (⟨S50000x128, .f32⟩ : BufTy).Contents (Elt F) → (⟨S50000x128, .f32⟩ : BufTy).Contents (Elt F)),
    unary main_v62 main_v69 (Host.tanh : (⟨S50000x128, .f32⟩ : BufTy).Contents (Elt F) → (⟨S50000x128, .f32⟩ : BufTy).Contents (Elt F)),
    binary main_v68 main_v69 main_v70 (mulf : (⟨S50000x128, .f32⟩ : BufTy).Contents (Elt F) → (⟨S50000x128, .f32⟩ : BufTy).Contents (Elt F) → (⟨S50000x128, .f32⟩ : BufTy).Contents (Elt F)) ]
/-- The references stretch D writes. -/
abbrev WD : List (Ref sig .tc) := [main_v46, main_v47, main_v48, main_v49, main_v50, main_v51, main_v52, main_v53, main_v54, main_v55, main_v56, main_cst_5, main_v57, main_v58, main_cst_6, main_v59, main_v60, main_v61, main_v62, main_v63, main_v64, main_cst_7, main_v65, main_v66, main_cst_8, main_v67, main_v68, main_v69, main_v70]
theorem opsD_writes : (opsD : List (HloOp τ sig (Elt F))).Forall fun op => op.writes ⊆ (WD.map (Proc.devRef (τ := τ) .tc)).toFinset := by
  unfold opsD
  simp only [List.Forall]
  repeat' apply And.intro
  all_goals
    simp only [nullary_writes, unary_writes, binary_writes, ternary_writes, quaternary_writes, reshape_writes, binaryIndexed_writes, unaryIndexed_writes, nary_writes, Finset.singleton_subset_iff, List.mem_toFinset]
    exact List.mem_map_of_mem (by decide)
/-- A buffer stretch D does not write is as the stretch found it. -/
theorem keepD (V : Valuation τ sig (Elt F)) (r : Ref sig .tc) (h : r ∉ WD) : after opsD V (Proc.devRef .tc r) = V (Proc.devRef .tc r) :=
  after_of_writes_sub opsD V opsD_writes h

/-- Stretch E: operations ending in `main_v84`. -/
def opsE : List (HloOp τ sig (Elt F)) :=
  [ unary main_arg3 main_v71 ((extractStridedSlice S1x800000 ![0, 0] · slices_S2x800000_S1x800000_0_0) : (⟨S2x800000, .i32⟩ : BufTy).Contents (Elt F) → (⟨S1x800000, .i32⟩ : BufTy).Contents (Elt F)),
    reshape main_v71 main_v72 rfl shapeCasts_S1x800000_S800000,
    unary main_arg3 main_v73 ((extractStridedSlice S1x800000 ![1, 0] · slices_S2x800000_S1x800000_1_0) : (⟨S2x800000, .i32⟩ : BufTy).Contents (Elt F) → (⟨S1x800000, .i32⟩ : BufTy).Contents (Elt F)),
    reshape main_v73 main_v74 rfl shapeCasts_S1x800000_S800000,
    nullary main_c_9 (constantI S_ 32 0#32),
    unary main_c_9 main_v75 (broadcastInDim S800000 ![] bcast_S_S800000 : (⟨S_, .i32⟩ : BufTy).Contents (Elt F) → (⟨S800000, .i32⟩ : BufTy).Contents (Elt F)),
    binary main_v72 main_v75 main_v76 (cmpi .slt : (⟨S800000, .i32⟩ : BufTy).Contents (Elt F) → (⟨S800000, .i32⟩ : BufTy).Contents (Elt F) → (⟨S800000, .i1⟩ : BufTy).Contents (Elt F)),
    nullary main_c_10 (constantI S_ 32 50000#32),
    unary main_c_10 main_v77 (broadcastInDim S800000 ![] bcast_S_S800000 : (⟨S_, .i32⟩ : BufTy).Contents (Elt F) → (⟨S800000, .i32⟩ : BufTy).Contents (Elt F)),
    binary main_v72 main_v77 main_v78 (addi : (⟨S800000, .i32⟩ : BufTy).Contents (Elt F) → (⟨S800000, .i32⟩ : BufTy).Contents (Elt F) → (⟨S800000, .i32⟩ : BufTy).Contents (Elt F)),
    ternary main_v76 main_v78 main_v72 main_v79 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v79 main_v80 (broadcastInDim S800000x1 ![0] bcast_S800000_S800000x1_0 : (⟨S800000, .i32⟩ : BufTy).Contents (Elt F) → (⟨S800000x1, .i32⟩ : BufTy).Contents (Elt F)),
    binary main_v70 main_v80 main_v81 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_11 (constant S_ .f32 0x00000000#32),
    unary main_cst_11 main_v82 (broadcastInDim S50000x128 ![] bcast_S_S50000x128 : (⟨S_, .f32⟩ : BufTy).Contents (Elt F) → (⟨S50000x128, .f32⟩ : BufTy).Contents (Elt F)),
    unary main_v74 main_v83 (broadcastInDim S800000x1 ![0] bcast_S800000_S800000x1_0 : (⟨S800000, .i32⟩ : BufTy).Contents (Elt F) → (⟨S800000x1, .i32⟩ : BufTy).Contents (Elt F)),
    ternary main_v82 main_v83 main_v81 main_v84 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) ]
/-- The references stretch E writes. -/
abbrev WE : List (Ref sig .tc) := [main_v71, main_v72, main_v73, main_v74, main_c_9, main_v75, main_v76, main_c_10, main_v77, main_v78, main_v79, main_v80, main_v81, main_cst_11, main_v82, main_v83, main_v84]
theorem opsE_writes : (opsE : List (HloOp τ sig (Elt F))).Forall fun op => op.writes ⊆ (WE.map (Proc.devRef (τ := τ) .tc)).toFinset := by
  unfold opsE
  simp only [List.Forall]
  repeat' apply And.intro
  all_goals
    simp only [nullary_writes, unary_writes, binary_writes, ternary_writes, quaternary_writes, reshape_writes, binaryIndexed_writes, unaryIndexed_writes, nary_writes, Finset.singleton_subset_iff, List.mem_toFinset]
    exact List.mem_map_of_mem (by decide)
/-- A buffer stretch E does not write is as the stretch found it. -/
theorem keepE (V : Valuation τ sig (Elt F)) (r : Ref sig .tc) (h : r ∉ WE) : after opsE V (Proc.devRef .tc r) = V (Proc.devRef .tc r) :=
  after_of_writes_sub opsE V opsE_writes h

/-- Stretch F: operations ending in `main_v91`. -/
def opsF : List (HloOp τ sig (Elt F)) :=
  [ binary main_arg0 main_v84 main_v85 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    unary main_arg10 main_v86 ((transpose S256x128 [1, 0] · transposes_S128x256_S256x128_1_0) : (⟨S128x256, .f32⟩ : BufTy).Contents (Elt F) → (⟨S256x128, .f32⟩ : BufTy).Contents (Elt F)),
    binary main_v85 main_v86 main_v87 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg11 main_v88 (broadcastInDim S1x128 ![1] bcast_S128_S1x128_1 : (⟨S128, .f32⟩ : BufTy).Contents (Elt F) → (⟨S1x128, .f32⟩ : BufTy).Contents (Elt F)),
    unary main_v88 main_v89 (broadcastInDim S50000x128 ![0, 1] bcast_S1x128_S50000x128_0_1 : (⟨S1x128, .f32⟩ : BufTy).Contents (Elt F) → (⟨S50000x128, .f32⟩ : BufTy).Contents (Elt F)),
    binary main_v87 main_v89 main_v90 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v90) (TRef.of (T := ⟨S50000x128, .f32⟩) main_call1_v0) (TRef.of (T := ⟨S50000x128, .f32⟩) main_v91) maximumf ]
/-- The references stretch F writes. -/
abbrev WF : List (Ref sig .tc) := [main_v85, main_v86, main_v87, main_v88, main_v89, main_v90, main_call1_cst, main_call1_v0, main_v91]
theorem opsF_writes : (opsF : List (HloOp τ sig (Elt F))).Forall fun op => op.writes ⊆ (WF.map (Proc.devRef (τ := τ) .tc)).toFinset := by
  unfold opsF
  simp only [List.Forall]
  repeat' apply And.intro
  all_goals
    simp only [nullary_writes, unary_writes, binary_writes, ternary_writes, quaternary_writes, reshape_writes, binaryIndexed_writes, unaryIndexed_writes, nary_writes, Finset.singleton_subset_iff, List.mem_toFinset]
    exact List.mem_map_of_mem (by decide)
/-- A buffer stretch F does not write is as the stretch found it. -/
theorem keepF (V : Valuation τ sig (Elt F)) (r : Ref sig .tc) (h : r ∉ WF) : after opsF V (Proc.devRef .tc r) = V (Proc.devRef .tc r) :=
  after_of_writes_sub opsF V opsF_writes h

/-- Stretch G: operations ending in `main_v94`. -/
def opsG : List (HloOp τ sig (Elt F)) :=
  [ unary main_v91 main_v92 (broadcastInDim S1x50000x128 ![1, 2] bcast_S50000x128_S1x50000x128_1_2 : (⟨S50000x128, .f32⟩ : BufTy).Contents (Elt F) → (⟨S1x50000x128, .f32⟩ : BufTy).Contents (Elt F)),
    unary main_v45 main_v93 (broadcastInDim S1x50000x128 ![1, 2] bcast_S50000x128_S1x50000x128_1_2 : (⟨S50000x128, .f32⟩ : BufTy).Contents (Elt F) → (⟨S1x50000x128, .f32⟩ : BufTy).Contents (Elt F)),
    binary main_v92 main_v93 main_v94 ((fun a b => concatenate S2x50000x128 0 [⟨S1x50000x128, a⟩, ⟨S1x50000x128, b⟩] concatenates_S1x50000x128_S1x50000x128_S2x50000x128_d0) : (⟨S1x50000x128, .f32⟩ : BufTy).Contents (Elt F) → (⟨S1x50000x128, .f32⟩ : BufTy).Contents (Elt F) → (⟨S2x50000x128, .f32⟩ : BufTy).Contents (Elt F)) ]
/-- The references stretch G writes. -/
abbrev WG : List (Ref sig .tc) := [main_v92, main_v93, main_v94]
theorem opsG_writes : (opsG : List (HloOp τ sig (Elt F))).Forall fun op => op.writes ⊆ (WG.map (Proc.devRef (τ := τ) .tc)).toFinset := by
  unfold opsG
  simp only [List.Forall]
  repeat' apply And.intro
  all_goals
    simp only [nullary_writes, unary_writes, binary_writes, ternary_writes, quaternary_writes, reshape_writes, binaryIndexed_writes, unaryIndexed_writes, nary_writes, Finset.singleton_subset_iff, List.mem_toFinset]
    exact List.mem_map_of_mem (by decide)
/-- A buffer stretch G does not write is as the stretch found it. -/
theorem keepG (V : Valuation τ sig (Elt F)) (r : Ref sig .tc) (h : r ∉ WG) : after opsG V (Proc.devRef .tc r) = V (Proc.devRef .tc r) :=
  after_of_writes_sub opsG V opsG_writes h

/-- The line is its seven stretches one after the other. -/
theorem allOps_split : (allOps : List (HloOp τ sig (Elt F))) = opsA ++ (opsB ++ (opsC ++ (opsD ++ (opsE ++ (opsF ++ opsG))))) := rfl

/-- The fold over two stretches is the fold over the second of the fold over the first. -/
theorem after_append (l₁ l₂ : List (HloOp τ sig (Elt F))) (V : Valuation τ sig (Elt F)) : after (l₁ ++ l₂) V = after l₂ (after l₁ V) := by
  induction l₁ generalizing V with
  | nil => rfl
  | cons op l ih => simp only [List.cons_append, after_cons, ih]

set_option maxRecDepth 8192 in
set_option maxHeartbeats 4000000 in
theorem main_eq (c : Dev nD) : main (F := F) c = seq allOps := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem allOps_sub : (allOps : List (HloOp τ sig (Elt F))).Forall fun op => op.bufs ⊆ tcRefs τ sig :=
  ⟨unary_bufs_sub .., binary_bufs_sub .., unary_bufs_sub .., unary_bufs_sub .., binary_bufs_sub .., unary_bufs_sub .., unary_bufs_sub .., unary_bufs_sub .., unary_bufs_sub .., unary_bufs_sub .., unary_bufs_sub .., nullary_bufs_sub .., unary_bufs_sub .., binary_bufs_sub .., nullary_bufs_sub .., unary_bufs_sub .., binary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., unary_bufs_sub .., unary_bufs_sub .., unary_bufs_sub .., unary_bufs_sub .., nullary_bufs_sub .., unary_bufs_sub .., binary_bufs_sub .., nullary_bufs_sub .., unary_bufs_sub .., binary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub ..⟩

/-- The references the whole line writes. -/
abbrev Wall : List (Ref sig .tc) := [main_v0, main_v1, main_v2, main_v3, main_v4, main_v5, main_v6, main_v7, main_v8, main_v9, main_v10, main_cst, main_v11, main_v12, main_cst_0, main_v13, main_v14, main_v15, main_v16, main_v17, main_v18, main_cst_1, main_v19, main_v20, main_cst_2, main_v21, main_v22, main_v23, main_v24, main_v25, main_v26, main_v27, main_v28, main_c, main_v29, main_v30, main_c_3, main_v31, main_v32, main_v33, main_v34, main_v35, main_cst_4, main_v36, main_v37, main_v38, main_v39, main_v40, main_v41, main_v42, main_v43, main_v44, main_call0_cst, main_call0_v0, main_v45, main_v46, main_v47, main_v48, main_v49, main_v50, main_v51, main_v52, main_v53, main_v54, main_v55, main_v56, main_cst_5, main_v57, main_v58, main_cst_6, main_v59, main_v60, main_v61, main_v62, main_v63, main_v64, main_cst_7, main_v65, main_v66, main_cst_8, main_v67, main_v68, main_v69, main_v70, main_v71, main_v72, main_v73, main_v74, main_c_9, main_v75, main_v76, main_c_10, main_v77, main_v78, main_v79, main_v80, main_v81, main_cst_11, main_v82, main_v83, main_v84, main_v85, main_v86, main_v87, main_v88, main_v89, main_v90, main_call1_cst, main_call1_v0, main_v91, main_v92, main_v93, main_v94]
set_option maxRecDepth 8192 in
theorem allOps_writes : (allOps : List (HloOp τ sig (Elt F))).Forall fun op => op.writes ⊆ (Wall.map (Proc.devRef (τ := τ) .tc)).toFinset := by
  simp only [List.Forall]
  repeat' apply And.intro
  all_goals
    simp only [nullary_writes, unary_writes, binary_writes, ternary_writes, quaternary_writes, reshape_writes, binaryIndexed_writes, unaryIndexed_writes, nary_writes, Finset.singleton_subset_iff, List.mem_toFinset]
    exact List.mem_map_of_mem (by decide)

/-! ## Each stretch's kept result, at the extended reals -/

theorem resA (V : Valuation τ sig (Elt Ideal)) : after opsA V (Proc.devRef .tc main_v24) = msgTerm (V (Proc.devRef .tc main_arg0)) (V (Proc.devRef .tc main_arg4)) (V (Proc.devRef .tc main_arg5)) := by
  unfold opsA
  after_results
  rfl
theorem resB (V : Valuation τ sig (Elt Ideal)) : after opsB V (Proc.devRef .tc main_v38) = agg (V (Proc.devRef .tc main_v24)) (V (Proc.devRef .tc main_arg2)) := by
  unfold opsB
  after_results
  rfl
theorem resC (V : Valuation τ sig (Elt Ideal)) : after opsC V (Proc.devRef .tc main_v45) = updTerm (V (Proc.devRef .tc main_arg1)) (V (Proc.devRef .tc main_v38)) (V (Proc.devRef .tc main_arg6)) (V (Proc.devRef .tc main_arg7)) := by
  unfold opsC
  after_results
  rfl
theorem resD (V : Valuation τ sig (Elt Ideal)) : after opsD V (Proc.devRef .tc main_v70) = msgTerm (V (Proc.devRef .tc main_arg1)) (V (Proc.devRef .tc main_arg8)) (V (Proc.devRef .tc main_arg9)) := by
  unfold opsD
  after_results
  rfl
theorem resE (V : Valuation τ sig (Elt Ideal)) : after opsE V (Proc.devRef .tc main_v84) = agg (V (Proc.devRef .tc main_v70)) (V (Proc.devRef .tc main_arg3)) := by
  unfold opsE
  after_results
  rfl
theorem resF (V : Valuation τ sig (Elt Ideal)) : after opsF V (Proc.devRef .tc main_v91) = updTerm (V (Proc.devRef .tc main_arg0)) (V (Proc.devRef .tc main_v84)) (V (Proc.devRef .tc main_arg10)) (V (Proc.devRef .tc main_arg11)) := by
  unfold opsF
  after_results
  rfl
theorem resG (V : Valuation τ sig (Elt Ideal)) : after opsG V (Proc.devRef .tc main_v94) = stk (V (Proc.devRef .tc main_v91)) (V (Proc.devRef .tc main_v45)) := by
  unfold opsG
  after_results
  rfl

/-! ## The result, and the run -/

/-- The result buffer after the whole line, from launch memory `m` on device `c`: the specification of the twelve arguments. -/
theorem result (m : (ℓ : Loc nD τ sig) → Buf (Elt Ideal) ℓ) (c : Dev nD) :
    after (allOps (F := Ideal)) (launchContents m c) (Proc.devRef .tc main_v94)
      = Cert.Spec.out agg stk (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  rw [allOps_split, after_append, after_append, after_append, after_append, after_append, after_append]
  rw [resG,
    resF,
    keepF _ main_v45 (by decide),
    resE,
    keepE _ main_arg0 (by decide),
    keepE _ main_arg10 (by decide),
    keepE _ main_arg11 (by decide),
    keepE _ main_v45 (by decide),
    resD,
    keepD _ main_arg3 (by decide),
    keepD _ main_arg0 (by decide),
    keepD _ main_arg10 (by decide),
    keepD _ main_arg11 (by decide),
    keepD _ main_v45 (by decide),
    resC,
    keepC _ main_arg1 (by decide),
    keepC _ main_arg8 (by decide),
    keepC _ main_arg9 (by decide),
    keepC _ main_arg3 (by decide),
    keepC _ main_arg0 (by decide),
    keepC _ main_arg10 (by decide),
    keepC _ main_arg11 (by decide),
    resB,
    keepB _ main_arg1 (by decide),
    keepB _ main_arg6 (by decide),
    keepB _ main_arg7 (by decide),
    keepB _ main_arg8 (by decide),
    keepB _ main_arg9 (by decide),
    keepB _ main_arg3 (by decide),
    keepB _ main_arg0 (by decide),
    keepB _ main_arg10 (by decide),
    keepB _ main_arg11 (by decide),
    resA,
    keepA _ main_arg2 (by decide),
    keepA _ main_arg1 (by decide),
    keepA _ main_arg6 (by decide),
    keepA _ main_arg7 (by decide),
    keepA _ main_arg8 (by decide),
    keepA _ main_arg9 (by decide),
    keepA _ main_arg3 (by decide),
    keepA _ main_arg0 (by decide),
    keepA _ main_arg10 (by decide),
    keepA _ main_arg11 (by decide)]
  exact term_eq _ _ _ _ _ _ _ _ _ _ _ _

/-- An argument buffer is written by no operation of the line. -/
theorem kept (m : (ℓ : Loc nD τ sig) → Buf (Elt Ideal) ℓ) (c : Dev nD) (r : Ref sig .tc) (h : r ∉ Wall) :
    after (allOps (F := Ideal)) (launchContents m c) (Proc.devRef .tc r) = m ((c.tc : Thread nD τ).loc r) :=
  (after_of_writes_sub allOps _ allOps_writes h).trans rfl

/-- THE RUN: every weakly fair execution of the reference terminates with the result buffer at the specification of the
    arguments' launch contents and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v94) = Cert.Spec.out agg stk (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v94).trans (result m c),
      (h c main_arg0).trans (kept m c main_arg0 (by decide)),
      (h c main_arg1).trans (kept m c main_arg1 (by decide)),
      (h c main_arg2).trans (kept m c main_arg2 (by decide)),
      (h c main_arg3).trans (kept m c main_arg3 (by decide)),
      (h c main_arg4).trans (kept m c main_arg4 (by decide)),
      (h c main_arg5).trans (kept m c main_arg5 (by decide)),
      (h c main_arg6).trans (kept m c main_arg6 (by decide)),
      (h c main_arg7).trans (kept m c main_arg7 (by decide)),
      (h c main_arg8).trans (kept m c main_arg8 (by decide)),
      (h c main_arg9).trans (kept m c main_arg9 (by decide)),
      (h c main_arg10).trans (kept m c main_arg10 (by decide)),
      (h c main_arg11).trans (kept m c main_arg11 (by decide))⟩)
    (run_seq scopedRefs_eq scopedSems_eq defs main (fun _ => allOps) main_eq (fun _ => allOps_sub) m ρ)

end Cert.RefRun

end
-- ==== Proof.lean ====
/-
  The certificate: a two-relation graph message-passing layer (per relation: one-step LSTM-cell messages, gathered along
  the edges and added up per target node, then a linear update of the targets clamped at zero) computed by four pipelined
  kernel regions among host operations, against the same layer written with whole-array operations.

  The frames. The kernel program is five host stretches around four regions whose bodies load whole blocks, compute one
  value and store it whole; its run is assembled region by region (Proof/KFrame.lean for the printed program at the
  bit-exact instance, Proof/KIFrame.lean for its idealization; both state the run at any float instance), ending with every
  buffer at a fold of the launch memory in which no item writes an argument. The reference has no kernel: its frame is its
  run with the result dropped.

  Preservation. The idealization rewrote no operation, so there is nothing to preserve beyond the text itself.

  The values. At the extended reals a change of float format is the identity, the kernel's logistic is the reference's
  `1 / (1 + e⁻ˣ)`, and a matrix product is a plain sum; the kernel drops the unused forget-gate rows before the product
  where the reference slices them away after it, and it adds two 128-column products where the reference multiplies one
  256-column concatenation: the same sums, regrouped, with no appeal to finiteness. Both results are therefore the one
  function `Cert.Spec.out` of the twelve arguments (Proof/KIValue.lean for the kernel, Proof/RefRun.lean for the
  reference, whose straight line of host operations is read stretch by stretch), the gathering and stacking steps spelt with the same host operations on both sides.
-/
import proofs.«165492_j790273982767_2_alg».proof.Defs
import proofs.«165492_j790273982767_2_alg».proof.Proof.Gen.Kernel
import proofs.«165492_j790273982767_2_alg».proof.Proof.Gen.KernelIdeal
import proofs.«165492_j790273982767_2_alg».proof.Proof.Gen.ReferenceIdeal
import proofs.«165492_j790273982767_2_alg».proof.Proof.Gen.Pre_finite_inputs
import proofs.«165492_j790273982767_2_alg».proof.Proof.KFrame
import proofs.«165492_j790273982767_2_alg».proof.Proof.KIValue
import proofs.«165492_j790273982767_2_alg».proof.Proof.RefRun
import Idealize.ShloMosaic.Adequacy
import Idealize.ShloMosaic.Init

set_option maxRecDepth 16384

noncomputable section

namespace Cert.Proof

open Idealize.ShloMosaic Idealize.ShloMosaic.TcCoe Idealize.SL.Sem

/-- The printed kernel program runs to the end, faults nowhere, and leaves its arguments as launched. -/
theorem frame_k : Cert.frame_Kernel (hKernel := Cert.Kernel.Gen.facts) (hPre_finite_inputs := Cert.Pre_finite_inputs.Gen.facts) :=
  fun m ρ _ => Cert.Kernel.Whole.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Whole.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.RefRun.run m ρ)

/-- The idealization rewrote nothing. -/
theorem preserves : Cert.preserves_Kernel_KernelIdeal := trivial

/-- The aggregation step is spelt with the same host operations in both programs. -/
theorem agg_same : Cert.RefValue.agg = Cert.KernelIdeal.WholeValue.aggK := rfl
/-- So is the stacking step. -/
theorem stk_same : Cert.RefValue.stk = Cert.KernelIdeal.WholeValue.stkK := rfl

/-- At the extended reals both programs, run from memories agreeing on the arguments, end with the result buffer at the
    specification's function of the arguments, and with the arguments unchanged. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Spec.out Cert.KernelIdeal.WholeValue.aggK Cert.KernelIdeal.WholeValue.stkK
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11)), ?_, ?_⟩
  · refine (θ_run Cert.KernelIdeal.defs _ _).mono (fun r h c => ⟨?_,
      Cert.KernelIdeal.Whole.arg_kept m ρ c Cert.KernelIdeal.main_arg0 (by decide) (by decide) (by decide) (by decide) (by decide) (by decide) (by decide) (by decide) (by decide) (by decide) r.2 (h c),
      Cert.KernelIdeal.Whole.arg_kept m ρ c Cert.KernelIdeal.main_arg1 (by decide) (by decide) (by decide) (by decide) (by decide) (by decide) (by decide) (by decide) (by decide) (by decide) r.2 (h c),
      Cert.KernelIdeal.Whole.arg_kept m ρ c Cert.KernelIdeal.main_arg2 (by decide) (by decide) (by decide) (by decide) (by decide) (by decide) (by decide) (by decide) (by decide) (by decide) r.2 (h c),
      Cert.KernelIdeal.Whole.arg_kept m ρ c Cert.KernelIdeal.main_arg3 (by decide) (by decide) (by decide) (by decide) (by decide) (by decide) (by decide) (by decide) (by decide) (by decide) r.2 (h c),
      Cert.KernelIdeal.Whole.arg_kept m ρ c Cert.KernelIdeal.main_arg4 (by decide) (by decide) (by decide) (by decide) (by decide) (by decide) (by decide) (by decide) (by decide) (by decide) r.2 (h c),
      Cert.KernelIdeal.Whole.arg_kept m ρ c Cert.KernelIdeal.main_arg5 (by decide) (by decide) (by decide) (by decide) (by decide) (by decide) (by decide) (by decide) (by decide) (by decide) r.2 (h c),
      Cert.KernelIdeal.Whole.arg_kept m ρ c Cert.KernelIdeal.main_arg6 (by decide) (by decide) (by decide) (by decide) (by decide) (by decide) (by decide) (by decide) (by decide) (by decide) r.2 (h c),
      Cert.KernelIdeal.Whole.arg_kept m ρ c Cert.KernelIdeal.main_arg7 (by decide) (by decide) (by decide) (by decide) (by decide) (by decide) (by decide) (by decide) (by decide) (by decide) r.2 (h c),
      Cert.KernelIdeal.Whole.arg_kept m ρ c Cert.KernelIdeal.main_arg8 (by decide) (by decide) (by decide) (by decide) (by decide) (by decide) (by decide) (by decide) (by decide) (by decide) r.2 (h c),
      Cert.KernelIdeal.Whole.arg_kept m ρ c Cert.KernelIdeal.main_arg9 (by decide) (by decide) (by decide) (by decide) (by decide) (by decide) (by decide) (by decide) (by decide) (by decide) r.2 (h c),
      Cert.KernelIdeal.Whole.arg_kept m ρ c Cert.KernelIdeal.main_arg10 (by decide) (by decide) (by decide) (by decide) (by decide) (by decide) (by decide) (by decide) (by decide) (by decide) r.2 (h c),
      Cert.KernelIdeal.Whole.arg_kept m ρ c Cert.KernelIdeal.main_arg11 (by decide) (by decide) (by decide) (by decide) (by decide) (by decide) (by decide) (by decide) (by decide) (by decide) r.2 (h c)⟩) (Cert.KernelIdeal.Whole.run_all m ρ)
    exact (h c _ (Cert.KernelIdeal.Whole.mem_uc Cert.KernelIdeal.main_v54 (by decide))).trans (Cert.KernelIdeal.WholeValue.result m ρ c)
  · refine (θ_run Cert.ReferenceIdeal.defs _ _).mono (fun _ h c => ⟨(h c).1.trans ?_, (h c).2⟩)
      (Cert.RefRun.run m' ρ')
    obtain ⟨a0, a1, a2, a3, a4, a5, a6, a7, a8, a9, a10, a11⟩ := hagree c
    rw [a0, a1, a2, a3, a4, a5, a6, a7, a8, a9, a10, a11, agg_same, stk_same]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
